-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg9 : FVec F S3x128 .f32) (main_arg12 : FVec F S64x1 .f32) (main_arg13 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg12
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_cst_24 : FVec F S_ .f32 := constant S_ .f32 0x00000000#32
  let main_v64 : FVec F S3x128 .f32 := broadcastInDim S3x128 ![] bcast_S_S3x128 main_cst_24
  let main_v65 : IVec S3x128 1 := cmpf .oge main_arg9 main_v64
  let main_c_25 : IVec S_ 1 := constantI S_ 1 1#1
  let main_v66 : IVec S_ 1 := (fun x v => Host.reduce IntOp.andi x v reducesTo_S3x128_S_d0_1 h_S_) main_v65 main_c_25
  let main_v67 : IVec S_ 1 := andi main_v63 main_v66
  main_v67

def fn_part2 {F : FTy → Type} [FloatOps F] (main_arg8 : FVec F S3x128 .f32) (main_arg9 : FVec F S3x128 .f32) (main_arg10 : FVec F S128x64 .f32) (main_arg11 : FVec F S64 .f32) (main_arg12 : FVec F S64x1 .f32) (main_arg13 : FVec F S1 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg9
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg9 main_arg12 main_arg13 main_v48 main_v49 main_v50

def fn_part1 {F : FTy → Type} [FloatOps F] (main_arg5 : FVec F S3x128 .f32) (main_arg6 : FVec F S3x128 .f32) (main_arg7 : FVec F S3x128 .f32) (main_arg8 : FVec F S3x128 .f32) (main_arg9 : FVec F S3x128 .f32) (main_arg10 : FVec F S128x64 .f32) (main_arg11 : FVec F S64 .f32) (main_arg12 : FVec F S64x1 .f32) (main_arg13 : FVec F S1 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x64 .f32) (main_arg1 : IVec S2x800000 32) (main_arg2 : FVec F S64x128 .f32) (main_arg3 : FVec F S128 .f32) (main_arg4 : FVec F S3x128x128 .f32) (main_arg5 : FVec F S3x128 .f32) (main_arg6 : FVec F S3x128 .f32) (main_arg7 : FVec F S3x128 .f32) (main_arg8 : FVec F S3x128 .f32) (main_arg9 : FVec F S3x128 .f32) (main_arg10 : FVec F S128x64 .f32) (main_arg11 : FVec F S64 .f32) (main_arg12 : FVec F S64x1 .f32) (main_arg13 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_arg10 main_arg11 main_arg12 main_arg13 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S1x64 : Shape := ⟨2, ![1, 64]⟩
abbrev S1x1 : Shape := ⟨2, ![1, 1]⟩
abbrev S50000x128 : Shape := ⟨2, ![50000, 128]⟩
abbrev S2000x64 : Shape := ⟨2, ![2000, 64]⟩
abbrev S2000x128 : Shape := ⟨2, ![2000, 128]⟩
abbrev S1x128x128 : Shape := ⟨3, ![1, 128, 128]⟩
abbrev S128x128 : Shape := ⟨2, ![128, 128]⟩
abbrev S850000x128 : Shape := ⟨2, ![850000, 128]⟩
abbrev S50000x1 : Shape := ⟨2, ![50000, 1]⟩
abbrev S2000x1 : Shape := ⟨2, ![2000, 1]⟩

abbrev nBuf : Space → Nat
  | .hbm => 151
  | .vmem => 43
  | .smem => 0
  | _ => 0

abbrev hbmTy0_0 (i : Nat) : BufTy := match i % 128 with
  | 0 => ⟨S50000x64, .f32⟩
  | 1 => ⟨S2x800000, .i32⟩
  | 2 => ⟨S64x128, .f32⟩
  | 3 => ⟨S128, .f32⟩
  | 4 => ⟨S3x128x128, .f32⟩
  | 5 => ⟨S3x128, .f32⟩
  | 6 => ⟨S3x128, .f32⟩
  | 7 => ⟨S3x128, .f32⟩
  | 8 => ⟨S3x128, .f32⟩
  | 9 => ⟨S3x128, .f32⟩
  | 10 => ⟨S128x64, .f32⟩
  | 11 => ⟨S64, .f32⟩
  | 12 => ⟨S64x1, .f32⟩
  | 13 => ⟨S1, .f32⟩
  | 14 => ⟨S50000, .i32⟩
  | 15 => ⟨S1x800000, .i32⟩
  | 16 => ⟨S800000, .i32⟩
  | 17 => ⟨S850000, .i32⟩
  | 18 => ⟨S1x800000, .i32⟩
  | 19 => ⟨S800000, .i32⟩
  | 20 => ⟨S850000, .i32⟩
  | 21 => ⟨S_, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .i1⟩
  | 30 => ⟨S_, .f32⟩
  | 31 => ⟨S50000, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000, .f32⟩
  | 56 => ⟨S850000, .f32⟩
  | 57 => ⟨S850000x1, .f32⟩
  | 58 => ⟨S_, .f32⟩
  | 59 => ⟨S3x128, .f32⟩
  | 60 => ⟨S3x128, .f32⟩
  | 61 => ⟨S3x128, .f32⟩
  | 62 => ⟨S3x128, .f32⟩
  | 63 => ⟨S3x128, .f32⟩
  | 64 => ⟨S3x128, .f32⟩
  | 65 => ⟨S1x128, .f32⟩
  | 66 => ⟨S1x64, .f32⟩
  | 67 => ⟨S1x1, .f32⟩
  | 68 => ⟨S50000x128, .f32⟩
  | 69 => ⟨S1x128x128, .f32⟩
  | 70 => ⟨S128x128, .f32⟩
  | 71 => ⟨S50000x128, .bf16⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000x128, .bf16⟩
  | 81 => ⟨S850000x128, .f32⟩
  | 82 => ⟨S850000x128, .f32⟩
  | 83 => ⟨S850000x128, .f32⟩
  | 84 => ⟨S_, .f32⟩
  | 85 => ⟨S50000x128, .f32⟩
  | 86 => ⟨S850000x1, .i32⟩
  | 87 => ⟨S50000x128, .f32⟩
  | 88 => ⟨S1x128, .f32⟩
  | 89 => ⟨S128, .f32⟩
  | 90 => ⟨S1x128, .f32⟩
  | 91 => ⟨S50000x128, .f32⟩
  | 92 => ⟨S50000x128, .f32⟩
  | 93 => ⟨S1x128, .f32⟩
  | 94 => ⟨S1x128, .f32⟩
  | 95 => ⟨S1x128x128, .f32⟩
  | 96 => ⟨S128x128, .f32⟩
  | 97 => ⟨S50000x128, .f32⟩
  | 98 => ⟨S50000x128, .bf16⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000x128, .bf16⟩
  | 108 => ⟨S850000x128, .f32⟩
  | 109 => ⟨S850000x128, .f32⟩
  | 110 => ⟨S850000x128, .f32⟩
  | 111 => ⟨S_, .f32⟩
  | 112 => ⟨S50000x128, .f32⟩
  | 113 => ⟨S850000x1, .i32⟩
  | 114 => ⟨S50000x128, .f32⟩
  | 115 => ⟨S1x128, .f32⟩
  | 116 => ⟨S128, .f32⟩
  | 117 => ⟨S1x128, .f32⟩
  | 118 => ⟨S50000x128, .f32⟩
  | 119 => ⟨S50000x128, .f32⟩
  | 120 => ⟨S1x128, .f32⟩
  | 121 => ⟨S1x128, .f32⟩
  | 122 => ⟨S1x128x128, .f32⟩
  | 123 => ⟨S128x128, .f32⟩
  | 124 => ⟨S50000x128, .f32⟩
  | 125 => ⟨S50000x128, .bf16⟩
  | 126 => ⟨S_, .i32⟩
  | 127 => ⟨S850000, .i32⟩
  | _ => ⟨S50000x64, .f32⟩

abbrev hbmTy0_1 (i : Nat) : BufTy := match i % 128 with
  | 0 => ⟨S850000, .i1⟩
  | 1 => ⟨S_, .i32⟩
  | 2 => ⟨S850000, .i32⟩
  | 3 => ⟨S850000, .i32⟩
  | 4 => ⟨S850000, .i32⟩
  | 5 => ⟨S850000x1, .i32⟩
  | 6 => ⟨S850000x128, .bf16⟩
  | 7 => ⟨S850000x128, .f32⟩
  | 8 => ⟨S850000x128, .f32⟩
  | 9 => ⟨S850000x128, .f32⟩
  | 10 => ⟨S_, .f32⟩
  | 11 => ⟨S50000x128, .f32⟩
  | 12 => ⟨S850000x1, .i32⟩
  | 13 => ⟨S50000x128, .f32⟩
  | 14 => ⟨S1x128, .f32⟩
  | 15 => ⟨S128, .f32⟩
  | 16 => ⟨S1x128, .f32⟩
  | 17 => ⟨S50000x128, .f32⟩
  | 18 => ⟨S50000x128, .f32⟩
  | 19 => ⟨S1x128, .f32⟩
  | 20 => ⟨S1x128, .f32⟩
  | 21 => ⟨S50000x1, .f32⟩
  | 22 => ⟨S50000, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S64x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S2000x128, .bf16⟩
  | .local _ .vmem, ⟨10, _⟩ => ⟨S2000x128, .bf16⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .bf16⟩
  | .local _ .vmem, ⟨19, _⟩ => ⟨S2000x128, .bf16⟩
  | .local _ .vmem, ⟨20, _⟩ => ⟨S2000x128, .f32⟩
  | .local _ .vmem, ⟨21, _⟩ => ⟨S2000x128, .f32⟩
  | .local _ .vmem, ⟨22, _⟩ => ⟨S1x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S2000x128, .f32⟩
  | .local _ .vmem, ⟨28, _⟩ => ⟨S2000x128, .f32⟩
  | .local _ .vmem, ⟨29, _⟩ => ⟨S2000x128, .bf16⟩
  | .local _ .vmem, ⟨30, _⟩ => ⟨S2000x128, .bf16⟩
  | .local _ .vmem, ⟨31, _⟩ => ⟨S2000x128, .f32⟩
  | .local _ .vmem, ⟨32, _⟩ => ⟨S2000x128, .f32⟩
  | .local _ .vmem, ⟨33, _⟩ => ⟨S1x128, .f32⟩
  | .local _ .vmem, ⟨34, _⟩ => ⟨S1x128, .f32⟩
  | .local _ .vmem, ⟨35, _⟩ => ⟨S2000x128, .f32⟩
  | .local _ .vmem, ⟨36, _⟩ => ⟨S2000x128, .f32⟩
  | .local _ .vmem, ⟨37, _⟩ => ⟨S128x64, .f32⟩
  | .local _ .vmem, ⟨38, _⟩ => ⟨S1x64, .f32⟩
  | .local _ .vmem, ⟨39, _⟩ => ⟨S64x1, .f32⟩
  | .local _ .vmem, ⟨40, _⟩ => ⟨S1x1, .f32⟩
  | .local _ .vmem, ⟨41, _⟩ => ⟨S2000x1, .f32⟩
  | .local _ .vmem, ⟨42, _⟩ => ⟨S2000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_8 : Ref sig .tc := ⟨.hbm, 72, rfl⟩
abbrev main_v46 : Ref sig .tc := ⟨.hbm, 73, rfl⟩
abbrev main_v47 : Ref sig .tc := ⟨.hbm, 74, rfl⟩
abbrev main_c_9 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_10 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68_0 : Ref sig .tc := ⟨.hbm, 97, rfl⟩
abbrev main_v68_1 : Ref sig .tc := ⟨.hbm, 98, rfl⟩
abbrev main_c_11 : Ref sig .tc := ⟨.hbm, 99, rfl⟩
abbrev main_v69 : Ref sig .tc := ⟨.hbm, 100, rfl⟩
abbrev main_v70 : Ref sig .tc := ⟨.hbm, 101, rfl⟩
abbrev main_c_12 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_13 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91_0 : Ref sig .tc := ⟨.hbm, 124, rfl⟩
abbrev main_v91_1 : Ref sig .tc := ⟨.hbm, 125, rfl⟩
abbrev main_c_14 : Ref sig .tc := ⟨.hbm, 126, rfl⟩
abbrev main_v92 : Ref sig .tc := ⟨.hbm, 127, rfl⟩
abbrev main_v93 : Ref sig .tc := ⟨.hbm, 128, rfl⟩
abbrev main_c_15 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_16 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg5_1 : Ref sig .tc := ⟨.vmem, 28, rfl⟩
abbrev cc3_stg6_0 : Ref sig .tc := ⟨.vmem, 29, rfl⟩
abbrev cc3_stg6_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg3_1 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg6_0 : Ref sig .tc := ⟨.vmem, 39, rfl⟩
abbrev cc4_stg7_0 : Ref sig .tc := ⟨.vmem, 40, rfl⟩
abbrev cc4_stg8_0 : Ref sig .tc := ⟨.vmem, 41, rfl⟩
abbrev cc4_stg8_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc3_sem4_0 : DmaSem sig := 26
abbrev cc3_sem5_0 : DmaSem sig := 27
abbrev cc3_sem5_1 : DmaSem sig := 28
abbrev cc3_sem6_0 : DmaSem sig := 29
abbrev cc3_sem6_1 : DmaSem sig := 30
abbrev cc4_sem0_0 : DmaSem sig := 31
abbrev cc4_sem0_1 : DmaSem sig := 32
abbrev cc4_sem1_0 : DmaSem sig := 33
abbrev cc4_sem2_0 : DmaSem sig := 34
abbrev cc4_sem3_0 : DmaSem sig := 35
abbrev cc4_sem3_1 : DmaSem sig := 36
abbrev cc4_sem4_0 : DmaSem sig := 37
abbrev cc4_sem5_0 : DmaSem sig := 38
abbrev cc4_sem6_0 : DmaSem sig := 39
abbrev cc4_sem7_0 : DmaSem sig := 40
abbrev cc4_sem8_0 : DmaSem sig := 41
abbrev cc4_sem8_1 : DmaSem sig := 42

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x128 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S128x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S2000x1 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S3x128 : S_.BroadcastsInDim S3x128 (![] : Fin 0 → Fin S3x128.rank)
  shapeCasts_S128_S1x128 : S128.ShapeCasts S1x128
  shapeCasts_S64_S1x64 : S64.ShapeCasts S1x64
  shapeCasts_S1_S1x1 : S1.ShapeCasts S1x1
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S3x128x128_S1x128x128_0_0_0 : S3x128x128.Slices ![0, 0, 0] S1x128x128
  shapeCasts_S1x128x128_S128x128 : S1x128x128.ShapeCasts S128x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S2000x128_S2000x128_0_0 : (Rect.unit (s := S2000x128) ![0, 0] S2000x128.size inb_S2000x128_S2000x128_0_0).PackedRows (EltTy.packing .bf16)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S50000x1_S50000 : S50000x1.ShapeCasts S50000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x64_S64x128_S2000x128_1_0_0_1_n_n_wf : DotDims.WF S2000x64 S64x128 S2000x128 [1] [0] [0] [1] [] []
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .bf16 = 32 ∨ (Rect.block (s := S50000x128) S2000x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .bf16 = 32 ∨ (Rect.block (s := S50000x128) S2000x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .bf16 = 32 ∨ (Rect.block (s := S50000x128) S2000x128.size (cc3_transform_6 i) (hinb3_6 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x64.size a ≤ S128x64.size a
  hwx4_4 : ∀ i : grid4.Coords, EltTy.bits .f32 = 32 ∨ (Rect.block (s := S128x64) S128x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64x1.size a ≤ S64x1.size a
  hwx4_6 : ∀ i : grid4.Coords, EltTy.bits .f32 = 32 ∨ (Rect.block (s := S64x1) S64x1.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x1.size a ≤ S1x1.size a
  hwx4_7 : ∀ i : grid4.Coords, EltTy.bits .f32 = 32 ∨ (Rect.block (s := S1x1) S1x1.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2000x1.size a ≤ S50000x1.size a
  hwx4_8 : ∀ i : grid4.Coords, EltTy.bits .f32 = 32 ∨ (Rect.block (s := S50000x1) S2000x1.size (cc4_transform_8 i) (hinb4_8 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v42) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v63) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68_0) S2000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v68_1) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v86) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v87) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v88) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68_0) S2000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v90) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v91_0) S2000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v91_1) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v109) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v110) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v111) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v91_0) S2000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg10) S128x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v40) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg12) S64x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v41) S1x1.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v112) S2000x1.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S1x128 : Shape := ⟨2, ![1, 128]⟩
abbrev S1x128x128 : Shape := ⟨3, ![1, 128, 128]⟩
abbrev S128x128 : Shape := ⟨2, ![128, 128]⟩
abbrev S850000x128 : Shape := ⟨2, ![850000, 128]⟩
abbrev S1x64 : Shape := ⟨2, ![1, 64]⟩
abbrev S50000x1 : Shape := ⟨2, ![50000, 1]⟩
abbrev S1x1 : Shape := ⟨2, ![1, 1]⟩

abbrev nBuf : Space → Nat
  | .hbm => 229
  | .vmem => 0
  | .smem => 0
  | _ => 0

abbrev hbmTy0_0 (i : Nat) : BufTy := match i % 128 with
  | 0 => ⟨S50000x64, .f32⟩
  | 1 => ⟨S2x800000, .i32⟩
  | 2 => ⟨S64x128, .f32⟩
  | 3 => ⟨S128, .f32⟩
  | 4 => ⟨S3x128x128, .f32⟩
  | 5 => ⟨S3x128, .f32⟩
  | 6 => ⟨S3x128, .f32⟩
  | 7 => ⟨S3x128, .f32⟩
  | 8 => ⟨S3x128, .f32⟩
  | 9 => ⟨S3x128, .f32⟩
  | 10 => ⟨S128x64, .f32⟩
  | 11 => ⟨S64, .f32⟩
  | 12 => ⟨S64x1, .f32⟩
  | 13 => ⟨S1, .f32⟩
  | 14 => ⟨S50000, .i32⟩
  | 15 => ⟨S1x800000, .i32⟩
  | 16 => ⟨S800000, .i32⟩
  | 17 => ⟨S850000, .i32⟩
  | 18 => ⟨S1x800000, .i32⟩
  | 19 => ⟨S800000, .i32⟩
  | 20 => ⟨S850000, .i32⟩
  | 21 => ⟨S_, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .i1⟩
  | 30 => ⟨S_, .f32⟩
  | 31 => ⟨S50000, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000, .f32⟩
  | 56 => ⟨S850000, .f32⟩
  | 57 => ⟨S850000x1, .f32⟩
  | 58 => ⟨S50000x128, .f32⟩
  | 59 => ⟨S1x128, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S1x128x128, .f32⟩
  | 66 => ⟨S128x128, .f32⟩
  | 67 => ⟨S50000x128, .f32⟩
  | 68 => ⟨S_, .i32⟩
  | 69 => ⟨S850000, .i32⟩
  | 70 => ⟨S850000, .i1⟩
  | 71 => ⟨S_, .i32⟩
  | 72 => ⟨S850000, .i32⟩
  | 73 => ⟨S850000, .i32⟩
  | 74 => ⟨S850000, .i32⟩
  | 75 => ⟨S850000x1, .i32⟩
  | 76 => ⟨S850000x128, .f32⟩
  | 77 => ⟨S850000x128, .f32⟩
  | 78 => ⟨S850000x128, .f32⟩
  | 79 => ⟨S_, .f32⟩
  | 80 => ⟨S50000x128, .f32⟩
  | 81 => ⟨S850000x1, .i32⟩
  | 82 => ⟨S50000x128, .f32⟩
  | 83 => ⟨S1x128, .f32⟩
  | 84 => ⟨S128, .f32⟩
  | 85 => ⟨S1x128, .f32⟩
  | 86 => ⟨S50000x128, .f32⟩
  | 87 => ⟨S50000x128, .f32⟩
  | 88 => ⟨S1x128, .f32⟩
  | 89 => ⟨S128, .f32⟩
  | 90 => ⟨S1x128, .f32⟩
  | 91 => ⟨S50000x128, .f32⟩
  | 92 => ⟨S50000x128, .f32⟩
  | 93 => ⟨S1x128, .f32⟩
  | 94 => ⟨S128, .f32⟩
  | 95 => ⟨S_, .f32⟩
  | 96 => ⟨S128, .f32⟩
  | 97 => ⟨S128, .f32⟩
  | 98 => ⟨S128, .f32⟩
  | 99 => ⟨S1x128, .f32⟩
  | 100 => ⟨S50000x128, .f32⟩
  | 101 => ⟨S50000x128, .f32⟩
  | 102 => ⟨S1x128, .f32⟩
  | 103 => ⟨S128, .f32⟩
  | 104 => ⟨S1x128, .f32⟩
  | 105 => ⟨S50000x128, .f32⟩
  | 106 => ⟨S50000x128, .f32⟩
  | 107 => ⟨S1x128, .f32⟩
  | 108 => ⟨S128, .f32⟩
  | 109 => ⟨S1x128, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S1x128x128, .f32⟩
  | 116 => ⟨S128x128, .f32⟩
  | 117 => ⟨S50000x128, .f32⟩
  | 118 => ⟨S_, .i32⟩
  | 119 => ⟨S850000, .i32⟩
  | 120 => ⟨S850000, .i1⟩
  | 121 => ⟨S_, .i32⟩
  | 122 => ⟨S850000, .i32⟩
  | 123 => ⟨S850000, .i32⟩
  | 124 => ⟨S850000, .i32⟩
  | 125 => ⟨S850000x1, .i32⟩
  | 126 => ⟨S850000x128, .f32⟩
  | 127 => ⟨S850000x128, .f32⟩
  | _ => ⟨S50000x64, .f32⟩

abbrev hbmTy0_1 (i : Nat) : BufTy := match i % 128 with
  | 0 => ⟨S850000x128, .f32⟩
  | 1 => ⟨S_, .f32⟩
  | 2 => ⟨S50000x128, .f32⟩
  | 3 => ⟨S850000x1, .i32⟩
  | 4 => ⟨S50000x128, .f32⟩
  | 5 => ⟨S1x128, .f32⟩
  | 6 => ⟨S128, .f32⟩
  | 7 => ⟨S1x128, .f32⟩
  | 8 => ⟨S50000x128, .f32⟩
  | 9 => ⟨S50000x128, .f32⟩
  | 10 => ⟨S1x128, .f32⟩
  | 11 => ⟨S128, .f32⟩
  | 12 => ⟨S1x128, .f32⟩
  | 13 => ⟨S50000x128, .f32⟩
  | 14 => ⟨S50000x128, .f32⟩
  | 15 => ⟨S1x128, .f32⟩
  | 16 => ⟨S128, .f32⟩
  | 17 => ⟨S_, .f32⟩
  | 18 => ⟨S128, .f32⟩
  | 19 => ⟨S128, .f32⟩
  | 20 => ⟨S128, .f32⟩
  | 21 => ⟨S1x128, .f32⟩
  | 22 => ⟨S50000x128, .f32⟩
  | 23 => ⟨S50000x128, .f32⟩
  | 24 => ⟨S1x128, .f32⟩
  | 25 => ⟨S128, .f32⟩
  | 26 => ⟨S1x128, .f32⟩
  | 27 => ⟨S50000x128, .f32⟩
  | 28 => ⟨S50000x128, .f32⟩
  | 29 => ⟨S1x128, .f32⟩
  | 30 => ⟨S128, .f32⟩
  | 31 => ⟨S1x128, .f32⟩
  | 32 => ⟨S50000x128, .f32⟩
  | 33 => ⟨S50000x128, .f32⟩
  | 34 => ⟨S_, .f32⟩
  | 35 => ⟨S50000x128, .f32⟩
  | 36 => ⟨S50000x128, .f32⟩
  | 37 => ⟨S50000x128, .f32⟩
  | 38 => ⟨S1x128x128, .f32⟩
  | 39 => ⟨S128x128, .f32⟩
  | 40 => ⟨S50000x128, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000x128, .f32⟩
  | 50 => ⟨S850000x128, .f32⟩
  | 51 => ⟨S850000x128, .f32⟩
  | 52 => ⟨S_, .f32⟩
  | 53 => ⟨S50000x128, .f32⟩
  | 54 => ⟨S850000x1, .i32⟩
  | 55 => ⟨S50000x128, .f32⟩
  | 56 => ⟨S1x128, .f32⟩
  | 57 => ⟨S128, .f32⟩
  | 58 => ⟨S1x128, .f32⟩
  | 59 => ⟨S50000x128, .f32⟩
  | 60 => ⟨S50000x128, .f32⟩
  | 61 => ⟨S1x128, .f32⟩
  | 62 => ⟨S128, .f32⟩
  | 63 => ⟨S1x128, .f32⟩
  | 64 => ⟨S50000x128, .f32⟩
  | 65 => ⟨S50000x128, .f32⟩
  | 66 => ⟨S1x128, .f32⟩
  | 67 => ⟨S128, .f32⟩
  | 68 => ⟨S_, .f32⟩
  | 69 => ⟨S128, .f32⟩
  | 70 => ⟨S128, .f32⟩
  | 71 => ⟨S128, .f32⟩
  | 72 => ⟨S1x128, .f32⟩
  | 73 => ⟨S50000x128, .f32⟩
  | 74 => ⟨S50000x128, .f32⟩
  | 75 => ⟨S1x128, .f32⟩
  | 76 => ⟨S128, .f32⟩
  | 77 => ⟨S1x128, .f32⟩
  | 78 => ⟨S50000x128, .f32⟩
  | 79 => ⟨S50000x128, .f32⟩
  | 80 => ⟨S1x128, .f32⟩
  | 81 => ⟨S128, .f32⟩
  | 82 => ⟨S1x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S50000x128, .f32⟩
  | 89 => ⟨S50000x64, .f32⟩
  | 90 => ⟨S1x64, .f32⟩
  | 91 => ⟨S50000x64, .f32⟩
  | 92 => ⟨S50000x64, .f32⟩
  | 93 => ⟨S_, .f32⟩
  | 94 => ⟨S50000x64, .f32⟩
  | 95 => ⟨S50000x64, .f32⟩
  | 96 => ⟨S50000x1, .f32⟩
  | 97 => ⟨S1x1, .f32⟩
  | 98 => ⟨S50000x1, .f32⟩
  | 99 => ⟨S50000x1, .f32⟩
  | 100 => ⟨S50000, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call1_cst : Ref sig .tc := ⟨.hbm, 62, rfl⟩
abbrev main_call1_v0 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_7 : Ref sig .tc := ⟨.hbm, 68, rfl⟩
abbrev main_v41 : Ref sig .tc := ⟨.hbm, 69, rfl⟩
abbrev main_v42 : Ref sig .tc := ⟨.hbm, 70, rfl⟩
abbrev main_c_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_9 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_10 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_call2_cst : Ref sig .tc := ⟨.hbm, 112, rfl⟩
abbrev main_call2_v0 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_11 : Ref sig .tc := ⟨.hbm, 118, rfl⟩
abbrev main_v85 : Ref sig .tc := ⟨.hbm, 119, rfl⟩
abbrev main_v86 : Ref sig .tc := ⟨.hbm, 120, rfl⟩
abbrev main_c_12 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_13 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_14 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_call3_cst : Ref sig .tc := ⟨.hbm, 162, rfl⟩
abbrev main_call3_v0 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_c_15 : Ref sig .tc := ⟨.hbm, 169, rfl⟩
abbrev main_v130 : Ref sig .tc := ⟨.hbm, 170, rfl⟩
abbrev main_v131 : Ref sig .tc := ⟨.hbm, 171, rfl⟩
abbrev main_c_16 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_cst_17 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_cst_18 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_call4_cst : Ref sig .tc := ⟨.hbm, 213, rfl⟩
abbrev main_call4_v0 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_call5_cst : Ref sig .tc := ⟨.hbm, 221, rfl⟩
abbrev main_call5_v0 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  bcast_S850000x1_S850000x128_0_1 : S850000x1.BroadcastsInDim S850000x128 (![0, 1] : Fin 2 → Fin S850000x128.rank)
  slices_S3x128_S1x128_0_0 : S3x128.Slices ![0, 0] S1x128
  shapeCasts_S1x128_S128 : S1x128.ShapeCasts S128
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x128_S50000x128_1_0_0_1_n_n_wf : DotDims.WF S50000x64 S64x128 S50000x128 [1] [0] [0] [1] [] []
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  dot_S50000x64_S64x1_S50000x1_1_0_0_1_n_n_wf : DotDims.WF S50000x64 S64x1 S50000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KernelRun.lean ====
/-
  The idealized kernel program runs to completion from any launch memory, nothing faulting, and ends with
  every argument array as launched and its RESULT buffer holding what the last boundary of the program holds
  there: @main is a chain of host stretches and five tiled regions, each segment entered from the buffer
  contents the previous one leaves, so the final state's buffers are the contents at the last boundary.
  The value of that last boundary at the result buffer is read in the modules that import this one.
-/
import proofs.«135840_j20212116095605_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; afterwards the result buffer
    holds the last boundary's contents and the fourteen argument arrays are unchanged. -/
theorem run_named : θ_run defs (onTc (τ := τ) (main (F := F))) ⟨m, fun _ => 0, ρ⟩ (fun r => ∀ c : Dev nD,
      r.2.mem ((c.tc : Thread nD τ).loc main_v113) = W13 m ρ c (Proc.devRef .tc main_v113)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v113 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c)⟩)

end Cert.KernelIdeal.Hand

end
-- ==== Proof.PreDecode.lean ====
/-
  What the precondition says, element by element. The precondition is one truth value: the conjunction, over
  all float inputs, of "every entry has magnitude below +∞", and of "every entry of the running variance is
  ≥ 0". Read at the extended reals this gives, for the four per-channel batch-norm parameter arrays the
  algebraic law needs: every entry of the scale γ, the shift β and the running mean μ is a REAL number, and
  every entry of the running variance is a real number that is ≥ 0.
-/
import proofs.«135840_j20212116095605_2_alg».proof.Pre_finite_inputs
import Idealize.ShloMosaic.Lib.ReduceAll
import Idealize.ShloMosaic.Lib.Affine
import Idealize.ShloMosaic.PureOps.Ideal

noncomputable section

namespace Cert.PreFacts

open Idealize.ShloMosaic Cert.Pre_finite_inputs Cert.Pre_finite_inputs.Facts

variable [Cert.Pre_finite_inputs.Facts]

/-- The shape with no axes has one index. -/
instance : Subsingleton S_.Idx := ⟨fun a b => funext fun d => d.elim0⟩

/-- The single-precision pattern of +∞ denotes the top element. -/
theorem ofBits_inf : Ideal.ofBits .f32 0x7F800000#32 = (⊤ : EReal) := by
  simp [Ideal.ofBits, Ideal.ieee]

/-- An extended real whose magnitude is below +∞ is a real number. -/
theorem real_of_abs_lt_top (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- One `all(|a| < +∞)` conjunct that holds gives a real at every index. -/
theorem real_of_all {s : Shape} (a : FVec Ideal s .f32) (hb : S_.BroadcastsInDim s (![] : Fin 0 → Fin s.rank))
    {axes : List (Fin s.rank)} (hr : s.ReducesTo axes S_) (hu : 0 < S_.numel) (j : S_.Idx)
    (e : Host.reduce IntOp.andi (cmpf .olt (Host.absf a) (broadcastInDim s ![] hb (constant S_ .f32 0x7F800000#32)))
          (constantI S_ 1 1#1) hr hu j = 1#1) (i : s.Idx) : ∃ r : ℝ, a i = (r : EReal) := by
  have h := Host.reduce_andi_all _ _ hr hu j e i
  exact real_of_abs_lt_top (a i) h

/-- From the precondition, read as one truth value that equals 1: the entries of γ, β and μ are reals and the
    entries of the running variance are reals ≥ 0. The conjunction is a left-nested chain of `and`s, one per
    input in argument order with the variance's sign test last; it is peeled from the outside. -/
theorem decode (a0 : FVec Ideal S50000x64 .f32) (a1 : IVec S2x800000 32) (a2 : FVec Ideal S64x128 .f32) (a3 : FVec Ideal S128 .f32)
    (a4 : FVec Ideal S3x128x128 .f32) (a5 a6 a7 a8 a9 : FVec Ideal S3x128 .f32) (a10 : FVec Ideal S128x64 .f32)
    (a11 : FVec Ideal S64 .f32) (a12 : FVec Ideal S64x1 .f32) (a13 : FVec Ideal S1 .f32)
    (h : fn (F := Ideal) a0 a1 a2 a3 a4 a5 a6 a7 a8 a9 a10 a11 a12 a13 = fun _ => 1#1) :
    (∀ i, ∃ r : ℝ, a6 i = (r : EReal)) ∧ (∀ i, ∃ r : ℝ, a7 i = (r : EReal)) ∧ (∀ i, ∃ r : ℝ, a8 i = (r : EReal))
      ∧ (∀ i, ∃ r : ℝ, a9 i = (r : EReal) ∧ 0 ≤ r) := by
  have h0 := congrFun h (fun d => d.elim0)
  dsimp only [fn, fn_part1, fn_part2, fn_part3] at h0
  obtain ⟨h63, h66⟩ := IntOp.andi_eq_one.1 h0
  obtain ⟨h58, -⟩ := IntOp.andi_eq_one.1 h63
  obtain ⟨h53, -⟩ := IntOp.andi_eq_one.1 h58
  obtain ⟨h48, -⟩ := IntOp.andi_eq_one.1 h53
  obtain ⟨h43, -⟩ := IntOp.andi_eq_one.1 h48
  obtain ⟨h38, h42⟩ := IntOp.andi_eq_one.1 h43
  obtain ⟨h33, h37⟩ := IntOp.andi_eq_one.1 h38
  obtain ⟨h28, h32⟩ := IntOp.andi_eq_one.1 h33
  obtain ⟨-, h27⟩ := IntOp.andi_eq_one.1 h28
  clear h0 h63 h58 h53 h48 h43 h38 h33 h28 h
  have r6 := fun i => real_of_all a6 _ _ _ _ h27 i
  have r7 := fun i => real_of_all a7 _ _ _ _ h32 i
  have r8 := fun i => real_of_all a8 _ _ _ _ h37 i
  have r9 := fun i => real_of_all a9 _ _ _ _ h42 i
  refine ⟨r6, r7, r8, fun i => ?_⟩
  obtain ⟨r, hr⟩ := r9 i
  refine ⟨r, hr, ?_⟩
  have hge := Host.reduce_andi_all _ _ _ _ _ h66 i
  clear h27 h32 h37 h42 h66 r6 r7 r8 r9
  have h2 : Ideal.cmp .oge (a9 i) (Ideal.ofBits .f32 0#32) = 1#1 := hge
  have hz : Ideal.ofBits .f32 0#32 = (0 : EReal) := by simp [Ideal.ofBits, Ideal.ieee]
  rw [hr, hz] at h2
  by_contra hn
  simp [Ideal.cmp, hn] at h2

end Cert.PreFacts

end
-- ==== Proof.Carry.lean ====
/-
  Which buffers each host stretch of the kernel program writes, and hence which it leaves alone: a buffer that
  no operation of a stretch writes, and that is not one of a region's window arrays, holds after the stretch
  (or the region) what it held before. These are the bookkeeping facts by which a value computed early in the
  program (the edge lists, the edge weights, the folded batch-norm scale and shift, the bias rows, the weight
  matrices) is still there when a later stretch or region reads it.
-/
import proofs.«135840_j20212116095605_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

/-- Every operation of a literal stretch writes a reference of the given list: the list is checked one
    operation at a time. -/
macro "writes_in_list" : tactic =>
  `(tactic| (simp only [List.Forall]
             repeat' apply And.intro
             all_goals (simp only [StableHlo.nullary_writes, StableHlo.unary_writes, StableHlo.binary_writes,
               StableHlo.ternary_writes, StableHlo.quaternary_writes, StableHlo.reshape_writes,
               StableHlo.binaryIndexed_writes, StableHlo.unaryIndexed_writes, StableHlo.nary_writes,
               Finset.singleton_subset_iff, List.mem_toFinset]
                        exact List.mem_map_of_mem (by decide))))

/-- The references stretch `hostOps0` writes. -/
abbrev written0 : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
theorem hostOps0_writes : (hostOps0 : List (HloOp τ sig (Elt F))).Forall fun op => op.writes ⊆ (written0.map (Proc.devRef (τ := τ) .tc)).toFinset := by
  writes_in_list
/-- A reference the stretch does not write keeps its contents. -/
theorem keep0 (V : Valuation τ sig (Elt F)) (r : Ref sig .tc) (h : r ∉ written0) :
    StableHlo.after hostOps0 V (Proc.devRef .tc r) = V (Proc.devRef .tc r) :=
  StableHlo.after_of_writes_sub hostOps0 V hostOps0_writes h

/-- The references stretch `hostOps1` writes. -/
abbrev written1 : List (Ref sig .tc) := [main_v43, main_v44]
theorem hostOps1_writes : (hostOps1 : List (HloOp τ sig (Elt F))).Forall fun op => op.writes ⊆ (written1.map (Proc.devRef (τ := τ) .tc)).toFinset := by
  writes_in_list
/-- A reference the stretch does not write keeps its contents. -/
theorem keep1 (V : Valuation τ sig (Elt F)) (r : Ref sig .tc) (h : r ∉ written1) :
    StableHlo.after hostOps1 V (Proc.devRef .tc r) = V (Proc.devRef .tc r) :=
  StableHlo.after_of_writes_sub hostOps1 V hostOps1_writes h

/-- The references stretch `hostOps2` writes. -/
abbrev written2 : List (Ref sig .tc) := [main_c_8, main_v46, main_v47, main_c_9, main_v48, main_v49, main_v50, main_v51, main_v52, main_v53, main_v54, main_v55, main_cst_10, main_v56, main_v57, main_v58, main_v59, main_v60, main_v61, main_v62, main_v63, main_v64, main_v65, main_v66, main_v67]
theorem hostOps2_writes : (hostOps2 : List (HloOp τ sig (Elt F))).Forall fun op => op.writes ⊆ (written2.map (Proc.devRef (τ := τ) .tc)).toFinset := by
  writes_in_list
/-- A reference the stretch does not write keeps its contents. -/
theorem keep2 (V : Valuation τ sig (Elt F)) (r : Ref sig .tc) (h : r ∉ written2) :
    StableHlo.after hostOps2 V (Proc.devRef .tc r) = V (Proc.devRef .tc r) :=
  StableHlo.after_of_writes_sub hostOps2 V hostOps2_writes h

/-- The references stretch `hostOps3` writes. -/
abbrev written3 : List (Ref sig .tc) := [main_c_11, main_v69, main_v70, main_c_12, main_v71, main_v72, main_v73, main_v74, main_v75, main_v76, main_v77, main_v78, main_cst_13, main_v79, main_v80, main_v81, main_v82, main_v83, main_v84, main_v85, main_v86, main_v87, main_v88, main_v89, main_v90]
theorem hostOps3_writes : (hostOps3 : List (HloOp τ sig (Elt F))).Forall fun op => op.writes ⊆ (written3.map (Proc.devRef (τ := τ) .tc)).toFinset := by
  writes_in_list
/-- A reference the stretch does not write keeps its contents. -/
theorem keep3 (V : Valuation τ sig (Elt F)) (r : Ref sig .tc) (h : r ∉ written3) :
    StableHlo.after hostOps3 V (Proc.devRef .tc r) = V (Proc.devRef .tc r) :=
  StableHlo.after_of_writes_sub hostOps3 V hostOps3_writes h

/-- The references stretch `hostOps4` writes. -/
abbrev written4 : List (Ref sig .tc) := [main_c_14, main_v92, main_v93, main_c_15, main_v94, main_v95, main_v96, main_v97, main_v98, main_v99, main_v100, main_v101, main_cst_16, main_v102, main_v103, main_v104, main_v105, main_v106, main_v107, main_v108, main_v109, main_v110, main_v111]
theorem hostOps4_writes : (hostOps4 : List (HloOp τ sig (Elt F))).Forall fun op => op.writes ⊆ (written4.map (Proc.devRef (τ := τ) .tc)).toFinset := by
  writes_in_list
/-- A reference the stretch does not write keeps its contents. -/
theorem keep4 (V : Valuation τ sig (Elt F)) (r : Ref sig .tc) (h : r ∉ written4) :
    StableHlo.after hostOps4 V (Proc.devRef .tc r) = V (Proc.devRef .tc r) :=
  StableHlo.after_of_writes_sub hostOps4 V hostOps4_writes h

/-- The references stretch `hostOps5` writes. -/
abbrev written5 : List (Ref sig .tc) := [main_v113]
theorem hostOps5_writes : (hostOps5 : List (HloOp τ sig (Elt F))).Forall fun op => op.writes ⊆ (written5.map (Proc.devRef (τ := τ) .tc)).toFinset := by
  writes_in_list
/-- A reference the stretch does not write keeps its contents. -/
theorem keep5 (V : Valuation τ sig (Elt F)) (r : Ref sig .tc) (h : r ∉ written5) :
    StableHlo.after hostOps5 V (Proc.devRef .tc r) = V (Proc.devRef .tc r) :=
  StableHlo.after_of_writes_sub hostOps5 V hostOps5_writes h

/-- The references stretch `hostOps0_1` writes. -/
abbrev written0_1 : List (Ref sig .tc) := [main_call0_v0, main_call0_v1, main_v16]
theorem hostOps0_1_writes : (hostOps0_1 : List (HloOp τ sig (Elt F))).Forall fun op => op.writes ⊆ (written0_1.map (Proc.devRef (τ := τ) .tc)).toFinset := by
  writes_in_list
/-- A reference the stretch does not write keeps its contents. -/
theorem keep0_1 (V : Valuation τ sig (Elt F)) (r : Ref sig .tc) (h : r ∉ written0_1) :
    StableHlo.after hostOps0_1 V (Proc.devRef .tc r) = V (Proc.devRef .tc r) :=
  StableHlo.after_of_writes_sub hostOps0_1 V hostOps0_1_writes h

/-- The references stretch `hostOps0_2` writes. -/
abbrev written0_2 : List (Ref sig .tc) := [main_c, main_v17, main_v18, main_c_4, main_v19, main_v20, main_v21, main_v22, main_v23, main_c_5, main_v24, main_v25, main_c_6, main_v26, main_v27, main_v28, main_v29, main_v30, main_v31, main_v32, main_cst_7, main_v33, main_v34, main_v35, main_v36, main_v37, main_v38, main_v39, main_v40, main_v41]
theorem hostOps0_2_writes : (hostOps0_2 : List (HloOp τ sig (Elt F))).Forall fun op => op.writes ⊆ (written0_2.map (Proc.devRef (τ := τ) .tc)).toFinset := by
  writes_in_list
/-- A reference the stretch does not write keeps its contents. -/
theorem keep0_2 (V : Valuation τ sig (Elt F)) (r : Ref sig .tc) (h : r ∉ written0_2) :
    StableHlo.after hostOps0_2 V (Proc.devRef .tc r) = V (Proc.devRef .tc r) :=
  StableHlo.after_of_writes_sub hostOps0_2 V hostOps0_2_writes h

variable (m : (ℓ : Loc nD τ sig) → Buf (Elt F) ℓ) (ρ : Dev nD → PrngReg)

/-- A buffer none of the three opening stretches writes holds, at region 0's entry, its launch contents. -/
theorem W3_launch (c : Dev nD) (r : Ref sig .tc) (h0 : r ∉ written0) (h1 : r ∉ written0_1) (h2 : r ∉ written0_2) :
    W3 m ρ c (Proc.devRef .tc r) = m ((c : Thread nD τ).loc r) :=
  (keep0_2 _ r h2).trans ((keep0_1 _ r h1).trans (keep0 _ r h0))

/-- From region 0's entry to region 1's exit. -/
theorem W6_keep (c : Dev nD) (r : Ref sig .tc) (h0 : ∀ w, Pipeline.arrRef spec0 w ≠ r) (h1 : r ∉ written1)
    (h1' : ∀ w, Pipeline.arrRef spec1 w ≠ r) : W6 m ρ c (Proc.devRef .tc r) = W3 m ρ c (Proc.devRef .tc r) :=
  (W6_of_ne m ρ c r h1').trans ((keep1 _ r h1).trans (W4_of_ne m ρ c r h0))

/-- From region 1's exit to region 2's exit. -/
theorem W8_keep (c : Dev nD) (r : Ref sig .tc) (h2 : r ∉ written2) (h2' : ∀ w, Pipeline.arrRef spec2 w ≠ r) :
    W8 m ρ c (Proc.devRef .tc r) = W6 m ρ c (Proc.devRef .tc r) :=
  (W8_of_ne m ρ c r h2').trans (keep2 _ r h2)

/-- From region 2's exit to region 3's exit. -/
theorem W10_keep (c : Dev nD) (r : Ref sig .tc) (h3 : r ∉ written3) (h3' : ∀ w, Pipeline.arrRef spec3 w ≠ r) :
    W10 m ρ c (Proc.devRef .tc r) = W8 m ρ c (Proc.devRef .tc r) :=
  (W10_of_ne m ρ c r h3').trans (keep3 _ r h3)

/-- Across the stretch before region 4. -/
theorem W11_keep (c : Dev nD) (r : Ref sig .tc) (h4 : r ∉ written4) :
    W11 m ρ c (Proc.devRef .tc r) = W10 m ρ c (Proc.devRef .tc r) :=
  keep4 _ r h4

end Cert.KernelIdeal.Hand

end
-- ==== Proof.EntryK.lean ====
/-
  What only the kernel program computes before its first region, as functions of the argument arrays: the
  folded batch-norm coefficients for all three layers at once, scale = γ · rsqrt(v + ε) and
  shift = β − μ · scale, and the three bias vectors re-laid as one-row matrices. The argument arrays
  themselves are untouched.
-/
import proofs.«135840_j20212116095605_2_alg».proof.Proof.Carry

import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-- γ · rsqrt(v + ε), entrywise over the [3, 128] parameter arrays. -/
def scaleAll (g v : FVec Ideal S3x128 .f32) : FVec Ideal S3x128 .f32 :=
  mulf g (Host.rsqrt (addf v (broadcastInDim S3x128 ![] bcast_S_S3x128 (constant S_ .f32 0x3727C5AC#32))))

/-- β − μ · scale, entrywise. -/
def shiftAll (g b mu v : FVec Ideal S3x128 .f32) : FVec Ideal S3x128 .f32 :=
  subf b (mulf mu (scaleAll g v))

/-- The folded scale of all layers. -/
theorem scale_eq : W3 m ρ c (Proc.devRef .tc main_v36)
    = scaleAll (m ((c : Thread nD τ).loc main_arg6)) (m ((c : Thread nD τ).loc main_arg9)) := by
  show StableHlo.after (hostOps0_2 (F := Ideal)) (StableHlo.after (hostOps0_1 (F := Ideal)) (StableHlo.after (hostOps0 (F := Ideal)) (W0 m ρ c))) (Proc.devRef .tc main_v36) = _
  after_results_simp
  rfl

/-- The folded shift of all layers. -/
theorem shift_eq : W3 m ρ c (Proc.devRef .tc main_v38)
    = shiftAll (m ((c : Thread nD τ).loc main_arg6)) (m ((c : Thread nD τ).loc main_arg7))
        (m ((c : Thread nD τ).loc main_arg8)) (m ((c : Thread nD τ).loc main_arg9)) := by
  show StableHlo.after (hostOps0_2 (F := Ideal)) (StableHlo.after (hostOps0_1 (F := Ideal)) (StableHlo.after (hostOps0 (F := Ideal)) (W0 m ρ c))) (Proc.devRef .tc main_v38) = _
  after_results_simp
  rfl

/-- The input layer's bias as a one-row matrix. -/
theorem bin_eq : W3 m ρ c (Proc.devRef .tc main_v39)
    = shapeCast S1x128 (m ((c : Thread nD τ).loc main_arg3)) shapeCasts_S128_S1x128 := by
  show StableHlo.after (hostOps0_2 (F := Ideal)) (StableHlo.after (hostOps0_1 (F := Ideal)) (StableHlo.after (hostOps0 (F := Ideal)) (W0 m ρ c))) (Proc.devRef .tc main_v39) = _
  after_results_simp
  rfl

/-- The first read-out bias as a one-row matrix. -/
theorem b1_eq : W3 m ρ c (Proc.devRef .tc main_v40)
    = shapeCast S1x64 (m ((c : Thread nD τ).loc main_arg11)) shapeCasts_S64_S1x64 := by
  show StableHlo.after (hostOps0_2 (F := Ideal)) (StableHlo.after (hostOps0_1 (F := Ideal)) (StableHlo.after (hostOps0 (F := Ideal)) (W0 m ρ c))) (Proc.devRef .tc main_v40) = _
  after_results_simp
  rfl

/-- The second read-out bias as a one-by-one matrix. -/
theorem b2_eq : W3 m ρ c (Proc.devRef .tc main_v41)
    = shapeCast S1x1 (m ((c : Thread nD τ).loc main_arg13)) shapeCasts_S1_S1x1 := by
  show StableHlo.after (hostOps0_2 (F := Ideal)) (StableHlo.after (hostOps0_1 (F := Ideal)) (StableHlo.after (hostOps0 (F := Ideal)) (W0 m ρ c))) (Proc.devRef .tc main_v41) = _
  after_results_simp
  rfl

/-- An argument array is untouched by the opening stretches. -/
theorem arg_at_entry (r : Ref sig .tc) (h0 : r ∉ written0) (h1 : r ∉ written0_1) (h2 : r ∉ written0_2) :
    W3 m ρ c (Proc.devRef .tc r) = m ((c : Thread nD τ).loc r) := W3_launch m ρ c r h0 h1 h2

end Cert.KernelIdeal.Hand

end
-- ==== Proof.EntryR.lean ====
/-
  What both programs compute before any dense layer, by the same host operations: the source and
  destination lists of the edges with one self-loop per node appended, and the symmetric normalisation
  weight of every edge (the product of the reciprocal square roots of its endpoints' degrees, as a
  one-column matrix). At the kernel's first region these buffers hold the reference's stages of the
  argument arrays.
-/
import proofs.«135840_j20212116095605_2_alg».proof.Proof.Carry
import proofs.«135840_j20212116095605_2_alg».proof.Proof.ReadP

import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
set_option maxRecDepth 16384

noncomputable section

namespace Cert.KernelIdeal.Hand

open Cert.KernelIdeal Cert.KernelIdeal.Gen Cert.ReferenceIdeal.Read
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-! ## The opening stretches one at a time, over any contents before them -/

/-- The reciprocal-root degree read at each entry of an index list: a negative index wraps around once, then
    the gather. -/
def pick (dis : FVec Ideal S50000 .f32) (s : IVec S850000 32) : FVec Ideal S850000 .f32 :=
  Host.gather gather_S50000_S850000x1_S850000_n_0_n_n_0_1_1 dis
    (broadcastInDim S850000x1 ![0] bcast_S850000_S850000x1_0
      (select (cmpi .slt s (broadcastInDim S850000 ![] bcast_S_S850000 (constantI S_ 32 0#32)))
        (addi s (broadcastInDim S850000 ![] bcast_S_S850000 (constantI S_ 32 50000#32))) s))

/-- The edge weights from the two index lists and the reciprocal-root degrees, as a one-column matrix. -/
def weightOf (s d : IVec S850000 32) (dis : FVec Ideal S50000 .f32) : FVec Ideal S850000x1 .f32 :=
  broadcastInDim S850000x1 ![0] bcast_S850000_S850000x1_0 (mulf (pick dis s) (pick dis d))

/-- The third stretch computes the edge weights from whatever the lists and the degrees' buffer hold before it. -/
theorem weight_after (V : Valuation τ sig (Elt Ideal)) :
    StableHlo.after (hostOps0_2 (F := Ideal)) V (Proc.devRef .tc main_v32)
      = weightOf (V (Proc.devRef .tc main_v3)) (V (Proc.devRef .tc main_v6)) (V (Proc.devRef .tc main_v16)) := by
  after_results_simp
  rfl

/-- The middle stretch selects, node by node, the reciprocal root where the degree is positive and zero elsewhere,
    from whatever the three buffers it reads hold before it. -/
theorem select_after (V : Valuation τ sig (Elt Ideal)) :
    StableHlo.after (hostOps0_1 (F := Ideal)) V (Proc.devRef .tc main_v16)
      = select (V (Proc.devRef .tc main_v12) : IVec S50000 1) (V (Proc.devRef .tc main_v15) : FVec Ideal S50000 .f32)
          (broadcastInDim S50000 ![] bcast_S_S50000 (V (Proc.devRef .tc main_cst_3) : FVec Ideal S_ .f32)) := by
  after_results_simp
  rfl

/-- After the first stretch: which nodes have positive degree. -/
theorem pos_eq : W1 m ρ c (Proc.devRef .tc main_v12) = val_main_v12 (F := Ideal) (m ((c : Thread nD τ).loc main_arg1)) := by
  show StableHlo.after (hostOps0 (F := Ideal)) (W0 m ρ c) (Proc.devRef .tc main_v12) = _
  after_results_simp
  rfl

/-- After the first stretch: the reciprocal root of the degree, floored at one. -/
theorem rsq_eq : W1 m ρ c (Proc.devRef .tc main_v15) = val_main_v15 (F := Ideal) (m ((c : Thread nD τ).loc main_arg1)) := by
  show StableHlo.after (hostOps0 (F := Ideal)) (W0 m ρ c) (Proc.devRef .tc main_v15) = _
  after_results_simp
  rfl

/-- After the first stretch: the zero the selection falls back to. -/
theorem zero_eq : W1 m ρ c (Proc.devRef .tc main_cst_3) = val_main_cst_3 (F := Ideal) := by
  show StableHlo.after (hostOps0 (F := Ideal)) (W0 m ρ c) (Proc.devRef .tc main_cst_3) = _
  after_results_simp
  rfl

/-- After the middle stretch: the reciprocal-root degrees, zero at isolated nodes, are the reference's. -/
theorem dis_eq : W2 m ρ c (Proc.devRef .tc main_v16) = val_main_v16 (F := Ideal) (m ((c : Thread nD τ).loc main_arg1)) := by
  show StableHlo.after (hostOps0_1 (F := Ideal)) (W1 m ρ c) (Proc.devRef .tc main_v16) = _
  rw [select_after (W1 m ρ c), pos_eq, rsq_eq, zero_eq]
  rfl

/-! ## At the first region's entry -/

/-- The source list (edge sources, then every node once) is the reference's. -/
theorem src_eq : W3 m ρ c (Proc.devRef .tc main_v3) = val_main_v3 (F := Ideal) (m ((c : Thread nD τ).loc main_arg1)) := by
  show StableHlo.after (hostOps0_2 (F := Ideal)) (StableHlo.after (hostOps0_1 (F := Ideal)) (StableHlo.after (hostOps0 (F := Ideal)) (W0 m ρ c))) (Proc.devRef .tc main_v3) = _
  rw [keep0_2 _ _ (by decide), keep0_1 _ _ (by decide)]
  after_results_simp
  rfl

/-- The destination list is the reference's. -/
theorem dst_eq : W3 m ρ c (Proc.devRef .tc main_v6) = val_main_v6 (F := Ideal) (m ((c : Thread nD τ).loc main_arg1)) := by
  show StableHlo.after (hostOps0_2 (F := Ideal)) (StableHlo.after (hostOps0_1 (F := Ideal)) (StableHlo.after (hostOps0 (F := Ideal)) (W0 m ρ c))) (Proc.devRef .tc main_v6) = _
  rw [keep0_2 _ _ (by decide), keep0_1 _ _ (by decide)]
  after_results_simp
  rfl

/-- The edge weights, as a one-column matrix, are the reference's. -/
theorem norm_eq : W3 m ρ c (Proc.devRef .tc main_v32) = val_main_v32 (F := Ideal) (m ((c : Thread nD τ).loc main_arg1)) := by
  have f3 : W2 m ρ c (Proc.devRef .tc main_v3) = val_main_v3 (F := Ideal) (m ((c : Thread nD τ).loc main_arg1)) :=
    (keep0_2 (W2 m ρ c) main_v3 (by decide)).symm.trans (src_eq m ρ c)
  have f6 : W2 m ρ c (Proc.devRef .tc main_v6) = val_main_v6 (F := Ideal) (m ((c : Thread nD τ).loc main_arg1)) :=
    (keep0_2 (W2 m ρ c) main_v6 (by decide)).symm.trans (dst_eq m ρ c)
  show StableHlo.after (hostOps0_2 (F := Ideal)) (W2 m ρ c) (Proc.devRef .tc main_v32) = _
  rw [weight_after (W2 m ρ c), f3, f6, dis_eq]
  rfl

end Cert.KernelIdeal.Hand

end
-- ==== Proof.Region0.lean ====
/-
  Region 0 of the ideal kernel: a row-blocked linear layer with bias and rectifier.  Its 25 grid points each take a
  block of 2000 rows of the [50000,64] input X, the whole [64,128] weight W and the [1,128] bias B, and write the same
  rows of the output: at the extended reals row r and column q of the output array is
  max ((∑ k, X r k * W k q) + B 0 q) 0.
-/
import proofs.«135840_j20212116095605_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

/-- The layer on whole arrays: entry (r, q) is max ((∑ k, X r k * W k q) + B 0 q) 0. -/
def layer (X : S50000x64.Idx → EReal) (W : S64x128.Idx → EReal) (B : S1x128.Idx → EReal) : S50000x128.Idx → EReal :=
  fun i => max ((∑ k : Fin 64, X (ix2 (i 0) k) * W (ix2 k (i 1))) + B (ix2 (0 : Fin 1) (i 1))) (0 : EReal)

theorem layer_apply (X : S50000x64.Idx → EReal) (W : S64x128.Idx → EReal) (B : S1x128.Idx → EReal) (r : Fin 50000) (q : Fin 128) :
    layer X W B (ix2 r q) = max ((∑ k : Fin 64, X (ix2 r k) * W (ix2 k q)) + B (ix2 (0 : Fin 1) q)) (0 : EReal) := rfl

/-- The contraction's operand indices at output index j and contraction position k: (j 0, k) on the left, (k, j 1) on
    the right. -/
theorem lhs_coord0 (j : S2000x128.Idx) (k : dot_S2000x64_S64x128_S2000x128_1_0_0_1_n_n.contr.Idx) :
    (dot_S2000x64_S64x128_S2000x128_1_0_0_1_n_n.lhsIdx j k 0).val = (j 0).val := by
  unfold DotDims.lhsIdx
  rw [dif_neg (show ¬(0 : Fin S2000x64.rank) ∈ dot_S2000x64_S64x128_S2000x128_1_0_0_1_n_n.lhsBatch by decide),
    dif_pos (show (0 : Fin S2000x64.rank) ∈ dot_S2000x64_S64x128_S2000x128_1_0_0_1_n_n.lhsNonContracting by decide)]
  rfl
theorem lhs_coord1 (j : S2000x128.Idx) (k : dot_S2000x64_S64x128_S2000x128_1_0_0_1_n_n.contr.Idx) :
    (dot_S2000x64_S64x128_S2000x128_1_0_0_1_n_n.lhsIdx j k 1).val = (k ⟨0, by decide⟩).val :=
  dot_S2000x64_S64x128_S2000x128_1_0_0_1_n_n.lhsIdx_val_of_single rfl j k
theorem rhs_coord0 (j : S2000x128.Idx) (k : dot_S2000x64_S64x128_S2000x128_1_0_0_1_n_n.contr.Idx) :
    (dot_S2000x64_S64x128_S2000x128_1_0_0_1_n_n.rhsIdx j k 0).val = (k ⟨0, by decide⟩).val :=
  dot_S2000x64_S64x128_S2000x128_1_0_0_1_n_n.rhsIdx_val_of_single rfl j k
theorem rhs_coord1 (j : S2000x128.Idx) (k : dot_S2000x64_S64x128_S2000x128_1_0_0_1_n_n.contr.Idx) :
    (dot_S2000x64_S64x128_S2000x128_1_0_0_1_n_n.rhsIdx j k 1).val = (j 1).val := by
  unfold DotDims.rhsIdx
  rw [dif_neg (show ¬(1 : Fin S64x128.rank) ∈ dot_S2000x64_S64x128_S2000x128_1_0_0_1_n_n.rhsBatch by decide),
    dif_pos (show (1 : Fin S64x128.rank) ∈ dot_S2000x64_S64x128_S2000x128_1_0_0_1_n_n.rhsNonContracting by decide)]
  rfl

/-- The product of a block of rows x with the weight w into the zero accumulator, at row p and column q. -/
theorem matmul_apply (x : Vec Ideal S2000x64 .f32) (w : Vec Ideal S64x128 .f32) (p : Fin 2000) (q : Fin 128) :
    FloatOps.matmul dot_S2000x64_S64x128_S2000x128_1_0_0_1_n_n none
      (truncf (F := Ideal) .bf16 x bitsLt_bf16_f32) (truncf (F := Ideal) .bf16 w bitsLt_bf16_f32)
      (constant (F := Ideal) S2000x128 .f32 0x00000000#32) (ix2 p q) = ∑ k : Fin 64, x (ix2 p k) * w (ix2 k q) := by
  rw [Ideal.matmul_constant_zero_apply,
    ← Equiv.sum_comp (contrEquiv1 dot_S2000x64_S64x128_S2000x128_1_0_0_1_n_n 64 rfl rfl).symm]
  refine Finset.sum_congr rfl fun k _ => ?_
  have hk := contrEquiv1_symm_val dot_S2000x64_S64x128_S2000x128_1_0_0_1_n_n 64 rfl rfl k
  have el : dot_S2000x64_S64x128_S2000x128_1_0_0_1_n_n.lhsIdx (ix2 p q)
      ((contrEquiv1 dot_S2000x64_S64x128_S2000x128_1_0_0_1_n_n 64 rfl rfl).symm k) = ix2 p k :=
    funext fun a => Fin.ext (by
      match a with
      | ⟨0, _⟩ => exact lhs_coord0 _ _
      | ⟨1, _⟩ => exact (lhs_coord1 _ _).trans hk)
  have er : dot_S2000x64_S64x128_S2000x128_1_0_0_1_n_n.rhsIdx (ix2 p q)
      ((contrEquiv1 dot_S2000x64_S64x128_S2000x128_1_0_0_1_n_n 64 rfl rfl).symm k) = ix2 k q :=
    funext fun a => Fin.ext (by
      match a with
      | ⟨0, _⟩ => exact (rhs_coord0 _ _).trans hk
      | ⟨1, _⟩ => exact rhs_coord1 _ _)
  rw [el, er]
  rfl

/-- The body's result on a block of rows x, the weight w and the bias b, at row p and column q of the block. -/
theorem payload_apply (x : Vec Ideal S2000x64 .f32) (w : Vec Ideal S64x128 .f32) (b : Vec Ideal S1x128 .f32) (p : Fin 2000) (q : Fin 128) :
    k0_pay1 (F := Ideal) x w b (ix2 p q)
      = max ((∑ k : Fin 64, x (ix2 p k) * w (ix2 k q)) + b (ix2 (0 : Fin 1) q)) (0 : EReal) := by
  unfold k0_pay1
  simp only [shapeCast_self]
  show max (FloatOps.matmul dot_S2000x64_S64x128_S2000x128_1_0_0_1_n_n none
      (truncf (F := Ideal) .bf16 x bitsLt_bf16_f32) (truncf (F := Ideal) .bf16 w bitsLt_bf16_f32)
      (constant (F := Ideal) S2000x128 .f32 0x00000000#32) (ix2 p q)
        + broadcastTo S2000x128 b broadcasts_S1x128_S2000x128 (ix2 p q)) (Ideal.ofBits .f32 0x00000000#32) = _
  rw [matmul_apply, broadcastTo_1b_ab_apply, Ideal.ofBits_zero_f32]

/-! ## From blocks to the array -/

theorem zero_offsets : (![0, 0] : Fin 2 → Nat) = fun _ => 0 := funext fun a => by fin_cases a <;> rfl

/-- The index maps, decided over the 25 grid points: the input rows and the output rows move with the point, the
    weight and the bias stay at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b)) (c : Dev nD)

/-- Row p of the input block at point t is row 2000 t + p of the input array. -/
theorem input_block_apply (t : Fin cfg0.N) (p : Fin 2000) (k : Fin 64) (r : Fin 50000) (hr : r.val = t.val * 2000 + p.val) :
    (iblk0 V c 0 t : S2000x64.Idx → EReal) (ix2 p k) = (V c (Pipeline.arrRef spec0 0) : S50000x64.Idx → EReal) (ix2 r k) := by
  obtain ⟨e0, e1, -, -, -, -, -, -⟩ := index_maps t
  show (V c (Pipeline.arrRef spec0 0) : S50000x64.Idx → EReal) (((cfg0.win 0).blk t).view.emb (ix2 p k)) = _
  refine congrArg _ (funext fun a => Fin.ext ?_)
  match a with
  | ⟨0, _⟩ => show win0_0.index t (0 : Fin 2) * 2000 + 1 * p.val = r.val; omega
  | ⟨1, _⟩ => show win0_0.index t (1 : Fin 2) * 64 + 1 * k.val = k.val; omega

/-- The weight block at every point is the weight array. -/
theorem weight_block_apply (t : Fin cfg0.N) (k : Fin 64) (q : Fin 128) :
    (iblk0 V c 1 t : S64x128.Idx → EReal) (ix2 k q) = (V c (Pipeline.arrRef spec0 1) : S64x128.Idx → EReal) (ix2 k q) := by
  obtain ⟨-, -, e0, e1, -, -, -, -⟩ := index_maps t
  show (V c (Pipeline.arrRef spec0 1) : S64x128.Idx → EReal) (((cfg0.win 1).blk t).view.emb (ix2 k q)) = _
  refine congrArg _ (funext fun a => Fin.ext ?_)
  match a with
  | ⟨0, _⟩ => show win0_1.index t (0 : Fin 2) * 64 + 1 * k.val = k.val; omega
  | ⟨1, _⟩ => show win0_1.index t (1 : Fin 2) * 128 + 1 * q.val = q.val; omega

/-- The bias block at every point is the bias array. -/
theorem bias_block_apply (t : Fin cfg0.N) (z : Fin 1) (q : Fin 128) :
    (iblk0 V c 2 t : S1x128.Idx → EReal) (ix2 z q) = (V c (Pipeline.arrRef spec0 2) : S1x128.Idx → EReal) (ix2 z q) := by
  obtain ⟨-, -, -, -, e0, e1, -, -⟩ := index_maps t
  show (V c (Pipeline.arrRef spec0 2) : S1x128.Idx → EReal) (((cfg0.win 2).blk t).view.emb (ix2 z q)) = _
  refine congrArg _ (funext fun a => Fin.ext ?_)
  match a with
  | ⟨0, _⟩ => show win0_2.index t (0 : Fin 2) * 1 + 1 * z.val = z.val; omega
  | ⟨1, _⟩ => show win0_2.index t (1 : Fin 2) * 128 + 1 * q.val = q.val; omega

/-- What point t writes back is block t of the layer of the three input arrays. -/
theorem flushed_eq (t : Fin cfg0.N) :
    (dat0 V c).flushed 3 t = ((cfg0.win 3).blk t).view.read (Elt Ideal)
      (layer (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero_offsets]
  simp only [View.ld_unit_zero (S := S2000x64) zero_offsets, View.ld_unit_zero (S := S64x128) zero_offsets,
    View.ld_unit_zero (S := S1x128) zero_offsets]
  obtain ⟨-, -, -, -, -, -, e0, e1⟩ := index_maps t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 2 t) (ix2 p q)
    = layer (V c (Pipeline.arrRef spec0 0)) (V c (Pipeline.arrRef spec0 1)) (V c (Pipeline.arrRef spec0 2))
        (((cfg0.win 3).blk t).view.emb (ix2 p q))
  refine (payload_apply (iblk0 V c 0 t) (iblk0 V c 1 t) (iblk0 V c 2 t) p q).trans ?_
  have h0 : ((((cfg0.win 3).blk t).view.emb (ix2 p q)) 0).val = t.val * 2000 + p.val := by
    show win0_3.index t (0 : Fin 2) * 2000 + 1 * p.val = _; omega
  have h1 : ((((cfg0.win 3).blk t).view.emb (ix2 p q)) 1).val = q.val := by
    show win0_3.index t (1 : Fin 2) * 128 + 1 * q.val = _; omega
  rw [bias_block_apply V c t 0 q]
  refine congrArg₂ max (congrArg₂ (· + ·) (Finset.sum_congr rfl fun k _ => ?_) ?_) rfl
  · rw [input_block_apply V c t p k ⟨_, ((((cfg0.win 3).blk t).view.emb (ix2 p q)) 0).isLt⟩ h0, weight_block_apply V c t k q]
    refine congrArg _ (congrArg _ (funext fun a => Fin.ext ?_))
    match a with
    | ⟨0, _⟩ => rfl
    | ⟨1, _⟩ => exact h1.symm
  · refine congrArg _ (funext fun a => Fin.ext ?_)
    match a with
    | ⟨0, _⟩ => rfl
    | ⟨1, _⟩ => exact h1.symm

/-- Row r of the output array lies in the block of point r / 2000. -/
theorem cover (i : S50000x128.Idx) :
    ∃ t : Fin cfg0.N, (cfg0.win 3).flush t = true ∧ i ∈ ((cfg0.win 3).blk t).view.set := by
  have hi0 : (i 0).val < 50000 := idx2_lt0 i
  have hi1 : (i 1).val < 128 := idx2_lt1 i
  have hN : cfg0.N = 25 := N_0
  let t : Fin cfg0.N := ⟨(i 0).val / 2000, by rw [hN]; omega⟩
  obtain ⟨-, -, -, -, -, -, e0, e1⟩ := index_maps t
  have ht : t.val = (i 0).val / 2000 := rfl
  refine ⟨t, flush0_3 t, ?_⟩
  show i ∈ ((View.whole main_v42).slice (win0_3.rect t)).set
  rw [View.set_slice_whole, Rect.mem_set_unit]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 128 ≤ (i 1).val ∧ (i 1).val < win0_3.index t (1 : Fin 2) * 128 + 128
    omega

/-- The output array after the region is the layer of the three input arrays. -/
theorem arrAt_eq :
    (dat0 V c).arrAt 3 cfg0.N
      = layer (V c (Pipeline.arrRef spec0 0)) (V c (Pipeline.arrRef spec0 1)) (V c (Pipeline.arrRef spec0 2)) :=
  (dat0 V c).arrAt_eq_of_cover 3 _ (fun t _ => flushed_eq V c t) (cover)

/-- Entry (r, q) of the output array after the region: max ((∑ k, X r k * W k q) + B 0 q) 0, for X, W and B the three
    input arrays as the region finds them. -/
theorem arrAt_apply (X : S50000x64.Idx → EReal) (W : S64x128.Idx → EReal) (B : S1x128.Idx → EReal)
    (hX : V c (Pipeline.arrRef spec0 0) = X) (hW : V c (Pipeline.arrRef spec0 1) = W) (hB : V c (Pipeline.arrRef spec0 2) = B)
    (r : Fin 50000) (q : Fin 128) :
    (dat0 (F := Ideal) V c).arrAt 3 cfg0.N (ix2 r q)
      = max ((∑ k : Fin 64, X (ix2 r k) * W (ix2 k q)) + B (ix2 (0 : Fin 1) q)) (0 : EReal) := by
  subst hX hW hB
  rw [arrAt_eq V c]
  rfl

end

end Cert.KernelIdeal.Region0

end
-- ==== Proof.Region1.lean ====
/-
  Region 1 of the ideal kernel: a row-blocked linear layer.  Its 25 grid points each take a block of 2000 rows of
  the [50000,128] input H and the whole [128,128] weight W and write the same rows of the output: with no rounding
  at the extended reals, row r and column q of the output array is  ∑ k, H r k * W k q.
-/
import proofs.«135840_j20212116095605_2_alg».proof.Proof.Gen.KernelIdeal.Frame
import Idealize.ShloMosaic.Lib.Pipeline.Value
import Idealize.ShloMosaic.Lib.ValueIdx
import Idealize.ShloMosaic.PureOps.Ideal.Laws

noncomputable section

open scoped BigOperators

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

/-- The product of the two arrays: entry (r, q) is the sum over k of H r k * W k q. -/
def prod (H : S50000x128.Idx → EReal) (W : S128x128.Idx → EReal) : S50000x128.Idx → EReal :=
  fun i => ∑ k : Fin 128, H (ix2 (i 0) k) * W (ix2 k (i 1))

theorem prod_apply (H : S50000x128.Idx → EReal) (W : S128x128.Idx → EReal) (r : Fin 50000) (q : Fin 128) :
    prod H W (ix2 r q) = ∑ k : Fin 128, H (ix2 r k) * W (ix2 k q) := rfl

/-- The contraction's operand indices at output index j and contraction position k: (j 0, k) on the left, (k, j 1) on
    the right. -/
theorem lhs_coord0 (j : S2000x128.Idx) (k : dot_S2000x128_S128x128_S2000x128_1_0_0_1_n_n.contr.Idx) :
    (dot_S2000x128_S128x128_S2000x128_1_0_0_1_n_n.lhsIdx j k 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
theorem lhs_coord1 (j : S2000x128.Idx) (k : dot_S2000x128_S128x128_S2000x128_1_0_0_1_n_n.contr.Idx) :
    (dot_S2000x128_S128x128_S2000x128_1_0_0_1_n_n.lhsIdx j k 1).val = (k ⟨0, by decide⟩).val :=
  dot_S2000x128_S128x128_S2000x128_1_0_0_1_n_n.lhsIdx_val_of_single rfl j k
theorem rhs_coord0 (j : S2000x128.Idx) (k : dot_S2000x128_S128x128_S2000x128_1_0_0_1_n_n.contr.Idx) :
    (dot_S2000x128_S128x128_S2000x128_1_0_0_1_n_n.rhsIdx j k 0).val = (k ⟨0, by decide⟩).val :=
  dot_S2000x128_S128x128_S2000x128_1_0_0_1_n_n.rhsIdx_val_of_single rfl j k
theorem rhs_coord1 (j : S2000x128.Idx) (k : dot_S2000x128_S128x128_S2000x128_1_0_0_1_n_n.contr.Idx) :
    (dot_S2000x128_S128x128_S2000x128_1_0_0_1_n_n.rhsIdx j k 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The body's result on a block of rows x and the weight w, at row p and column q of the block. -/
theorem payload_apply (x : Vec Ideal S2000x128 .f32) (w : Vec Ideal S128x128 .f32) (p : Fin 2000) (q : Fin 128) :
    k1_pay1 (F := Ideal) x w (ix2 p q) = ∑ k : Fin 128, x (ix2 p k) * w (ix2 k q) := by
  unfold k1_pay1
  simp only [shapeCast_self]
  show FloatOps.matmul dot_S2000x128_S128x128_S2000x128_1_0_0_1_n_n none
      (truncf (F := Ideal) .bf16 x bitsLt_bf16_f32) (truncf (F := Ideal) .bf16 w bitsLt_bf16_f32) (constant (F := Ideal) S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_coord0 _ _
      | ⟨1, _⟩ => exact (lhs_coord1 _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (rhs_coord0 _ _).trans hk
      | ⟨1, _⟩ => exact rhs_coord1 _ _)
  rw [el, er]
  rfl

/-! ## From blocks to the array -/

theorem zero_offsets : (![0, 0] : Fin 2 → Nat) = fun _ => 0 := funext fun a => by fin_cases a <;> rfl

/-- The index maps, decided over the 25 grid points: the input rows and the output rows move with the point, the
    weight stays at block (0, 0). -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b)) (c : Dev nD)

/-- Row p of the input block at point t is row 2000 t + p of the input array. -/
theorem input_block_apply (t : Fin cfg1.N) (p : Fin 2000) (k : Fin 128) (r : Fin 50000) (hr : r.val = t.val * 2000 + p.val) :
    (iblk1 V c 0 t : S2000x128.Idx → EReal) (ix2 p k) = (V c (Pipeline.arrRef spec1 0) : S50000x128.Idx → EReal) (ix2 r k) := by
  obtain ⟨e0, e1, -, -, -, -⟩ := index_maps t
  show (V c (Pipeline.arrRef spec1 0) : S50000x128.Idx → EReal) (((cfg1.win 0).blk t).view.emb (ix2 p k)) = _
  refine congrArg _ (funext fun a => Fin.ext ?_)
  match a with
  | ⟨0, _⟩ => show win1_0.index t (0 : Fin 2) * 2000 + 1 * p.val = r.val; omega
  | ⟨1, _⟩ => show win1_0.index t (1 : Fin 2) * 128 + 1 * k.val = k.val; omega

/-- The weight block at every point is the weight array. -/
theorem weight_block_apply (t : Fin cfg1.N) (k : Fin 128) (q : Fin 128) :
    (iblk1 V c 1 t : S128x128.Idx → EReal) (ix2 k q) = (V c (Pipeline.arrRef spec1 1) : S128x128.Idx → EReal) (ix2 k q) := by
  obtain ⟨-, -, e0, e1, -, -⟩ := index_maps t
  show (V c (Pipeline.arrRef spec1 1) : S128x128.Idx → EReal) (((cfg1.win 1).blk t).view.emb (ix2 k q)) = _
  refine congrArg _ (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

/-- What point t writes back is block t of the product of the two input arrays. -/
theorem flushed_eq (t : Fin cfg1.N) :
    (dat1 V c).flushed 2 t = ((cfg1.win 2).blk t).view.read (Elt Ideal)
      (prod (V c (Pipeline.arrRef spec1 0)) (V c (Pipeline.arrRef spec1 1))) := by
  show (cfg1.win 2).cut (grid1.coords t) ((dat1 V c).after 2 t) = _
  rw [after1_2]
  unfold out1_2
  rw [View.canon_unit_zero zero_offsets]
  simp only [View.ld_unit_zero (S := S2000x128) zero_offsets, View.ld_unit_zero (S := S128x128) zero_offsets]
  obtain ⟨-, -, -, -, e0, e1⟩ := index_maps t
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (ix2 p q)
    = prod (V c (Pipeline.arrRef spec1 0)) (V c (Pipeline.arrRef spec1 1)) (((cfg1.win 2).blk t).view.emb (ix2 p q))
  refine (payload_apply (iblk1 V c 0 t) (iblk1 V c 1 t) p q).trans ?_
  have h0 : ((((cfg1.win 2).blk t).view.emb (ix2 p q)) 0).val = t.val * 2000 + p.val := by
    show win1_2.index t (0 : Fin 2) * 2000 + 1 * p.val = _; omega
  have h1 : ((((cfg1.win 2).blk t).view.emb (ix2 p q)) 1).val = q.val := by
    show win1_2.index t (1 : Fin 2) * 128 + 1 * q.val = _; omega
  refine Finset.sum_congr rfl fun k _ => ?_
  rw [input_block_apply V c t p k ⟨_, ((((cfg1.win 2).blk t).view.emb (ix2 p q)) 0).isLt⟩ h0, weight_block_apply V c t k q]
  refine congrArg _ (congrArg _ (funext fun a => Fin.ext ?_))
  match a with
  | ⟨0, _⟩ => rfl
  | ⟨1, _⟩ => exact h1.symm

/-- Row r of the output array lies in the block of point r / 2000. -/
theorem cover (i : S50000x128.Idx) :
    ∃ t : Fin cfg1.N, (cfg1.win 2).flush t = true ∧ i ∈ ((cfg1.win 2).blk t).view.set := by
  have hi0 : (i 0).val < 50000 := idx2_lt0 i
  have hi1 : (i 1).val < 128 := idx2_lt1 i
  have hN : cfg1.N = 25 := N_1
  let t : Fin cfg1.N := ⟨(i 0).val / 2000, by rw [hN]; omega⟩
  obtain ⟨-, -, -, -, e0, e1⟩ := index_maps t
  have ht : t.val = (i 0).val / 2000 := rfl
  refine ⟨t, flush1_2 t, ?_⟩
  show i ∈ ((View.whole main_v45).slice (win1_2.rect t)).set
  rw [View.set_slice_whole, Rect.mem_set_unit]
  intro a
  match a with
  | ⟨0, _⟩ =>
    show win1_2.index t (0 : Fin 2) * 2000 ≤ (i 0).val ∧ (i 0).val < win1_2.index t (0 : Fin 2) * 2000 + 2000
    omega
  | ⟨1, _⟩ =>
    show win1_2.index t (1 : Fin 2) * 128 ≤ (i 1).val ∧ (i 1).val < win1_2.index t (1 : Fin 2) * 128 + 128
    omega

/-- The output array after the region is the product of the two input arrays. -/
theorem arrAt_eq :
    (dat1 V c).arrAt 2 cfg1.N = prod (V c (Pipeline.arrRef spec1 0)) (V c (Pipeline.arrRef spec1 1)) :=
  (dat1 V c).arrAt_eq_of_cover 2 _ (fun t _ => flushed_eq V c t) (cover)

/-- Entry (r, q) of the output array after the region: the sum over k of H r k * W k q, for H and W the two input
    arrays as the region finds them. -/
theorem arrAt_apply (H : S50000x128.Idx → EReal) (W : S128x128.Idx → EReal)
    (hH : V c (Pipeline.arrRef spec1 0) = H) (hW : V c (Pipeline.arrRef spec1 1) = W) (r : Fin 50000) (q : Fin 128) :
    (dat1 (F := Ideal) V c).arrAt 2 cfg1.N (ix2 r q) = ∑ k : Fin 128, H (ix2 r k) * W (ix2 k q) := by
  subst hH hW
  rw [arrAt_eq V c]
  rfl

end

end Cert.KernelIdeal.Region1

end
-- ==== Proof.Stage0.lean ====
/-
  The input layer and the first projection. Region 0 leaves  relu(x · W_in + b_in)  in its output array and
  region 1 leaves  (that) · Wc[0]; row r, column q of each is the same sum of products the reference's
  corresponding whole-array stage has there, so the arrays are the reference's stages as functions of the
  arguments. (The kernel adds the bias as a one-row matrix re-laid from the vector; the reference broadcasts
  the vector: the same entry b_in[q] at column q.)
-/
import proofs.«135840_j20212116095605_2_alg».proof.Proof.EntryK
import proofs.«135840_j20212116095605_2_alg».proof.Proof.ReadP
import proofs.«135840_j20212116095605_2_alg».proof.Proof.Region0
import proofs.«135840_j20212116095605_2_alg».proof.Proof.Region1

import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
set_option maxRecDepth 16384

noncomputable section

namespace Cert.KernelIdeal.Hand

open Cert.KernelIdeal Cert.KernelIdeal.Gen Cert.ReferenceIdeal.Read
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

open scoped BigOperators

/-- A vector re-laid as a one-row matrix, read at column q. -/
theorem row128_apply (x : FVec Ideal S128 .f32) (q : Fin 128) :
    shapeCast S1x128 x shapeCasts_S128_S1x128 (ix2 (0 : Fin 1) q) = x (ix1 q) :=
  shapeCast_apply x shapeCasts_S128_S1x128 (ix2 (0 : Fin 1) q) (ix1 q)
    (by rewrite [Shape.rowMajor_val_two, Shape.rowMajor_val_one]; show q.val = 0 * 128 + q.val; omega)

/-- Region 0's output array is the reference's hidden state after the input layer. -/
theorem h0_eq : W4 m ρ c (Proc.devRef .tc main_v42)
    = val_main_v37 (F := Ideal) (m ((c : Thread nD τ).loc main_arg0)) (m ((c : Thread nD τ).loc main_arg2)) (m ((c : Thread nD τ).loc main_arg3)) := by
  rw [show W4 m ρ c (Proc.devRef .tc main_v42) = (dat0 (V3 m ρ) c).arrAt 3 cfg0.N from W4_arr m ρ c 3]
  funext i
  obtain ⟨r, q, rfl⟩ : ∃ (r : Fin 50000) (q : Fin 128), i = ix2 r q := ⟨i 0, i 1, eq_ix2 i⟩
  rw [Region0.arrAt_apply (V3 m ρ) c _ _ _
    (arg_at_entry m ρ c main_arg0 (by decide) (by decide) (by decide))
    (arg_at_entry m ρ c main_arg2 (by decide) (by decide) (by decide)) (bin_eq m ρ c) r q]
  rw [val_main_v37_apply, val_main_v36_apply, val_main_v33_apply, val_main_v35_apply, val_main_v34_apply,
    val_main_call1_v0_apply, val_main_call1_cst_apply, row128_apply]
  have e1 : ∀ k : Fin 64, lidx_main_v33 (ix2 r q) k = ix2 r k := fun k =>
    funext fun a => match a with | ⟨0, _⟩ => rfl | ⟨1, _⟩ => rfl
  have e2 : ∀ k : Fin 64, ridx_main_v33 (ix2 r q) k = ix2 k q := fun k =>
    funext fun a => match a with | ⟨0, _⟩ => rfl | ⟨1, _⟩ => rfl
  have e3 : idx_main_v34 (idx_main_v35 (ix2 r q)) = ix1 q := funext fun a => match a with | ⟨0, _⟩ => rfl
  simp only [e1, e2, e3, Ideal.maximumf_def, Ideal.addf_def, Ideal.ofBits_def, Ideal.ofBits_zero_f32]

/-- The first layer's weight matrix, cut out of the stacked weights, is the reference's. -/
theorem wc0_eq : W5 m ρ c (Proc.devRef .tc main_v44) = val_main_v39 (F := Ideal) (m ((c : Thread nD τ).loc main_arg4)) := by
  show StableHlo.after (hostOps1 (F := Ideal)) (W4 m ρ c) (Proc.devRef .tc main_v44) = _
  after_results_simp
  rw [W4_of_ne m ρ c main_arg4 (by decide), arg_at_entry m ρ c main_arg4 (by decide) (by decide) (by decide)]
  rfl

/-- Region 1's output array is the reference's first projection. -/
theorem hw0_eq : W6 m ρ c (Proc.devRef .tc main_v45)
    = val_main_v40 (F := Ideal) (m ((c : Thread nD τ).loc main_arg0)) (m ((c : Thread nD τ).loc main_arg2)) (m ((c : Thread nD τ).loc main_arg3)) (m ((c : Thread nD τ).loc main_arg4)) := by
  rw [show W6 m ρ c (Proc.devRef .tc main_v45) = (dat1 (V5 m ρ) c).arrAt 2 cfg1.N from W6_arr m ρ c 2]
  funext i
  obtain ⟨r, q, rfl⟩ : ∃ (r : Fin 50000) (q : Fin 128), i = ix2 r q := ⟨i 0, i 1, eq_ix2 i⟩
  rw [Region1.arrAt_apply (V5 m ρ) c _ _
    ((keep1 (W4 m ρ c) main_v42 (by decide)).trans (h0_eq m ρ c)) (wc0_eq m ρ c) r q]
  rw [val_main_v40_apply]
  have e1 : ∀ k : Fin 128, lidx_main_v40 (ix2 r q) k = ix2 r k := fun k =>
    funext fun a => match a with | ⟨0, _⟩ => rfl | ⟨1, _⟩ => rfl
  have e2 : ∀ k : Fin 128, ridx_main_v40 (ix2 r q) k = ix2 k q := fun k =>
    funext fun a => match a with | ⟨0, _⟩ => rfl | ⟨1, _⟩ => rfl
  simp only [e1, e2]

end Cert.KernelIdeal.Hand

end
-- ==== Proof.AffineLaw.lean ====
/-
  The one algebraic law of this certificate, on the extended reals.
  A batch-norm layer applies, per channel, the affine map  a ↦ ((a − μ) · r) · γ + β  with r = 1/√(v + ε);
  the kernel applies instead  a ↦ a · s + t  with the precomputed  s = γ · r  and  t = β − μ · s.
  When μ, γ, β are real numbers and v is a real number with v ≥ 0 (so v + ε > 0 and r is a positive REAL), the two
  maps agree at EVERY extended real a, the infinities included: only a can be infinite, and an infinite a is
  sent by both sides to the same infinity (the sign of s decides which) or, when s = 0, both sides are t.
-/
import Idealize.ShloMosaic.PureOps.Ideal

noncomputable section

namespace Cert.AffineLaw

open Idealize.ShloMosaic

/-- The literal ε of both programs (the single-precision number nearest 1e-5) is a positive real. -/
theorem eps_real : ∃ e : ℝ, 0 < e ∧ Ideal.ofBits .f32 0x3727C5AC#32 = (e : EReal) := by
  refine ⟨10995116 / 2 ^ 40, by norm_num, ?_⟩
  simp [Ideal.ofBits, Ideal.ieee, -EReal.coe_mul]; norm_num

/-- Subtracting a real before scaling by a real, or after: the same at every extended real. -/
theorem affine_fold (a : EReal) (μ s β : ℝ) :
    (a - (μ : EReal)) * (s : EReal) + (β : EReal) = a * (s : EReal) + ((β : EReal) - (μ : EReal) * (s : EReal)) := by
  have hr : ((β : EReal) - (μ : EReal) * (s : EReal)) = ((β - μ * s : ℝ) : EReal) := by norm_cast
  rw [hr]
  induction a using EReal.rec with
  | bot =>
    have h1 : (⊥ : EReal) - (μ : EReal) = ⊥ := by simp [sub_eq_add_neg, ← EReal.coe_neg]
    rw [h1]
    rcases lt_trichotomy s 0 with h | h | h
    · rw [EReal.bot_mul_coe_of_neg h, EReal.top_add_coe, EReal.top_add_coe]
    · subst h; simp
    · rw [EReal.bot_mul_coe_of_pos h, EReal.bot_add, EReal.bot_add]
  | coe x => norm_cast; ring
  | top =>
    have h1 : (⊤ : EReal) - (μ : EReal) = ⊤ := by simp [sub_eq_add_neg, ← EReal.coe_neg]
    rw [h1]
    rcases lt_trichotomy s 0 with h | h | h
    · rw [EReal.top_mul_coe_of_neg h, EReal.bot_add, EReal.bot_add]
    · subst h; simp
    · rw [EReal.top_mul_coe_of_pos h, EReal.top_add_coe, EReal.top_add_coe]

/-- The reciprocal square root of a positive real is a real. -/
theorem rsqrt_real (x : ℝ) (hx : 0 < x) : Ideal.rsqrt (x : EReal) = (((Real.sqrt x)⁻¹ : ℝ) : EReal) := by
  rw [Ideal.rsqrt_coe, if_neg (not_lt.mpr hx.le), if_neg hx.ne']

/-- The batch-norm affine map and its folded form agree at every extended real `a`, for real μ, γ, β and a real
    variance v ≥ 0. -/
theorem bn_fold (a : EReal) (μ γ β v : ℝ) (hv : 0 ≤ v) :
    a * ((γ : EReal) * Ideal.rsqrt ((v : EReal) + Ideal.ofBits .f32 0x3727C5AC#32))
        + ((β : EReal) - (μ : EReal) * ((γ : EReal) * Ideal.rsqrt ((v : EReal) + Ideal.ofBits .f32 0x3727C5AC#32)))
      = ((a - (μ : EReal)) * Ideal.rsqrt ((v : EReal) + Ideal.ofBits .f32 0x3727C5AC#32)) * (γ : EReal) + (β : EReal) := by
  obtain ⟨e, he, hE⟩ := eps_real
  have hpos : 0 < v + e := by linarith
  rw [hE, ← EReal.coe_add, rsqrt_real _ hpos]
  generalize (Real.sqrt (v + e))⁻¹ = ρ
  rw [mul_assoc (a - (μ : EReal)), mul_comm (ρ : EReal) (γ : EReal), ← EReal.coe_mul γ ρ]
  exact (affine_fold a μ (γ * ρ) β).symm

end Cert.AffineLaw

end
-- ==== Proof.Bn.lean ====
/-
  The batch-norm step at one entry. Each layer l uses row l of the [3, 128] parameter arrays. The kernel
  multiplies the aggregate a by row l of the folded scale and adds row l of the folded shift; the reference
  subtracts the running mean, multiplies by rsqrt(variance + ε), by γ, and adds β. Under the precondition
  (γ, β, μ real, the variance real and ≥ 0) the two agree at every extended real a; then both apply relu.
-/
import proofs.«135840_j20212116095605_2_alg».proof.Proof.EntryK
import proofs.«135840_j20212116095605_2_alg».proof.Proof.AffineLaw

import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-- What the precondition gives for the batch-norm parameter arrays of this launch memory. -/
structure BnReal : Prop where
  gamma : ∀ i : S3x128.Idx, ∃ r : ℝ, ((m ((c : Thread nD τ).loc main_arg6)) : S3x128.Idx → EReal) i = (r : EReal)
  beta : ∀ i : S3x128.Idx, ∃ r : ℝ, ((m ((c : Thread nD τ).loc main_arg7)) : S3x128.Idx → EReal) i = (r : EReal)
  mean : ∀ i : S3x128.Idx, ∃ r : ℝ, ((m ((c : Thread nD τ).loc main_arg8)) : S3x128.Idx → EReal) i = (r : EReal)
  var : ∀ i : S3x128.Idx, ∃ r : ℝ, ((m ((c : Thread nD τ).loc main_arg9)) : S3x128.Idx → EReal) i = (r : EReal) ∧ 0 ≤ r

/-- Row 0 of a [3, 128] array, as a one-row matrix, read at column q. -/
theorem row0_apply (p : FVec Ideal S3x128 .f32) (q : Fin 128) :
    extractStridedSlice S1x128 ![0, 0] p slices_S3x128_S1x128_0_0 (ix2 (0 : Fin 1) q) = p (ix2 (0 : Fin 3) q) :=
  extractStridedSlice_apply ![0, 0] p slices_S3x128_S1x128_0_0 (ix2 (0 : Fin 1) q) (ix2 (0 : Fin 3) q) (fun a => match a with
    | ⟨0, _⟩ => by show 0 = 0 + 0; omega
    | ⟨1, _⟩ => by show q.val = 0 + q.val; omega)

/-- Row 1. -/
theorem row1_apply (p : FVec Ideal S3x128 .f32) (q : Fin 128) :
    extractStridedSlice S1x128 ![1, 0] p slices_S3x128_S1x128_1_0 (ix2 (0 : Fin 1) q) = p (ix2 (1 : Fin 3) q) :=
  extractStridedSlice_apply ![1, 0] p slices_S3x128_S1x128_1_0 (ix2 (0 : Fin 1) q) (ix2 (1 : Fin 3) q) (fun a => match a with
    | ⟨0, _⟩ => by show 1 = 1 + 0; omega
    | ⟨1, _⟩ => by show q.val = 0 + q.val; omega)

/-- Row 2. -/
theorem row2_apply (p : FVec Ideal S3x128 .f32) (q : Fin 128) :
    extractStridedSlice S1x128 ![2, 0] p slices_S3x128_S1x128_2_0 (ix2 (0 : Fin 1) q) = p (ix2 (2 : Fin 3) q) :=
  extractStridedSlice_apply ![2, 0] p slices_S3x128_S1x128_2_0 (ix2 (0 : Fin 1) q) (ix2 (2 : Fin 3) q) (fun a => match a with
    | ⟨0, _⟩ => by show 2 = 2 + 0; omega
    | ⟨1, _⟩ => by show q.val = 0 + q.val; omega)

/-- The folded scale at an entry: γ · rsqrt(v + ε). -/
theorem scaleAll_apply (g v : FVec Ideal S3x128 .f32) (i : S3x128.Idx) :
    scaleAll g v i = (g i : EReal) * Ideal.rsqrt ((v i : EReal) + Ideal.ofBits .f32 0x3727C5AC#32) := rfl

/-- The folded shift at an entry: β − μ · (γ · rsqrt(v + ε)). -/
theorem shiftAll_apply (g b mu v : FVec Ideal S3x128 .f32) (i : S3x128.Idx) :
    shiftAll g b mu v i = (b i : EReal) - (mu i : EReal) * ((g i : EReal) * Ideal.rsqrt ((v i : EReal) + Ideal.ofBits .f32 0x3727C5AC#32)) := rfl

/-- The folded affine map is the batch-norm affine map, at any extended real `a`, for parameter entries that are
    real with a variance ≥ 0. -/
theorem bn_entry (g b mu v : FVec Ideal S3x128 .f32) (i : S3x128.Idx)
    (hg : ∃ r : ℝ, (g i : EReal) = (r : EReal)) (hb : ∃ r : ℝ, (b i : EReal) = (r : EReal))
    (hm : ∃ r : ℝ, (mu i : EReal) = (r : EReal)) (hv : ∃ r : ℝ, (v i : EReal) = (r : EReal) ∧ 0 ≤ r) (a : EReal) :
    a * scaleAll g v i + shiftAll g b mu v i
      = ((a - (mu i : EReal)) * Ideal.rsqrt ((v i : EReal) + Ideal.ofBits .f32 0x3727C5AC#32)) * (g i : EReal) + (b i : EReal) := by
  obtain ⟨γ, hγ⟩ := hg
  obtain ⟨β, hβ⟩ := hb
  obtain ⟨μ, hμ⟩ := hm
  obtain ⟨w, hw, hw0⟩ := hv
  rw [scaleAll_apply, shiftAll_apply, hγ, hβ, hμ, hw]
  exact Cert.AffineLaw.bn_fold a μ γ β w hw0

end Cert.KernelIdeal.Hand

end
-- ==== Proof.Region2.lean ====
/- Region 2: on each block of 2000 rows the body leaves h = max (a * s + t) 0 entry by entry (s and t one row each,
   repeated down the rows) and hw = h W, over the extended reals a plain sum of products along the 128 columns of h.
   Here: the two payloads at an in-block entry; each written-back block as the restriction of ONE whole-array function
   of the region's input arrays; the 25 row blocks cover the 50000 rows; hence both output arrays after the region,
   entry by entry. -/
import proofs.«135840_j20212116095605_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The mathematics -/

/-- One entry of the rectified affine map: row `r`, column `k`. -/
def act (A : S50000x128.Idx → EReal) (S T : S1x128.Idx → EReal) (r : Fin 50000) (k : Fin 128) : EReal :=
  max (A (ix2 r k) * S (ix2 (0 : Fin 1) k) + T (ix2 (0 : Fin 1) k)) (0 : EReal)

/-- The rectified affine map as a whole array. -/
def actArr (A : S50000x128.Idx → EReal) (S T : S1x128.Idx → EReal) : S50000x128.Idx → EReal :=
  fun i => act A S T (i 0) (i 1)

/-- Its product with the weight matrix as a whole array. -/
def prodArr (A : S50000x128.Idx → EReal) (S T : S1x128.Idx → EReal) (W : S128x128.Idx → EReal) : S50000x128.Idx → EReal :=
  fun i => ∑ k : Fin 128, act A S T (i 0) k * W (ix2 k (i 1))

/-! ## The body's two payloads at an in-block index -/

theorem pay1_apply (x0 : Vec Ideal S2000x128 .f32) (x1 x2 : Vec Ideal S1x128 .f32) (p : Fin 2000) (q : Fin 128) :
    k2_pay1 x0 x1 x2 (ix2 p q) = max (x0 (ix2 p q) * x1 (ix2 (0 : Fin 1) q) + x2 (ix2 (0 : Fin 1) q)) (0 : EReal) := by
  unfold k2_pay1
  rw [maximumf_apply, addf_apply, mulf_apply, broadcast_apply, shapeCast_self, shapeCast_self, shapeCast_self,
    broadcastTo_1b_ab_apply, broadcastTo_1b_ab_apply]
  show max _ (Ideal.ofBits .f32 0x00000000#32) = _
  rw [Ideal.ofBits_zero_f32]

theorem pay1_eq_act (x0 : Vec Ideal S2000x128 .f32) (x1 x2 : Vec Ideal S1x128 .f32)
    (A : S50000x128.Idx → EReal) (S T : S1x128.Idx → EReal) (p : Fin 2000) (q : Fin 128) (r : Fin 50000)
    (h0 : x0 (ix2 p q) = A (ix2 r q)) (h1 : x1 (ix2 (0 : Fin 1) q) = S (ix2 (0 : Fin 1) q))
    (h2 : x2 (ix2 (0 : Fin 1) q) = T (ix2 (0 : Fin 1) q)) :
    k2_pay1 x0 x1 x2 (ix2 p q) = act A S T r q := by
  rw [pay1_apply, h0, h1, h2]; rfl

theorem lhs_ax0 (i : S2000x128.Idx) (κ : dot_S2000x128_S128x128_S2000x128_1_0_0_1_n_n.contr.Idx) :
    (dot_S2000x128_S128x128_S2000x128_1_0_0_1_n_n.lhsIdx i κ 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem rhs_ax1 (i : S2000x128.Idx) (κ : dot_S2000x128_S128x128_S2000x128_1_0_0_1_n_n.contr.Idx) :
    (dot_S2000x128_S128x128_S2000x128_1_0_0_1_n_n.rhsIdx i κ 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

theorem pay2_apply (x0 : Vec Ideal S2000x128 .f32) (x1 x2 : Vec Ideal S1x128 .f32) (x3 : Vec Ideal S128x128 .f32)
    (p : Fin 2000) (q : Fin 128) :
    k2_pay2 x0 x1 x2 x3 (ix2 p q) = ∑ k : Fin 128, k2_pay1 x0 x1 x2 (ix2 p k) * x3 (ix2 k q) := by
  unfold k2_pay2
  generalize k2_pay1 x0 x1 x2 = y
  rw [truncf_apply]
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_ax0 _ _
      | ⟨1, _⟩ => exact (dot_S2000x128_S128x128_S2000x128_1_0_0_1_n_n.lhsIdx_val_of_single rfl _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (dot_S2000x128_S128x128_S2000x128_1_0_0_1_n_n.rhsIdx_val_of_single rfl _ _).trans hk
      | ⟨1, _⟩ => exact rhs_ax1 _ _)
  rw [el, er, truncf_apply, truncf_apply, shapeCast_self]

theorem pay2_eq_prod (x0 : Vec Ideal S2000x128 .f32) (x1 x2 : Vec Ideal S1x128 .f32) (x3 : Vec Ideal S128x128 .f32)
    (A : S50000x128.Idx → EReal) (S T : S1x128.Idx → EReal) (W : S128x128.Idx → EReal)
    (p : Fin 2000) (q : Fin 128) (r : Fin 50000)
    (h0 : ∀ k : Fin 128, x0 (ix2 p k) = A (ix2 r k)) (h1 : ∀ k : Fin 128, x1 (ix2 (0 : Fin 1) k) = S (ix2 (0 : Fin 1) k))
    (h2 : ∀ k : Fin 128, x2 (ix2 (0 : Fin 1) k) = T (ix2 (0 : Fin 1) k)) (h3 : ∀ k : Fin 128, x3 (ix2 k q) = W (ix2 k q)) :
    k2_pay2 x0 x1 x2 x3 (ix2 p q) = ∑ k : Fin 128, act A S T r k * W (ix2 k q) := by
  rw [pay2_apply]
  refine Finset.sum_congr rfl fun k _ => ?_
  rw [pay1_eq_act x0 x1 x2 A S T p k r (h0 k) (h1 k) (h2 k), h3 k]

/-! ## From blocks to the arrays -/

theorem hz : (![0, 0] : Fin 2 → Nat) = fun _ => 0 := funext fun a => by fin_cases a <;> rfl

/-- The index maps over the grid: a row-blocked window's block index is the point on the rows and zero on the
    columns; a whole-array window's is zero on both. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Block `t` of the row-blocked input holds rows `2000 t … 2000 t + 1999` of its array. -/
theorem blk0_apply (c : Dev nD) (t : Fin cfg2.N) (p : Fin 2000) (k : Fin 128) (r : Fin 50000)
    (hr : r.val = t.val * 2000 + p.val) :
    (iblk2 V c 0 t : Vec Ideal S2000x128 .f32) (ix2 p k)
      = (V c (Pipeline.arrRef spec2 0) : S50000x128.Idx → EReal) (ix2 r k) := by
  obtain ⟨e0, e1, -⟩ := idx_facts t
  show (V c (Pipeline.arrRef spec2 0) : S50000x128.Idx → EReal) (((cfg2.win 0).blk t).view.emb (ix2 p k)) = _
  refine congrArg _ (funext fun a => Fin.ext ?_)
  match a with
  | ⟨0, _⟩ => show win2_0.index t (0 : Fin 2) * 2000 + 1 * p.val = r.val; omega
  | ⟨1, _⟩ => show win2_0.index t (1 : Fin 2) * 128 + 1 * k.val = k.val; omega

/-- The scale row's block is the scale row. -/
theorem blk1_apply (c : Dev nD) (t : Fin cfg2.N) (k : Fin 128) :
    (iblk2 V c 1 t : Vec Ideal S1x128 .f32) (ix2 (0 : Fin 1) k)
      = (V c (Pipeline.arrRef spec2 1) : S1x128.Idx → EReal) (ix2 (0 : Fin 1) k) := by
  obtain ⟨-, -, e0, e1, -⟩ := idx_facts t
  show (V c (Pipeline.arrRef spec2 1) : S1x128.Idx → EReal) (((cfg2.win 1).blk t).view.emb (ix2 (0 : Fin 1) k)) = _
  refine congrArg _ (funext fun a => Fin.ext ?_)
  match a with
  | ⟨0, _⟩ => show win2_1.index t (0 : Fin 2) * 1 + 1 * 0 = 0; omega
  | ⟨1, _⟩ => show win2_1.index t (1 : Fin 2) * 128 + 1 * k.val = k.val; omega

/-- The shift row's block is the shift row. -/
theorem blk2_apply (c : Dev nD) (t : Fin cfg2.N) (k : Fin 128) :
    (iblk2 V c 2 t : Vec Ideal S1x128 .f32) (ix2 (0 : Fin 1) k)
      = (V c (Pipeline.arrRef spec2 2) : S1x128.Idx → EReal) (ix2 (0 : Fin 1) k) := by
  obtain ⟨-, -, -, -, e0, e1, -⟩ := idx_facts t
  show (V c (Pipeline.arrRef spec2 2) : S1x128.Idx → EReal) (((cfg2.win 2).blk t).view.emb (ix2 (0 : Fin 1) k)) = _
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * k.val = k.val; omega

/-- The weight matrix's block is the weight matrix. -/
theorem blk3_apply (c : Dev nD) (t : Fin cfg2.N) (k q : Fin 128) :
    (iblk2 V c 3 t : Vec Ideal S128x128 .f32) (ix2 k q)
      = (V c (Pipeline.arrRef spec2 3) : S128x128.Idx → EReal) (ix2 k q) := by
  obtain ⟨-, -, -, -, -, -, e0, e1, -⟩ := idx_facts t
  show (V c (Pipeline.arrRef spec2 3) : S128x128.Idx → EReal) (((cfg2.win 3).blk t).view.emb (ix2 k q)) = _
  refine congrArg _ (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- Where an element of output block `t` sits in the first output array. -/
theorem emb4_eq (t : Fin cfg2.N) (p : Fin 2000) (q : Fin 128) (r : Fin 50000) (hr : r.val = t.val * 2000 + p.val) :
    ((cfg2.win 4).blk t).view.emb (ix2 p q) = (ix2 r q : S50000x128.Idx) := by
  obtain ⟨-, -, -, -, -, -, -, -, e0, e1, -⟩ := idx_facts t
  refine funext fun a => Fin.ext ?_
  match a with
  | ⟨0, _⟩ => show win2_4.index t (0 : Fin 2) * 2000 + 1 * p.val = r.val; omega
  | ⟨1, _⟩ => show win2_4.index t (1 : Fin 2) * 128 + 1 * q.val = q.val; omega

/-- Where an element of output block `t` sits in the second output array. -/
theorem emb5_eq (t : Fin cfg2.N) (p : Fin 2000) (q : Fin 128) (r : Fin 50000) (hr : r.val = t.val * 2000 + p.val) :
    ((cfg2.win 5).blk t).view.emb (ix2 p q) = (ix2 r q : S50000x128.Idx) := by
  obtain ⟨-, -, -, -, -, -, -, -, -, -, e0, e1⟩ := idx_facts t
  refine funext fun a => Fin.ext ?_
  match a with
  | ⟨0, _⟩ => show win2_5.index t (0 : Fin 2) * 2000 + 1 * p.val = r.val; omega
  | ⟨1, _⟩ => show win2_5.index t (1 : Fin 2) * 128 + 1 * q.val = q.val; omega

/-- Entry `j` of what the body leaves for the first output at point `t`, against the whole-array map at the
    entry's place. -/
theorem out4_pt (c : Dev nD) (t : Fin cfg2.N) (j : S2000x128.Idx) :
    k2_pay1 (iblk2 V c 0 t : Vec Ideal S2000x128 .f32) (iblk2 V c 1 t : Vec Ideal S1x128 .f32)
        (iblk2 V c 2 t : Vec Ideal S1x128 .f32) j
      = actArr (V c (Pipeline.arrRef spec2 0)) (V c (Pipeline.arrRef spec2 1)) (V c (Pipeline.arrRef spec2 2))
          (((cfg2.win 4).blk t).view.emb j) := by
  obtain ⟨p, q, rfl⟩ : ∃ (p : Fin 2000) (q : Fin 128), j = ix2 p q := ⟨j 0, j 1, eq_ix2 j⟩
  have hN : cfg2.N = 25 := N_2
  have hr : t.val * 2000 + p.val < 50000 := by have := t.isLt; omega
  refine (pay1_eq_act (iblk2 V c 0 t : Vec Ideal S2000x128 .f32) (iblk2 V c 1 t : Vec Ideal S1x128 .f32)
    (iblk2 V c 2 t : Vec Ideal S1x128 .f32)
    (V c (Pipeline.arrRef spec2 0)) (V c (Pipeline.arrRef spec2 1)) (V c (Pipeline.arrRef spec2 2))
    p q ⟨t.val * 2000 + p.val, hr⟩ (blk0_apply V c t p q _ rfl) (blk1_apply V c t q) (blk2_apply V c t q)).trans ?_
  exact (congrArg (actArr (V c (Pipeline.arrRef spec2 0)) (V c (Pipeline.arrRef spec2 1)) (V c (Pipeline.arrRef spec2 2)))
    (emb4_eq t p q ⟨t.val * 2000 + p.val, hr⟩ rfl)).symm

/-- Entry `j` of what the body leaves for the second output at point `t`, against the product array at the entry's
    place. -/
theorem out5_pt (c : Dev nD) (t : Fin cfg2.N) (j : S2000x128.Idx) :
    k2_pay2 (iblk2 V c 0 t : Vec Ideal S2000x128 .f32) (iblk2 V c 1 t : Vec Ideal S1x128 .f32)
        (iblk2 V c 2 t : Vec Ideal S1x128 .f32) (iblk2 V c 3 t : Vec Ideal S128x128 .f32) j
      = prodArr (V c (Pipeline.arrRef spec2 0)) (V c (Pipeline.arrRef spec2 1)) (V c (Pipeline.arrRef spec2 2))
          (V c (Pipeline.arrRef spec2 3)) (((cfg2.win 5).blk t).view.emb j) := by
  obtain ⟨p, q, rfl⟩ : ∃ (p : Fin 2000) (q : Fin 128), j = ix2 p q := ⟨j 0, j 1, eq_ix2 j⟩
  have hN : cfg2.N = 25 := N_2
  have hr : t.val * 2000 + p.val < 50000 := by have := t.isLt; omega
  refine (pay2_eq_prod (iblk2 V c 0 t : Vec Ideal S2000x128 .f32) (iblk2 V c 1 t : Vec Ideal S1x128 .f32)
    (iblk2 V c 2 t : Vec Ideal S1x128 .f32) (iblk2 V c 3 t : Vec Ideal S128x128 .f32)
    (V c (Pipeline.arrRef spec2 0)) (V c (Pipeline.arrRef spec2 1)) (V c (Pipeline.arrRef spec2 2))
    (V c (Pipeline.arrRef spec2 3)) p q ⟨t.val * 2000 + p.val, hr⟩ (fun k => blk0_apply V c t p k _ rfl)
    (fun k => blk1_apply V c t k) (fun k => blk2_apply V c t k) (fun k => blk3_apply V c t k q)).trans ?_
  exact (congrArg (prodArr (V c (Pipeline.arrRef spec2 0)) (V c (Pipeline.arrRef spec2 1)) (V c (Pipeline.arrRef spec2 2))
    (V c (Pipeline.arrRef spec2 3))) (emb5_eq t p q ⟨t.val * 2000 + p.val, hr⟩ rfl)).symm

/-- What point `t` writes back to the first output is block `t` of the rectified affine map of the input arrays. -/
theorem flushed4_eq (c : Dev nD) (t : Fin cfg2.N) :
    (dat2 (F := Ideal) V c).flushed 4 t = ((cfg2.win 4).blk t).view.read (Elt Ideal)
      (actArr (V c (Pipeline.arrRef spec2 0)) (V c (Pipeline.arrRef spec2 1)) (V c (Pipeline.arrRef spec2 2))) := by
  show (cfg2.win 4).cut (grid2.coords t) ((dat2 (F := Ideal) V c).after 4 t) = _
  rw [after2_4]
  unfold out2_4
  rw [View.canon_unit_zero hz]
  simp only [View.ld_unit_zero (S := S2000x128) hz, View.ld_unit_zero (S := S1x128) hz]
  funext j
  exact out4_pt V c t j

/-- What point `t` writes back to the second output is block `t` of the product of the rectified affine map with the
    weight matrix. -/
theorem flushed5_eq (c : Dev nD) (t : Fin cfg2.N) :
    (dat2 (F := Ideal) V c).flushed 5 t = ((cfg2.win 5).blk t).view.read (Elt Ideal)
      (prodArr (V c (Pipeline.arrRef spec2 0)) (V c (Pipeline.arrRef spec2 1)) (V c (Pipeline.arrRef spec2 2))
        (V c (Pipeline.arrRef spec2 3))) := by
  show (cfg2.win 5).cut (grid2.coords t) ((dat2 (F := Ideal) V c).after 5 t) = _
  rw [after2_5]
  unfold out2_5
  rw [View.canon_unit_zero hz]
  simp only [View.ld_unit_zero (S := S2000x128) hz, View.ld_unit_zero (S := S1x128) hz, View.ld_unit_zero (S := S128x128) hz]
  funext j
  exact out5_pt V c t j

/-- An index of the first output array is in point `t`'s block iff each coordinate is in the block's range. -/
theorem mem_blk4 (t : Fin cfg2.N) (i : S50000x128.Idx) :
    i ∈ ((cfg2.win 4).blk t).view.set ↔ ∀ a : Fin 2, win2_4.index t a * S2000x128.size a ≤ (i a).val
      ∧ (i a).val < win2_4.index t a * S2000x128.size a + S2000x128.size a := by
  show i ∈ ((View.whole main_v68_0).slice (win2_4.rect t)).set ↔ _
  rw [View.set_slice_whole, Rect.mem_set_unit]
  exact Iff.rfl

/-- The same for the second output array. -/
theorem mem_blk5 (t : Fin cfg2.N) (i : S50000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v68_1).slice (win2_5.rect t)).set ↔ _
  rw [View.set_slice_whole, Rect.mem_set_unit]
  exact Iff.rfl

/-- Row `r` lies in block `r / 2000`: the 25 blocks of 2000 rows cover the first output array. -/
theorem cover4 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by omega⟩, rfl⟩
  obtain ⟨-, -, -, -, -, -, -, -, e0, e1, -⟩ := idx_facts t
  refine ⟨t, flush2_4 t, ?_⟩
  rw [mem_blk4]
  intro a
  match a with
  | ⟨0, _⟩ =>
    show win2_4.index t (0 : Fin 2) * 2000 ≤ (i 0).val ∧ (i 0).val < win2_4.index t (0 : Fin 2) * 2000 + 2000
    omega
  | ⟨1, _⟩ =>
    show win2_4.index t (1 : Fin 2) * 128 ≤ (i 1).val ∧ (i 1).val < win2_4.index t (1 : Fin 2) * 128 + 128
    omega

/-- And the second. -/
theorem cover5 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by omega⟩, rfl⟩
  obtain ⟨-, -, -, -, -, -, -, -, -, -, e0, e1⟩ := idx_facts t
  refine ⟨t, flush2_5 t, ?_⟩
  rw [mem_blk5]
  intro a
  match a with
  | ⟨0, _⟩ =>
    show win2_5.index t (0 : Fin 2) * 2000 ≤ (i 0).val ∧ (i 0).val < win2_5.index t (0 : Fin 2) * 2000 + 2000
    omega
  | ⟨1, _⟩ =>
    show win2_5.index t (1 : Fin 2) * 128 ≤ (i 1).val ∧ (i 1).val < win2_5.index t (1 : Fin 2) * 128 + 128
    omega

/-- The first output array after the region is the rectified affine map of the input arrays. -/
theorem arr4_eq (c : Dev nD) :
    (dat2 (F := Ideal) V c).arrAt 4 cfg2.N
      = actArr (V c (Pipeline.arrRef spec2 0)) (V c (Pipeline.arrRef spec2 1)) (V c (Pipeline.arrRef spec2 2)) :=
  (dat2 (F := Ideal) V c).arrAt_eq_of_cover 4 _ (fun t _ => flushed4_eq V c t) cover4

/-- The second output array after the region is its product with the weight matrix. -/
theorem arr5_eq (c : Dev nD) :
    (dat2 (F := Ideal) V c).arrAt 5 cfg2.N
      = prodArr (V c (Pipeline.arrRef spec2 0)) (V c (Pipeline.arrRef spec2 1)) (V c (Pipeline.arrRef spec2 2))
          (V c (Pipeline.arrRef spec2 3)) :=
  (dat2 (F := Ideal) V c).arrAt_eq_of_cover 5 _ (fun t _ => flushed5_eq V c t) cover5

/-! ## The two output arrays, entry by entry -/

/-- Entry `(r, q)` of the first output array after the region, the input arrays named `A` (the rows), `S` (the scale
    row) and `T` (the shift row). -/
theorem h_apply (c : Dev nD) (A : S50000x128.Idx → EReal) (S T : S1x128.Idx → EReal)
    (hA : V c (Pipeline.arrRef spec2 0) = A) (hS : V c (Pipeline.arrRef spec2 1) = S)
    (hT : V c (Pipeline.arrRef spec2 2) = T) (r : Fin 50000) (q : Fin 128) :
    (dat2 (F := Ideal) V c).arrAt 4 cfg2.N (ix2 r q)
      = max (A (ix2 r q) * S (ix2 (0 : Fin 1) q) + T (ix2 (0 : Fin 1) q)) (0 : EReal) := by
  subst hA hS hT
  rw [arr4_eq]; rfl

/-- Entry `(r, q)` of the second output array after the region, the weight matrix named `W`. -/
theorem hw_apply (c : Dev nD) (A : S50000x128.Idx → EReal) (S T : S1x128.Idx → EReal) (W : S128x128.Idx → EReal)
    (hA : V c (Pipeline.arrRef spec2 0) = A) (hS : V c (Pipeline.arrRef spec2 1) = S)
    (hT : V c (Pipeline.arrRef spec2 2) = T) (hW : V c (Pipeline.arrRef spec2 3) = W) (r : Fin 50000) (q : Fin 128) :
    (dat2 (F := Ideal) V c).arrAt 5 cfg2.N (ix2 r q)
      = ∑ k : Fin 128, max (A (ix2 r k) * S (ix2 (0 : Fin 1) k) + T (ix2 (0 : Fin 1) k)) (0 : EReal) * W (ix2 k q) := by
  subst hA hS hT hW
  rw [arr5_eq]; rfl

end Cert.KernelIdeal.Region2
end
-- ==== Proof.Stage1.lean ====
/-
  The first graph layer. Before region 2 the host operations gather the projected rows along the edge sources,
  weight them, sum them into their destination nodes and add the layer's bias: the same operations, on the
  same operands, as the reference's (the projected rows are stored at half precision and widened again, which
  changes nothing at the extended reals). Region 2 then applies the folded batch-norm map and relu, and
  projects by the next weight matrix; by the affine law the first output is the reference's hidden state
  after layer 0, hence the second its next projection.
-/
import proofs.«135840_j20212116095605_2_alg».proof.Proof.EntryK
import proofs.«135840_j20212116095605_2_alg».proof.Proof.EntryR
import proofs.«135840_j20212116095605_2_alg».proof.Proof.Stage0
import proofs.«135840_j20212116095605_2_alg».proof.Proof.Bn
import proofs.«135840_j20212116095605_2_alg».proof.Proof.Region2
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen Cert.ReferenceIdeal.Read
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

open scoped BigOperators

/-- The aggregate of layer 0 (messages summed into their destinations, plus the bias) is the reference's. -/
theorem agg0_eq : W7 m ρ c (Proc.devRef .tc main_v63)
    = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after (hostOps2 (F := Ideal)) (W6 m ρ c) (Proc.devRef .tc main_v63) = _
  after_results_simp
  rw [W6_keep m ρ c main_v3 (by decide) (by decide) (by decide), src_eq, W6_keep m ρ c main_v6 (by decide) (by decide) (by decide), dst_eq,
    W6_keep m ρ c main_v32 (by decide) (by decide) (by decide), norm_eq, hw0_eq,
    W6_keep m ρ c main_arg5 (by decide) (by decide) (by decide), arg_at_entry m ρ c main_arg5 (by decide) (by decide) (by decide)]
  rfl

/-- Row 0 of the folded scale, as region 2 is handed it. -/
theorem srow0_eq : W7 m ρ c (Proc.devRef .tc main_v64)
    = extractStridedSlice S1x128 ![0, 0] (scaleAll (m ((c : Thread nD τ).loc main_arg6)) (m ((c : Thread nD τ).loc main_arg9))) slices_S3x128_S1x128_0_0 := by
  show StableHlo.after (hostOps2 (F := Ideal)) (W6 m ρ c) (Proc.devRef .tc main_v64) = _
  after_results_simp
  rw [W6_keep m ρ c main_v36 (by decide) (by decide) (by decide), scale_eq]

/-- Row 0 of the folded shift. -/
theorem trow0_eq : W7 m ρ c (Proc.devRef .tc main_v65)
    = extractStridedSlice S1x128 ![0, 0] (shiftAll (m ((c : Thread nD τ).loc main_arg6)) (m ((c : Thread nD τ).loc main_arg7)) (m ((c : Thread nD τ).loc main_arg8)) (m ((c : Thread nD τ).loc main_arg9))) slices_S3x128_S1x128_0_0 := by
  show StableHlo.after (hostOps2 (F := Ideal)) (W6 m ρ c) (Proc.devRef .tc main_v65) = _
  after_results_simp
  rw [W6_keep m ρ c main_v38 (by decide) (by decide) (by decide), shift_eq]

/-- The second layer's weight matrix is the reference's. -/
theorem wc1_eq : W7 m ρ c (Proc.devRef .tc main_v67) = val_main_v83 (F := Ideal) (m ((c : Thread nD τ).loc main_arg4)) := by
  show StableHlo.after (hostOps2 (F := Ideal)) (W6 m ρ c) (Proc.devRef .tc main_v67) = _
  after_results_simp
  rw [W6_keep m ρ c main_arg4 (by decide) (by decide) (by decide), arg_at_entry m ρ c main_arg4 (by decide) (by decide) (by decide)]
  rfl

/-- Layer 0 at one entry: the folded affine map then relu, on the aggregate, is the reference's batch norm then
    relu. -/
theorem bn0_point (hR : BnReal m c) (A : S50000x128.Idx → EReal) (S T : S1x128.Idx → EReal)
    (hA : A = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
    (hS : S = extractStridedSlice S1x128 ![0, 0] (scaleAll (m ((c : Thread nD τ).loc main_arg6)) (m ((c : Thread nD τ).loc main_arg9))) slices_S3x128_S1x128_0_0)
    (hT : T = extractStridedSlice S1x128 ![0, 0] (shiftAll (m ((c : Thread nD τ).loc main_arg6)) (m ((c : Thread nD τ).loc main_arg7)) (m ((c : Thread nD τ).loc main_arg8)) (m ((c : Thread nD τ).loc main_arg9))) slices_S3x128_S1x128_0_0)
    (r : Fin 50000) (k : Fin 128) :
    max (A (ix2 r k) * S (ix2 (0 : Fin 1) k) + T (ix2 (0 : Fin 1) k)) (0 : EReal)
      = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 r k) := by
  subst hS hT
  rw [row0_apply, row0_apply,
    bn_entry _ _ _ _ _ (hR.gamma _) (hR.beta _) (hR.mean _) (hR.var _)]
  rw [val_main_v81_apply, val_main_v80_apply, val_main_v75_apply, val_main_v70_apply, val_main_v62_apply,
    val_main_v61_apply, val_main_v60_apply, val_main_v59_apply, val_main_v58_apply,
    val_main_v69_apply, val_main_v68_apply, val_main_v67_apply, val_main_v66_apply, val_main_v65_apply,
    val_main_v64_apply, val_main_v63_apply, val_main_cst_10_apply,
    val_main_v74_apply, val_main_v73_apply, val_main_v72_apply, val_main_v71_apply,
    val_main_v79_apply, val_main_v78_apply, val_main_v77_apply, val_main_v76_apply,
    val_main_call2_v0_apply, val_main_call2_cst_apply]
  rw [← hA]
  have e8 : idx_main_v58 (idx_main_v59 (idx_main_v60 (idx_main_v61 (ix2 r k)))) = ix2 (0 : Fin 3) k :=
    funext fun a => match a with | ⟨0, _⟩ => rfl | ⟨1, _⟩ => Fin.ext (Nat.mod_eq_of_lt k.isLt)
  have e9 : idx_main_v63 (idx_main_v64 (idx_main_v68 (idx_main_v69 (ix2 r k)))) = ix2 (0 : Fin 3) k :=
    funext fun a => match a with | ⟨0, _⟩ => rfl | ⟨1, _⟩ => Fin.ext (Nat.mod_eq_of_lt k.isLt)
  have e6 : idx_main_v71 (idx_main_v72 (idx_main_v73 (idx_main_v74 (ix2 r k)))) = ix2 (0 : Fin 3) k :=
    funext fun a => match a with | ⟨0, _⟩ => rfl | ⟨1, _⟩ => Fin.ext (Nat.mod_eq_of_lt k.isLt)
  have e7 : idx_main_v76 (idx_main_v77 (idx_main_v78 (idx_main_v79 (ix2 r k)))) = ix2 (0 : Fin 3) k :=
    funext fun a => match a with | ⟨0, _⟩ => rfl | ⟨1, _⟩ => Fin.ext (Nat.mod_eq_of_lt k.isLt)
  simp only [e8, e9, e6, e7, Ideal.maximumf_def, Ideal.addf_def, Ideal.mulf_def, Ideal.subf_def,
    Ideal.hostUnary_rsqrt_def, Ideal.ofBits_def, Ideal.ofBits_zero_f32]

/-- Region 2's first output array is the reference's hidden state after layer 0. -/
theorem h1_eq (hR : BnReal m c) : W8 m ρ c (Proc.devRef .tc main_v68_0)
    = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [show W8 m ρ c (Proc.devRef .tc main_v68_0) = (dat2 (V7 m ρ) c).arrAt 4 cfg2.N from W8_arr m ρ c 4]
  funext i
  obtain ⟨r, q, rfl⟩ : ∃ (r : Fin 50000) (q : Fin 128), i = ix2 r q := ⟨i 0, i 1, eq_ix2 i⟩
  rw [Region2.h_apply (V7 m ρ) c _ _ _ (agg0_eq m ρ c) (srow0_eq m ρ c) (trow0_eq m ρ c) r q]
  exact bn0_point m c hR _ _ _ rfl rfl rfl r q

/-- Region 2's second output array is the reference's projection for layer 1. -/
theorem hw1_eq (hR : BnReal m c) : W8 m ρ c (Proc.devRef .tc main_v68_1)
    = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [show W8 m ρ c (Proc.devRef .tc main_v68_1) = (dat2 (V7 m ρ) c).arrAt 5 cfg2.N from W8_arr m ρ c 5]
  funext i
  obtain ⟨r, q, rfl⟩ : ∃ (r : Fin 50000) (q : Fin 128), i = ix2 r q := ⟨i 0, i 1, eq_ix2 i⟩
  rw [Region2.hw_apply (V7 m ρ) c _ _ _ _ (agg0_eq m ρ c) (srow0_eq m ρ c) (trow0_eq m ρ c) (wc1_eq m ρ c) r q]
  rw [val_main_v84_apply]
  have e1 : ∀ k : Fin 128, lidx_main_v84 (ix2 r q) k = ix2 r k := fun k =>
    funext fun a => match a with | ⟨0, _⟩ => rfl | ⟨1, _⟩ => rfl
  have e2 : ∀ k : Fin 128, ridx_main_v84 (ix2 r q) k = ix2 k q := fun k =>
    funext fun a => match a with | ⟨0, _⟩ => rfl | ⟨1, _⟩ => rfl
  simp only [e1, e2, bn0_point m c hR _ _ _ rfl rfl rfl r]

end Cert.KernelIdeal.Hand

end
-- ==== Proof.Region3.lean ====
/- Region 3: on each block of 2000 rows the body leaves h = max (a * s + t) 0 + hin entry by entry (s and t one row
   each, repeated down the rows; hin the residual rows) and hw = h W, over the extended reals a plain sum of products
   along the 128 columns of h. Here: the two payloads at an in-block entry; each written-back block as the restriction
   of ONE whole-array function of the region's input arrays; the 25 row blocks cover the 50000 rows; hence both output
   arrays after the region, entry by entry. -/
import proofs.«135840_j20212116095605_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region3

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The mathematics -/

/-- One entry of the rectified affine map with the residual added: row `r`, column `k`. -/
def act (A : S50000x128.Idx → EReal) (S T : S1x128.Idx → EReal) (H : S50000x128.Idx → EReal) (r : Fin 50000) (k : Fin 128) :
    EReal :=
  max (A (ix2 r k) * S (ix2 (0 : Fin 1) k) + T (ix2 (0 : Fin 1) k)) (0 : EReal) + H (ix2 r k)

/-- That map as a whole array. -/
def actArr (A : S50000x128.Idx → EReal) (S T : S1x128.Idx → EReal) (H : S50000x128.Idx → EReal) : S50000x128.Idx → EReal :=
  fun i => act A S T H (i 0) (i 1)

/-- Its product with the weight matrix as a whole array. -/
def prodArr (A : S50000x128.Idx → EReal) (S T : S1x128.Idx → EReal) (H : S50000x128.Idx → EReal)
    (W : S128x128.Idx → EReal) : S50000x128.Idx → EReal :=
  fun i => ∑ k : Fin 128, act A S T H (i 0) k * W (ix2 k (i 1))

/-! ## The body's two payloads at an in-block index -/

theorem pay1_apply (x0 : Vec Ideal S2000x128 .f32) (x1 x2 : Vec Ideal S1x128 .f32) (x3 : Vec Ideal S2000x128 .f32)
    (p : Fin 2000) (q : Fin 128) :
    k3_pay1 x0 x1 x2 x3 (ix2 p q)
      = max (x0 (ix2 p q) * x1 (ix2 (0 : Fin 1) q) + x2 (ix2 (0 : Fin 1) q)) (0 : EReal) + x3 (ix2 p q) := by
  unfold k3_pay1
  rw [addf_apply, maximumf_apply, addf_apply, mulf_apply, broadcast_apply, shapeCast_self, shapeCast_self, shapeCast_self,
    shapeCast_self, broadcastTo_1b_ab_apply, broadcastTo_1b_ab_apply]
  show max _ (Ideal.ofBits .f32 0x00000000#32) + _ = _
  rw [Ideal.ofBits_zero_f32]

theorem pay1_eq_act (x0 : Vec Ideal S2000x128 .f32) (x1 x2 : Vec Ideal S1x128 .f32) (x3 : Vec Ideal S2000x128 .f32)
    (A : S50000x128.Idx → EReal) (S T : S1x128.Idx → EReal) (H : S50000x128.Idx → EReal)
    (p : Fin 2000) (q : Fin 128) (r : Fin 50000)
    (h0 : x0 (ix2 p q) = A (ix2 r q)) (h1 : x1 (ix2 (0 : Fin 1) q) = S (ix2 (0 : Fin 1) q))
    (h2 : x2 (ix2 (0 : Fin 1) q) = T (ix2 (0 : Fin 1) q)) (h3 : x3 (ix2 p q) = H (ix2 r q)) :
    k3_pay1 x0 x1 x2 x3 (ix2 p q) = act A S T H r q := by
  rw [pay1_apply, h0, h1, h2, h3]; rfl

theorem lhs_ax0 (i : S2000x128.Idx) (κ : dot_S2000x128_S128x128_S2000x128_1_0_0_1_n_n.contr.Idx) :
    (dot_S2000x128_S128x128_S2000x128_1_0_0_1_n_n.lhsIdx i κ 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem rhs_ax1 (i : S2000x128.Idx) (κ : dot_S2000x128_S128x128_S2000x128_1_0_0_1_n_n.contr.Idx) :
    (dot_S2000x128_S128x128_S2000x128_1_0_0_1_n_n.rhsIdx i κ 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

theorem pay2_apply (x0 : Vec Ideal S2000x128 .f32) (x1 x2 : Vec Ideal S1x128 .f32) (x3 : Vec Ideal S2000x128 .f32)
    (x4 : Vec Ideal S128x128 .f32) (p : Fin 2000) (q : Fin 128) :
    k3_pay2 x0 x1 x2 x3 x4 (ix2 p q) = ∑ k : Fin 128, k3_pay1 x0 x1 x2 x3 (ix2 p k) * x4 (ix2 k q) := by
  unfold k3_pay2
  generalize k3_pay1 x0 x1 x2 x3 = y
  rw [truncf_apply]
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_ax0 _ _
      | ⟨1, _⟩ => exact (dot_S2000x128_S128x128_S2000x128_1_0_0_1_n_n.lhsIdx_val_of_single rfl _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (dot_S2000x128_S128x128_S2000x128_1_0_0_1_n_n.rhsIdx_val_of_single rfl _ _).trans hk
      | ⟨1, _⟩ => exact rhs_ax1 _ _)
  rw [el, er, truncf_apply, truncf_apply, shapeCast_self]

theorem pay2_eq_prod (x0 : Vec Ideal S2000x128 .f32) (x1 x2 : Vec Ideal S1x128 .f32) (x3 : Vec Ideal S2000x128 .f32)
    (x4 : Vec Ideal S128x128 .f32)
    (A : S50000x128.Idx → EReal) (S T : S1x128.Idx → EReal) (H : S50000x128.Idx → EReal) (W : S128x128.Idx → EReal)
    (p : Fin 2000) (q : Fin 128) (r : Fin 50000)
    (h0 : ∀ k : Fin 128, x0 (ix2 p k) = A (ix2 r k)) (h1 : ∀ k : Fin 128, x1 (ix2 (0 : Fin 1) k) = S (ix2 (0 : Fin 1) k))
    (h2 : ∀ k : Fin 128, x2 (ix2 (0 : Fin 1) k) = T (ix2 (0 : Fin 1) k)) (h3 : ∀ k : Fin 128, x3 (ix2 p k) = H (ix2 r k))
    (h4 : ∀ k : Fin 128, x4 (ix2 k q) = W (ix2 k q)) :
    k3_pay2 x0 x1 x2 x3 x4 (ix2 p q) = ∑ k : Fin 128, act A S T H r k * W (ix2 k q) := by
  rw [pay2_apply]
  refine Finset.sum_congr rfl fun k _ => ?_
  rw [pay1_eq_act x0 x1 x2 x3 A S T H p k r (h0 k) (h1 k) (h2 k) (h3 k), h4 k]

/-! ## From blocks to the arrays -/

theorem hz : (![0, 0] : Fin 2 → Nat) = fun _ => 0 := funext fun a => by fin_cases a <;> rfl

/-- The index maps over the grid: a row-blocked window's block index is the point on the rows and zero on the
    columns; a whole-array window's is zero on both. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- Block `t` of the row-blocked input holds rows `2000 t … 2000 t + 1999` of its array. -/
theorem blk0_apply (c : Dev nD) (t : Fin cfg3.N) (p : Fin 2000) (k : Fin 128) (r : Fin 50000)
    (hr : r.val = t.val * 2000 + p.val) :
    (iblk3 V c 0 t : Vec Ideal S2000x128 .f32) (ix2 p k)
      = (V c (Pipeline.arrRef spec3 0) : S50000x128.Idx → EReal) (ix2 r k) := by
  obtain ⟨e0, e1, -⟩ := idx_facts t
  show (V c (Pipeline.arrRef spec3 0) : S50000x128.Idx → EReal) (((cfg3.win 0).blk t).view.emb (ix2 p k)) = _
  refine congrArg _ (funext fun a => Fin.ext ?_)
  match a with
  | ⟨0, _⟩ => show win3_0.index t (0 : Fin 2) * 2000 + 1 * p.val = r.val; omega
  | ⟨1, _⟩ => show win3_0.index t (1 : Fin 2) * 128 + 1 * k.val = k.val; omega

/-- The scale row's block is the scale row. -/
theorem blk1_apply (c : Dev nD) (t : Fin cfg3.N) (k : Fin 128) :
    (iblk3 V c 1 t : Vec Ideal S1x128 .f32) (ix2 (0 : Fin 1) k)
      = (V c (Pipeline.arrRef spec3 1) : S1x128.Idx → EReal) (ix2 (0 : Fin 1) k) := by
  obtain ⟨-, -, e0, e1, -⟩ := idx_facts t
  show (V c (Pipeline.arrRef spec3 1) : S1x128.Idx → EReal) (((cfg3.win 1).blk t).view.emb (ix2 (0 : Fin 1) k)) = _
  refine congrArg _ (funext fun a => Fin.ext ?_)
  match a with
  | ⟨0, _⟩ => show win3_1.index t (0 : Fin 2) * 1 + 1 * 0 = 0; omega
  | ⟨1, _⟩ => show win3_1.index t (1 : Fin 2) * 128 + 1 * k.val = k.val; omega

/-- The shift row's block is the shift row. -/
theorem blk2_apply (c : Dev nD) (t : Fin cfg3.N) (k : Fin 128) :
    (iblk3 V c 2 t : Vec Ideal S1x128 .f32) (ix2 (0 : Fin 1) k)
      = (V c (Pipeline.arrRef spec3 2) : S1x128.Idx → EReal) (ix2 (0 : Fin 1) k) := by
  obtain ⟨-, -, -, -, e0, e1, -⟩ := idx_facts t
  show (V c (Pipeline.arrRef spec3 2) : S1x128.Idx → EReal) (((cfg3.win 2).blk t).view.emb (ix2 (0 : Fin 1) k)) = _
  refine congrArg _ (funext fun a => Fin.ext ?_)
  match a with
  | ⟨0, _⟩ => show win3_2.index t (0 : Fin 2) * 1 + 1 * 0 = 0; omega
  | ⟨1, _⟩ => show win3_2.index t (1 : Fin 2) * 128 + 1 * k.val = k.val; omega

/-- Block `t` of the residual input holds rows `2000 t … 2000 t + 1999` of its array. -/
theorem blk3_apply (c : Dev nD) (t : Fin cfg3.N) (p : Fin 2000) (k : Fin 128) (r : Fin 50000)
    (hr : r.val = t.val * 2000 + p.val) :
    (iblk3 V c 3 t : Vec Ideal S2000x128 .f32) (ix2 p k)
      = (V c (Pipeline.arrRef spec3 3) : S50000x128.Idx → EReal) (ix2 r k) := by
  obtain ⟨-, -, -, -, -, -, e0, e1, -⟩ := idx_facts t
  show (V c (Pipeline.arrRef spec3 3) : S50000x128.Idx → EReal) (((cfg3.win 3).blk t).view.emb (ix2 p k)) = _
  refine congrArg _ (funext fun a => Fin.ext ?_)
  match a with
  | ⟨0, _⟩ => show win3_3.index t (0 : Fin 2) * 2000 + 1 * p.val = r.val; omega
  | ⟨1, _⟩ => show win3_3.index t (1 : Fin 2) * 128 + 1 * k.val = k.val; omega

/-- The weight matrix's block is the weight matrix. -/
theorem blk4_apply (c : Dev nD) (t : Fin cfg3.N) (k q : Fin 128) :
    (iblk3 V c 4 t : Vec Ideal S128x128 .f32) (ix2 k q)
      = (V c (Pipeline.arrRef spec3 4) : S128x128.Idx → EReal) (ix2 k q) := by
  obtain ⟨-, -, -, -, -, -, -, -, e0, e1, -⟩ := idx_facts t
  show (V c (Pipeline.arrRef spec3 4) : S128x128.Idx → EReal) (((cfg3.win 4).blk t).view.emb (ix2 k q)) = _
  refine congrArg _ (funext fun a => Fin.ext ?_)
  match a with
  | ⟨0, _⟩ => show win3_4.index t (0 : Fin 2) * 128 + 1 * k.val = k.val; omega
  | ⟨1, _⟩ => show win3_4.index t (1 : Fin 2) * 128 + 1 * q.val = q.val; omega

/-- Where an element of output block `t` sits in the first output array. -/
theorem emb5_eq (t : Fin cfg3.N) (p : Fin 2000) (q : Fin 128) (r : Fin 50000) (hr : r.val = t.val * 2000 + p.val) :
    ((cfg3.win 5).blk t).view.emb (ix2 p q) = (ix2 r q : S50000x128.Idx) := by
  obtain ⟨-, -, -, -, -, -, -, -, -, -, e0, e1, -⟩ := idx_facts t
  refine funext fun a => Fin.ext ?_
  match a with
  | ⟨0, _⟩ => show win3_5.index t (0 : Fin 2) * 2000 + 1 * p.val = r.val; omega
  | ⟨1, _⟩ => show win3_5.index t (1 : Fin 2) * 128 + 1 * q.val = q.val; omega

/-- Where an element of output block `t` sits in the second output array. -/
theorem emb6_eq (t : Fin cfg3.N) (p : Fin 2000) (q : Fin 128) (r : Fin 50000) (hr : r.val = t.val * 2000 + p.val) :
    ((cfg3.win 6).blk t).view.emb (ix2 p q) = (ix2 r q : S50000x128.Idx) := by
  obtain ⟨-, -, -, -, -, -, -, -, -, -, -, -, e0, e1⟩ := idx_facts t
  refine funext fun a => Fin.ext ?_
  match a with
  | ⟨0, _⟩ => show win3_6.index t (0 : Fin 2) * 2000 + 1 * p.val = r.val; omega
  | ⟨1, _⟩ => show win3_6.index t (1 : Fin 2) * 128 + 1 * q.val = q.val; omega

/-- Entry `j` of what the body leaves for the first output at point `t`, against the whole-array map at the
    entry's place. -/
theorem out5_pt (c : Dev nD) (t : Fin cfg3.N) (j : S2000x128.Idx) :
    k3_pay1 (iblk3 V c 0 t : Vec Ideal S2000x128 .f32) (iblk3 V c 1 t : Vec Ideal S1x128 .f32)
        (iblk3 V c 2 t : Vec Ideal S1x128 .f32) (iblk3 V c 3 t : Vec Ideal S2000x128 .f32) j
      = actArr (V c (Pipeline.arrRef spec3 0)) (V c (Pipeline.arrRef spec3 1)) (V c (Pipeline.arrRef spec3 2))
          (V c (Pipeline.arrRef spec3 3)) (((cfg3.win 5).blk t).view.emb j) := by
  obtain ⟨p, q, rfl⟩ : ∃ (p : Fin 2000) (q : Fin 128), j = ix2 p q := ⟨j 0, j 1, eq_ix2 j⟩
  have hN : cfg3.N = 25 := N_3
  have hr : t.val * 2000 + p.val < 50000 := by have := t.isLt; omega
  refine (pay1_eq_act (iblk3 V c 0 t : Vec Ideal S2000x128 .f32) (iblk3 V c 1 t : Vec Ideal S1x128 .f32)
    (iblk3 V c 2 t : Vec Ideal S1x128 .f32) (iblk3 V c 3 t : Vec Ideal S2000x128 .f32)
    (V c (Pipeline.arrRef spec3 0)) (V c (Pipeline.arrRef spec3 1)) (V c (Pipeline.arrRef spec3 2))
    (V c (Pipeline.arrRef spec3 3)) p q ⟨t.val * 2000 + p.val, hr⟩ (blk0_apply V c t p q _ rfl)
    (blk1_apply V c t q) (blk2_apply V c t q) (blk3_apply V c t p q _ rfl)).trans ?_
  exact (congrArg (actArr (V c (Pipeline.arrRef spec3 0)) (V c (Pipeline.arrRef spec3 1)) (V c (Pipeline.arrRef spec3 2))
    (V c (Pipeline.arrRef spec3 3))) (emb5_eq t p q ⟨t.val * 2000 + p.val, hr⟩ rfl)).symm

/-- Entry `j` of what the body leaves for the second output at point `t`, against the product array at the entry's
    place. -/
theorem out6_pt (c : Dev nD) (t : Fin cfg3.N) (j : S2000x128.Idx) :
    k3_pay2 (iblk3 V c 0 t : Vec Ideal S2000x128 .f32) (iblk3 V c 1 t : Vec Ideal S1x128 .f32)
        (iblk3 V c 2 t : Vec Ideal S1x128 .f32) (iblk3 V c 3 t : Vec Ideal S2000x128 .f32)
        (iblk3 V c 4 t : Vec Ideal S128x128 .f32) j
      = prodArr (V c (Pipeline.arrRef spec3 0)) (V c (Pipeline.arrRef spec3 1)) (V c (Pipeline.arrRef spec3 2))
          (V c (Pipeline.arrRef spec3 3)) (V c (Pipeline.arrRef spec3 4)) (((cfg3.win 6).blk t).view.emb j) := by
  obtain ⟨p, q, rfl⟩ : ∃ (p : Fin 2000) (q : Fin 128), j = ix2 p q := ⟨j 0, j 1, eq_ix2 j⟩
  have hN : cfg3.N = 25 := N_3
  have hr : t.val * 2000 + p.val < 50000 := by have := t.isLt; omega
  refine (pay2_eq_prod (iblk3 V c 0 t : Vec Ideal S2000x128 .f32) (iblk3 V c 1 t : Vec Ideal S1x128 .f32)
    (iblk3 V c 2 t : Vec Ideal S1x128 .f32) (iblk3 V c 3 t : Vec Ideal S2000x128 .f32)
    (iblk3 V c 4 t : Vec Ideal S128x128 .f32)
    (V c (Pipeline.arrRef spec3 0)) (V c (Pipeline.arrRef spec3 1)) (V c (Pipeline.arrRef spec3 2))
    (V c (Pipeline.arrRef spec3 3)) (V c (Pipeline.arrRef spec3 4)) p q ⟨t.val * 2000 + p.val, hr⟩
    (fun k => blk0_apply V c t p k _ rfl) (fun k => blk1_apply V c t k) (fun k => blk2_apply V c t k)
    (fun k => blk3_apply V c t p k _ rfl) (fun k => blk4_apply V c t k q)).trans ?_
  exact (congrArg (prodArr (V c (Pipeline.arrRef spec3 0)) (V c (Pipeline.arrRef spec3 1)) (V c (Pipeline.arrRef spec3 2))
    (V c (Pipeline.arrRef spec3 3)) (V c (Pipeline.arrRef spec3 4))) (emb6_eq t p q ⟨t.val * 2000 + p.val, hr⟩ rfl)).symm

/-- What point `t` writes back to the first output is block `t` of the rectified affine map, residual added, of the
    input arrays. -/
theorem flushed5_eq (c : Dev nD) (t : Fin cfg3.N) :
    (dat3 (F := Ideal) V c).flushed 5 t = ((cfg3.win 5).blk t).view.read (Elt Ideal)
      (actArr (V c (Pipeline.arrRef spec3 0)) (V c (Pipeline.arrRef spec3 1)) (V c (Pipeline.arrRef spec3 2))
        (V c (Pipeline.arrRef spec3 3))) := by
  show (cfg3.win 5).cut (grid3.coords t) ((dat3 (F := Ideal) V c).after 5 t) = _
  rw [after3_5]
  unfold out3_5
  rw [View.canon_unit_zero hz]
  simp only [View.ld_unit_zero (S := S2000x128) hz, View.ld_unit_zero (S := S1x128) hz]
  funext j
  exact out5_pt V c t j

/-- What point `t` writes back to the second output is block `t` of that map's product with the weight matrix. -/
theorem flushed6_eq (c : Dev nD) (t : Fin cfg3.N) :
    (dat3 (F := Ideal) V c).flushed 6 t = ((cfg3.win 6).blk t).view.read (Elt Ideal)
      (prodArr (V c (Pipeline.arrRef spec3 0)) (V c (Pipeline.arrRef spec3 1)) (V c (Pipeline.arrRef spec3 2))
        (V c (Pipeline.arrRef spec3 3)) (V c (Pipeline.arrRef spec3 4))) := by
  show (cfg3.win 6).cut (grid3.coords t) ((dat3 (F := Ideal) V c).after 6 t) = _
  rw [after3_6]
  unfold out3_6
  rw [View.canon_unit_zero hz]
  simp only [View.ld_unit_zero (S := S2000x128) hz, View.ld_unit_zero (S := S1x128) hz, View.ld_unit_zero (S := S128x128) hz]
  funext j
  exact out6_pt V c t j

/-- An index of the first output array is in point `t`'s block iff each coordinate is in the block's range. -/
theorem mem_blk5 (t : Fin cfg3.N) (i : S50000x128.Idx) :
    i ∈ ((cfg3.win 5).blk t).view.set ↔ ∀ a : Fin 2, win3_5.index t a * S2000x128.size a ≤ (i a).val
      ∧ (i a).val < win3_5.index t a * S2000x128.size a + S2000x128.size a := by
  show i ∈ ((View.whole main_v91_0).slice (win3_5.rect t)).set ↔ _
  rw [View.set_slice_whole, Rect.mem_set_unit]
  exact Iff.rfl

/-- The same for the second output array. -/
theorem mem_blk6 (t : Fin cfg3.N) (i : S50000x128.Idx) :
    i ∈ ((cfg3.win 6).blk t).view.set ↔ ∀ a : Fin 2, win3_6.index t a * S2000x128.size a ≤ (i a).val
      ∧ (i a).val < win3_6.index t a * S2000x128.size a + S2000x128.size a := by
  show i ∈ ((View.whole main_v91_1).slice (win3_6.rect t)).set ↔ _
  rw [View.set_slice_whole, Rect.mem_set_unit]
  exact Iff.rfl

/-- Row `r` lies in block `r / 2000`: the 25 blocks of 2000 rows cover the first output array. -/
theorem cover5 (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 25 := N_3
  obtain ⟨t, ht⟩ : ∃ t : Fin cfg3.N, t.val = (i 0).val / 2000 := ⟨⟨(i 0).val / 2000, by omega⟩, rfl⟩
  obtain ⟨-, -, -, -, -, -, -, -, -, -, e0, e1, -⟩ := idx_facts t
  refine ⟨t, flush3_5 t, ?_⟩
  rw [mem_blk5]
  intro a
  match a with
  | ⟨0, _⟩ =>
    show win3_5.index t (0 : Fin 2) * 2000 ≤ (i 0).val ∧ (i 0).val < win3_5.index t (0 : Fin 2) * 2000 + 2000
    omega
  | ⟨1, _⟩ =>
    show win3_5.index t (1 : Fin 2) * 128 ≤ (i 1).val ∧ (i 1).val < win3_5.index t (1 : Fin 2) * 128 + 128
    omega

/-- And the second. -/
theorem cover6 (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 25 := N_3
  obtain ⟨t, ht⟩ : ∃ t : Fin cfg3.N, t.val = (i 0).val / 2000 := ⟨⟨(i 0).val / 2000, by omega⟩, rfl⟩
  obtain ⟨-, -, -, -, -, -, -, -, -, -, -, -, e0, e1⟩ := idx_facts t
  refine ⟨t, flush3_6 t, ?_⟩
  rw [mem_blk6]
  intro a
  match a with
  | ⟨0, _⟩ =>
    show win3_6.index t (0 : Fin 2) * 2000 ≤ (i 0).val ∧ (i 0).val < win3_6.index t (0 : Fin 2) * 2000 + 2000
    omega
  | ⟨1, _⟩ =>
    show win3_6.index t (1 : Fin 2) * 128 ≤ (i 1).val ∧ (i 1).val < win3_6.index t (1 : Fin 2) * 128 + 128
    omega

/-- The first output array after the region is the rectified affine map, residual added, of the input arrays. -/
theorem arr5_eq (c : Dev nD) :
    (dat3 (F := Ideal) V c).arrAt 5 cfg3.N
      = actArr (V c (Pipeline.arrRef spec3 0)) (V c (Pipeline.arrRef spec3 1)) (V c (Pipeline.arrRef spec3 2))
          (V c (Pipeline.arrRef spec3 3)) :=
  (dat3 (F := Ideal) V c).arrAt_eq_of_cover 5 _ (fun t _ => flushed5_eq V c t) cover5

/-- The second output array after the region is its product with the weight matrix. -/
theorem arr6_eq (c : Dev nD) :
    (dat3 (F := Ideal) V c).arrAt 6 cfg3.N
      = prodArr (V c (Pipeline.arrRef spec3 0)) (V c (Pipeline.arrRef spec3 1)) (V c (Pipeline.arrRef spec3 2))
          (V c (Pipeline.arrRef spec3 3)) (V c (Pipeline.arrRef spec3 4)) :=
  (dat3 (F := Ideal) V c).arrAt_eq_of_cover 6 _ (fun t _ => flushed6_eq V c t) cover6

/-! ## The two output arrays, entry by entry -/

/-- Entry `(r, q)` of the first output array after the region, the input arrays named `A` (the rows), `S` (the scale
    row), `T` (the shift row) and `H` (the residual rows). -/
theorem h_apply (c : Dev nD) (A : S50000x128.Idx → EReal) (S T : S1x128.Idx → EReal) (H : S50000x128.Idx → EReal)
    (hA : V c (Pipeline.arrRef spec3 0) = A) (hS : V c (Pipeline.arrRef spec3 1) = S)
    (hT : V c (Pipeline.arrRef spec3 2) = T) (hH : V c (Pipeline.arrRef spec3 3) = H) (r : Fin 50000) (q : Fin 128) :
    (dat3 (F := Ideal) V c).arrAt 5 cfg3.N (ix2 r q)
      = max (A (ix2 r q) * S (ix2 (0 : Fin 1) q) + T (ix2 (0 : Fin 1) q)) (0 : EReal) + H (ix2 r q) := by
  subst hA hS hT hH
  rw [arr5_eq]; rfl

/-- Entry `(r, q)` of the second output array after the region, the weight matrix named `W`. -/
theorem hw_apply (c : Dev nD) (A : S50000x128.Idx → EReal) (S T : S1x128.Idx → EReal) (H : S50000x128.Idx → EReal)
    (W : S128x128.Idx → EReal)
    (hA : V c (Pipeline.arrRef spec3 0) = A) (hS : V c (Pipeline.arrRef spec3 1) = S)
    (hT : V c (Pipeline.arrRef spec3 2) = T) (hH : V c (Pipeline.arrRef spec3 3) = H)
    (hW : V c (Pipeline.arrRef spec3 4) = W) (r : Fin 50000) (q : Fin 128) :
    (dat3 (F := Ideal) V c).arrAt 6 cfg3.N (ix2 r q)
      = ∑ k : Fin 128, (max (A (ix2 r k) * S (ix2 (0 : Fin 1) k) + T (ix2 (0 : Fin 1) k)) (0 : EReal) + H (ix2 r k))
          * W (ix2 k q) := by
  subst hA hS hT hH hW
  rw [arr6_eq]; rfl

end Cert.KernelIdeal.Region3
end
-- ==== Proof.Stage2.lean ====
/-
  The second graph layer. As in the first: gather along the edge sources, weight, sum into the destinations, add
  the bias — the reference's operations on the reference's operands. Region 3 applies the folded batch-norm map
  and relu, ADDS the previous hidden state (the residual), and projects by the last layer's weight matrix.
-/
import proofs.«135840_j20212116095605_2_alg».proof.Proof.EntryK
import proofs.«135840_j20212116095605_2_alg».proof.Proof.EntryR
import proofs.«135840_j20212116095605_2_alg».proof.Proof.ReadP
import proofs.«135840_j20212116095605_2_alg».proof.Proof.Bn
import proofs.«135840_j20212116095605_2_alg».proof.Proof.Region3
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen Cert.ReferenceIdeal.Read
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

open scoped BigOperators

/-- The aggregate of layer 1 is the reference's. -/
theorem agg1_eq
    (hw1 : W8 m ρ c (Proc.devRef .tc main_v68_1) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) : W9 m ρ c (Proc.devRef .tc main_v86)
    = val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after (hostOps3 (F := Ideal)) (W8 m ρ c) (Proc.devRef .tc main_v86) = _
  after_results_simp
  rw [(W8_keep m ρ c main_v3 (by decide) (by decide)).trans (W6_keep m ρ c main_v3 (by decide) (by decide) (by decide)), src_eq, (W8_keep m ρ c main_v6 (by decide) (by decide)).trans (W6_keep m ρ c main_v6 (by decide) (by decide) (by decide)), dst_eq,
    (W8_keep m ρ c main_v32 (by decide) (by decide)).trans (W6_keep m ρ c main_v32 (by decide) (by decide) (by decide)), norm_eq, hw1,
    (W8_keep m ρ c main_arg5 (by decide) (by decide)).trans (W6_keep m ρ c main_arg5 (by decide) (by decide) (by decide)), arg_at_entry m ρ c main_arg5 (by decide) (by decide) (by decide)]
  rfl

/-- Row 1 of the folded scale. -/
theorem srow1_eq : W9 m ρ c (Proc.devRef .tc main_v87)
    = extractStridedSlice S1x128 ![1, 0] (scaleAll (m ((c : Thread nD τ).loc main_arg6)) (m ((c : Thread nD τ).loc main_arg9))) slices_S3x128_S1x128_1_0 := by
  show StableHlo.after (hostOps3 (F := Ideal)) (W8 m ρ c) (Proc.devRef .tc main_v87) = _
  after_results_simp
  rw [(W8_keep m ρ c main_v36 (by decide) (by decide)).trans (W6_keep m ρ c main_v36 (by decide) (by decide) (by decide)), scale_eq]

/-- Row 1 of the folded shift. -/
theorem trow1_eq : W9 m ρ c (Proc.devRef .tc main_v88)
    = extractStridedSlice S1x128 ![1, 0] (shiftAll (m ((c : Thread nD τ).loc main_arg6)) (m ((c : Thread nD τ).loc main_arg7)) (m ((c : Thread nD τ).loc main_arg8)) (m ((c : Thread nD τ).loc main_arg9))) slices_S3x128_S1x128_1_0 := by
  show StableHlo.after (hostOps3 (F := Ideal)) (W8 m ρ c) (Proc.devRef .tc main_v88) = _
  after_results_simp
  rw [(W8_keep m ρ c main_v38 (by decide) (by decide)).trans (W6_keep m ρ c main_v38 (by decide) (by decide) (by decide)), shift_eq]

/-- The third layer's weight matrix is the reference's. -/
theorem wc2_eq : W9 m ρ c (Proc.devRef .tc main_v90) = val_main_v128 (F := Ideal) (m ((c : Thread nD τ).loc main_arg4)) := by
  show StableHlo.after (hostOps3 (F := Ideal)) (W8 m ρ c) (Proc.devRef .tc main_v90) = _
  after_results_simp
  rw [(W8_keep m ρ c main_arg4 (by decide) (by decide)).trans (W6_keep m ρ c main_arg4 (by decide) (by decide) (by decide)), arg_at_entry m ρ c main_arg4 (by decide) (by decide) (by decide)]
  rfl

/-- The hidden state after layer 0 is still in place when region 3 reads it as the residual. -/
theorem hin1_eq
    (h1 : W8 m ρ c (Proc.devRef .tc main_v68_0) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :
    W9 m ρ c (Proc.devRef .tc main_v68_0) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (keep3 (W8 m ρ c) main_v68_0 (by decide)).trans h1

/-- Layer 1 at one entry: the folded affine map then relu, on the aggregate, is the reference's batch norm then
    relu. -/
theorem bn1_point (hR : BnReal m c) (A : S50000x128.Idx → EReal) (S T : S1x128.Idx → EReal)
    (hA : A = val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (hS : S = extractStridedSlice S1x128 ![1, 0] (scaleAll (m ((c : Thread nD τ).loc main_arg6)) (m ((c : Thread nD τ).loc main_arg9))) slices_S3x128_S1x128_1_0)
    (hT : T = extractStridedSlice S1x128 ![1, 0] (shiftAll (m ((c : Thread nD τ).loc main_arg6)) (m ((c : Thread nD τ).loc main_arg7)) (m ((c : Thread nD τ).loc main_arg8)) (m ((c : Thread nD τ).loc main_arg9))) slices_S3x128_S1x128_1_0)
    (r : Fin 50000) (k : Fin 128) :
    max (A (ix2 r k) * S (ix2 (0 : Fin 1) k) + T (ix2 (0 : Fin 1) k)) (0 : EReal)
      = val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 r k) := by
  subst hS hT
  rw [row1_apply, row1_apply,
    bn_entry _ _ _ _ _ (hR.gamma _) (hR.beta _) (hR.mean _) (hR.var _)]
  rw [val_main_v125_apply, val_main_v124_apply, val_main_v119_apply, val_main_v114_apply, val_main_v106_apply,
    val_main_v105_apply, val_main_v104_apply, val_main_v103_apply, val_main_v102_apply,
    val_main_v113_apply, val_main_v112_apply, val_main_v111_apply, val_main_v110_apply, val_main_v109_apply, val_main_v108_apply, val_main_v107_apply, val_main_cst_14_apply,
    val_main_v118_apply, val_main_v117_apply, val_main_v116_apply, val_main_v115_apply,
    val_main_v123_apply, val_main_v122_apply, val_main_v121_apply, val_main_v120_apply,
    val_main_call3_v0_apply, val_main_call3_cst_apply]
  rw [← hA]
  have e8 : idx_main_v102 (idx_main_v103 (idx_main_v104 (idx_main_v105 (ix2 r k)))) = ix2 (1 : Fin 3) k :=
    funext fun a => match a with | ⟨0, _⟩ => rfl | ⟨1, _⟩ => Fin.ext (Nat.mod_eq_of_lt k.isLt)
  have e9 : idx_main_v107 (idx_main_v108 (idx_main_v112 (idx_main_v113 (ix2 r k)))) = ix2 (1 : Fin 3) k :=
    funext fun a => match a with | ⟨0, _⟩ => rfl | ⟨1, _⟩ => Fin.ext (Nat.mod_eq_of_lt k.isLt)
  have e6 : idx_main_v115 (idx_main_v116 (idx_main_v117 (idx_main_v118 (ix2 r k)))) = ix2 (1 : Fin 3) k :=
    funext fun a => match a with | ⟨0, _⟩ => rfl | ⟨1, _⟩ => Fin.ext (Nat.mod_eq_of_lt k.isLt)
  have e7 : idx_main_v120 (idx_main_v121 (idx_main_v122 (idx_main_v123 (ix2 r k)))) = ix2 (1 : Fin 3) k :=
    funext fun a => match a with | ⟨0, _⟩ => rfl | ⟨1, _⟩ => Fin.ext (Nat.mod_eq_of_lt k.isLt)
  simp only [e8, e9, e6, e7, Ideal.maximumf_def, Ideal.addf_def, Ideal.mulf_def, Ideal.subf_def,
    Ideal.hostUnary_rsqrt_def, Ideal.ofBits_def, Ideal.ofBits_zero_f32]

/-- Layer 1 with its residual at one entry. -/
theorem res1_point (hR : BnReal m c) (A : S50000x128.Idx → EReal) (S T : S1x128.Idx → EReal) (H : S50000x128.Idx → EReal)
    (hA : A = val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (hS : S = extractStridedSlice S1x128 ![1, 0] (scaleAll (m ((c : Thread nD τ).loc main_arg6)) (m ((c : Thread nD τ).loc main_arg9))) slices_S3x128_S1x128_1_0)
    (hT : T = extractStridedSlice S1x128 ![1, 0] (shiftAll (m ((c : Thread nD τ).loc main_arg6)) (m ((c : Thread nD τ).loc main_arg7)) (m ((c : Thread nD τ).loc main_arg8)) (m ((c : Thread nD τ).loc main_arg9))) slices_S3x128_S1x128_1_0)
    (hH : H = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (r : Fin 50000) (k : Fin 128) :
    max (A (ix2 r k) * S (ix2 (0 : Fin 1) k) + T (ix2 (0 : Fin 1) k)) (0 : EReal) + H (ix2 r k)
      = val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 r k) := by
  rw [bn1_point m c hR A S T hA hS hT r k, hH, val_main_v126_apply, Ideal.addf_def]

/-- Region 3's first output array is the reference's hidden state after layer 1. -/
theorem h2_eq (hR : BnReal m c)
    (h1 : W8 m ρ c (Proc.devRef .tc main_v68_0) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (hw1 : W8 m ρ c (Proc.devRef .tc main_v68_1) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) : W10 m ρ c (Proc.devRef .tc main_v91_0)
    = val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [show W10 m ρ c (Proc.devRef .tc main_v91_0) = (dat3 (V9 m ρ) c).arrAt 5 cfg3.N from W10_arr m ρ c 5]
  funext i
  obtain ⟨r, q, rfl⟩ : ∃ (r : Fin 50000) (q : Fin 128), i = ix2 r q := ⟨i 0, i 1, eq_ix2 i⟩
  rw [Region3.h_apply (V9 m ρ) c _ _ _ _ (agg1_eq m ρ c hw1) (srow1_eq m ρ c) (trow1_eq m ρ c) (hin1_eq m ρ c h1) r q]
  exact res1_point m c hR _ _ _ _ rfl rfl rfl rfl r q

/-- Region 3's second output array is the reference's projection for layer 2. -/
theorem hw2_eq (hR : BnReal m c)
    (h1 : W8 m ρ c (Proc.devRef .tc main_v68_0) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (hw1 : W8 m ρ c (Proc.devRef .tc main_v68_1) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) : W10 m ρ c (Proc.devRef .tc main_v91_1)
    = val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [show W10 m ρ c (Proc.devRef .tc main_v91_1) = (dat3 (V9 m ρ) c).arrAt 6 cfg3.N from W10_arr m ρ c 6]
  funext i
  obtain ⟨r, q, rfl⟩ : ∃ (r : Fin 50000) (q : Fin 128), i = ix2 r q := ⟨i 0, i 1, eq_ix2 i⟩
  rw [Region3.hw_apply (V9 m ρ) c _ _ _ _ _ (agg1_eq m ρ c hw1) (srow1_eq m ρ c) (trow1_eq m ρ c) (hin1_eq m ρ c h1)
    (wc2_eq m ρ c) r q]
  rw [val_main_v129_apply]
  have e1 : ∀ k : Fin 128, lidx_main_v129 (ix2 r q) k = ix2 r k :=
    fun k => funext fun a => match a with | ⟨0, _⟩ => rfl | ⟨1, _⟩ => rfl
  have e2 : ∀ k : Fin 128, ridx_main_v129 (ix2 r q) k = ix2 k q :=
    fun k => funext fun a => match a with | ⟨0, _⟩ => rfl | ⟨1, _⟩ => rfl
  simp only [e1, e2, res1_point m c hR _ _ _ _ rfl rfl rfl rfl r]

end Cert.KernelIdeal.Hand

end
-- ==== Proof.Region4.lean ====
/-
  Region 4 of the ideal kernel: the last normalisation with its residual, then a two-layer perceptron, row by row.
  With hh r k = max (A r k * S 0 k + T 0 k) 0 + HIN r k  and  hid r j = max ((∑ k, hh r k * W1 k j) + B1 0 j) 0,
  row r of the [50000,1] output array is  (∑ j, hid r j * W2 j 0) + B2 0 0;  the 25 grid points each write 2000 rows.
-/
import proofs.«135840_j20212116095605_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region4

open Cert.KernelIdeal Cert.KernelIdeal.Gen Idealize.ShloMosaic Idealize.ShloMosaic.TcCoe Idealize.SL.Sem
open Idealize.ShloMosaic.Pipeline (Dat)
open Idealize.ShloMosaic.ValueIdx

/-- The normalised, rectified row with its residual added: entry (r, k). -/
def hh (A : S50000x128.Idx → EReal) (S T : S1x128.Idx → EReal) (HIN : S50000x128.Idx → EReal) (r : Fin 50000) (k : Fin 128) : EReal :=
  max (A (ix2 r k) * S (ix2 (0 : Fin 1) k) + T (ix2 (0 : Fin 1) k)) (0 : EReal) + HIN (ix2 r k)

/-- The hidden layer: entry (r, j). -/
def hid (A : S50000x128.Idx → EReal) (S T : S1x128.Idx → EReal) (HIN : S50000x128.Idx → EReal)
    (W1 : S128x64.Idx → EReal) (B1 : S1x64.Idx → EReal) (r : Fin 50000) (j : Fin 64) : EReal :=
  max ((∑ k : Fin 128, hh A S T HIN r k * W1 (ix2 k j)) + B1 (ix2 (0 : Fin 1) j)) (0 : EReal)

/-- The head on whole arrays: entry (r, z) of the [50000,1] result. -/
def head (A : S50000x128.Idx → EReal) (S T : S1x128.Idx → EReal) (HIN : S50000x128.Idx → EReal)
    (W1 : S128x64.Idx → EReal) (B1 : S1x64.Idx → EReal) (W2 : S64x1.Idx → EReal) (B2 : S1x1.Idx → EReal) : S50000x1.Idx → EReal :=
  fun i => (∑ j : Fin 64, hid A S T HIN W1 B1 (i 0) j * W2 (ix2 j (i 1))) + B2 (ix2 (0 : Fin 1) (i 1))

theorem head_apply (A : S50000x128.Idx → EReal) (S T : S1x128.Idx → EReal) (HIN : S50000x128.Idx → EReal)
    (W1 : S128x64.Idx → EReal) (B1 : S1x64.Idx → EReal) (W2 : S64x1.Idx → EReal) (B2 : S1x1.Idx → EReal) (r : Fin 50000) (z : Fin 1) :
    head A S T HIN W1 B1 W2 B2 (ix2 r z)
      = (∑ j : Fin 64, hid A S T HIN W1 B1 r j * W2 (ix2 j z)) + B2 (ix2 (0 : Fin 1) z) := rfl

/-! ## The two products at an index: the operand indices at output index j and contraction position k are (j 0, k)
    on the left and (k, j 1) on the right. -/

theorem lhs1_coord0 (j : S2000x64.Idx) (k : dot_S2000x128_S128x64_S2000x64_1_0_0_1_n_n.contr.Idx) :
    (dot_S2000x128_S128x64_S2000x64_1_0_0_1_n_n.lhsIdx j k 0).val = (j 0).val := by
  unfold DotDims.lhsIdx
  rw [dif_neg (show ¬(0 : Fin S2000x128.rank) ∈ dot_S2000x128_S128x64_S2000x64_1_0_0_1_n_n.lhsBatch by decide),
    dif_pos (show (0 : Fin S2000x128.rank) ∈ dot_S2000x128_S128x64_S2000x64_1_0_0_1_n_n.lhsNonContracting by decide)]
  rfl
theorem lhs1_coord1 (j : S2000x64.Idx) (k : dot_S2000x128_S128x64_S2000x64_1_0_0_1_n_n.contr.Idx) :
    (dot_S2000x128_S128x64_S2000x64_1_0_0_1_n_n.lhsIdx j k 1).val = (k ⟨0, by decide⟩).val :=
  dot_S2000x128_S128x64_S2000x64_1_0_0_1_n_n.lhsIdx_val_of_single rfl j k
theorem rhs1_coord0 (j : S2000x64.Idx) (k : dot_S2000x128_S128x64_S2000x64_1_0_0_1_n_n.contr.Idx) :
    (dot_S2000x128_S128x64_S2000x64_1_0_0_1_n_n.rhsIdx j k 0).val = (k ⟨0, by decide⟩).val :=
  dot_S2000x128_S128x64_S2000x64_1_0_0_1_n_n.rhsIdx_val_of_single rfl j k
theorem rhs1_coord1 (j : S2000x64.Idx) (k : dot_S2000x128_S128x64_S2000x64_1_0_0_1_n_n.contr.Idx) :
    (dot_S2000x128_S128x64_S2000x64_1_0_0_1_n_n.rhsIdx j k 1).val = (j 1).val := by
  unfold DotDims.rhsIdx
  rw [dif_neg (show ¬(1 : Fin S128x64.rank) ∈ dot_S2000x128_S128x64_S2000x64_1_0_0_1_n_n.rhsBatch by decide),
    dif_pos (show (1 : Fin S128x64.rank) ∈ dot_S2000x128_S128x64_S2000x64_1_0_0_1_n_n.rhsNonContracting by decide)]
  rfl

/-- This product into the zero accumulator, at row p and column q: the sum over the 128 contraction positions. -/
theorem matmul1_apply (x : FVec Ideal S2000x128 .bf16) (w : FVec Ideal S128x64 .bf16) (p : Fin 2000) (q : Fin 64) :
    FloatOps.matmul dot_S2000x128_S128x64_S2000x64_1_0_0_1_n_n none x w
      (constant (F := Ideal) S2000x64 .f32 0x00000000#32) (ix2 p q) = ∑ k : Fin 128, x (ix2 p k) * w (ix2 k q) := by
  rw [Ideal.matmul_constant_zero_apply,
    ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q)
      ((contrEquiv1 dot_S2000x128_S128x64_S2000x64_1_0_0_1_n_n 128 rfl rfl).symm k) = ix2 p k :=
    funext fun a => Fin.ext (by
      match a with
      | ⟨0, _⟩ => exact lhs1_coord0 _ _
      | ⟨1, _⟩ => exact (lhs1_coord1 _ _).trans hk)
  have er : dot_S2000x128_S128x64_S2000x64_1_0_0_1_n_n.rhsIdx (ix2 p q)
      ((contrEquiv1 dot_S2000x128_S128x64_S2000x64_1_0_0_1_n_n 128 rfl rfl).symm k) = ix2 k q :=
    funext fun a => Fin.ext (by
      match a with
      | ⟨0, _⟩ => exact (rhs1_coord0 _ _).trans hk
      | ⟨1, _⟩ => exact rhs1_coord1 _ _)
  rw [el, er]

theorem lhs2_coord0 (j : S2000x1.Idx) (k : dot_S2000x64_S64x1_S2000x1_1_0_0_1_n_n.contr.Idx) :
    (dot_S2000x64_S64x1_S2000x1_1_0_0_1_n_n.lhsIdx j k 0).val = (j 0).val := by
  unfold DotDims.lhsIdx
  rw [dif_neg (show ¬(0 : Fin S2000x64.rank) ∈ dot_S2000x64_S64x1_S2000x1_1_0_0_1_n_n.lhsBatch by decide),
    dif_pos (show (0 : Fin S2000x64.rank) ∈ dot_S2000x64_S64x1_S2000x1_1_0_0_1_n_n.lhsNonContracting by decide)]
  rfl
theorem lhs2_coord1 (j : S2000x1.Idx) (k : dot_S2000x64_S64x1_S2000x1_1_0_0_1_n_n.contr.Idx) :
    (dot_S2000x64_S64x1_S2000x1_1_0_0_1_n_n.lhsIdx j k 1).val = (k ⟨0, by decide⟩).val :=
  dot_S2000x64_S64x1_S2000x1_1_0_0_1_n_n.lhsIdx_val_of_single rfl j k
theorem rhs2_coord0 (j : S2000x1.Idx) (k : dot_S2000x64_S64x1_S2000x1_1_0_0_1_n_n.contr.Idx) :
    (dot_S2000x64_S64x1_S2000x1_1_0_0_1_n_n.rhsIdx j k 0).val = (k ⟨0, by decide⟩).val :=
  dot_S2000x64_S64x1_S2000x1_1_0_0_1_n_n.rhsIdx_val_of_single rfl j k
theorem rhs2_coord1 (j : S2000x1.Idx) (k : dot_S2000x64_S64x1_S2000x1_1_0_0_1_n_n.contr.Idx) :
    (dot_S2000x64_S64x1_S2000x1_1_0_0_1_n_n.rhsIdx j k 1).val = (j 1).val := by
  unfold DotDims.rhsIdx
  rw [dif_neg (show ¬(1 : Fin S64x1.rank) ∈ dot_S2000x64_S64x1_S2000x1_1_0_0_1_n_n.rhsBatch by decide),
    dif_pos (show (1 : Fin S64x1.rank) ∈ dot_S2000x64_S64x1_S2000x1_1_0_0_1_n_n.rhsNonContracting by decide)]
  rfl

/-- This product into the zero accumulator, at row p and column q: the sum over the 64 contraction positions. -/
theorem matmul2_apply (x : FVec Ideal S2000x64 .bf16) (w : FVec Ideal S64x1 .bf16) (p : Fin 2000) (q : Fin 1) :
    FloatOps.matmul dot_S2000x64_S64x1_S2000x1_1_0_0_1_n_n none x w
      (constant (F := Ideal) S2000x1 .f32 0x00000000#32) (ix2 p q) = ∑ k : Fin 64, x (ix2 p k) * w (ix2 k q) := by
  rw [Ideal.matmul_constant_zero_apply,
    ← Equiv.sum_comp (contrEquiv1 dot_S2000x64_S64x1_S2000x1_1_0_0_1_n_n 64 rfl rfl).symm]
  refine Finset.sum_congr rfl fun k _ => ?_
  have hk := contrEquiv1_symm_val dot_S2000x64_S64x1_S2000x1_1_0_0_1_n_n 64 rfl rfl k
  have el : dot_S2000x64_S64x1_S2000x1_1_0_0_1_n_n.lhsIdx (ix2 p q)
      ((contrEquiv1 dot_S2000x64_S64x1_S2000x1_1_0_0_1_n_n 64 rfl rfl).symm k) = ix2 p k :=
    funext fun a => Fin.ext (by
      match a with
      | ⟨0, _⟩ => exact lhs2_coord0 _ _
      | ⟨1, _⟩ => exact (lhs2_coord1 _ _).trans hk)
  have er : dot_S2000x64_S64x1_S2000x1_1_0_0_1_n_n.rhsIdx (ix2 p q)
      ((contrEquiv1 dot_S2000x64_S64x1_S2000x1_1_0_0_1_n_n 64 rfl rfl).symm k) = ix2 k q :=
    funext fun a => Fin.ext (by
      match a with
      | ⟨0, _⟩ => exact (rhs2_coord0 _ _).trans hk
      | ⟨1, _⟩ => exact rhs2_coord1 _ _)
  rw [el, er]

/-- The body's result on the blocks, at row p of the block. -/
theorem payload_apply (a : Vec Ideal S2000x128 .f32) (s t : Vec Ideal S1x128 .f32) (hin : Vec Ideal S2000x128 .f32)
    (w1 : Vec Ideal S128x64 .f32) (b1 : Vec Ideal S1x64 .f32) (w2 : Vec Ideal S64x1 .f32) (b2 : Vec Ideal S1x1 .f32)
    (p : Fin 2000) (z : Fin 1) :
    k4_pay1 (F := Ideal) a s t hin w1 b1 w2 b2 (ix2 p z)
      = (∑ j : Fin 64, max ((∑ k : Fin 128,
            (max (a (ix2 p k) * s (ix2 (0 : Fin 1) k) + t (ix2 (0 : Fin 1) k)) (0 : EReal) + hin (ix2 p k)) * w1 (ix2 k j))
          + b1 (ix2 (0 : Fin 1) j)) (0 : EReal) * w2 (ix2 j z)) + b2 (ix2 (0 : Fin 1) z) := by
  unfold k4_pay1
  simp only [shapeCast_self]
  rw [addf_apply, broadcastTo_1b_ab_apply]
  show FloatOps.matmul dot_S2000x64_S64x1_S2000x1_1_0_0_1_n_n none _ _ (constant (F := Ideal) S2000x1 .f32 0x00000000#32) (ix2 p z) + _ = _
  rw [matmul2_apply]
  refine congrArg (· + b2 (ix2 (0 : Fin 1) z)) (Finset.sum_congr rfl fun j _ => ?_)
  refine congrArg (· * w2 (ix2 j z)) ?_
  show max (FloatOps.matmul dot_S2000x128_S128x64_S2000x64_1_0_0_1_n_n none _ _ (constant (F := Ideal) S2000x64 .f32 0x00000000#32) (ix2 p j)
      + broadcastTo S2000x64 b1 broadcasts_S1x64_S2000x64 (ix2 p j)) (Ideal.ofBits .f32 0x00000000#32) = _
  rw [matmul1_apply, broadcastTo_1b_ab_apply, Ideal.ofBits_zero_f32]
  refine congrArg (fun u => max (u + b1 (ix2 (0 : Fin 1) j)) (0 : EReal)) (Finset.sum_congr rfl fun k _ => ?_)
  refine congrArg (· * w1 (ix2 k j)) ?_
  show max (a (ix2 p k) * broadcastTo S2000x128 s broadcasts_S1x128_S2000x128 (ix2 p k)
      + broadcastTo S2000x128 t broadcasts_S1x128_S2000x128 (ix2 p k)) (Ideal.ofBits .f32 0x00000000#32) + hin (ix2 p k) = _
  rw [broadcastTo_1b_ab_apply, broadcastTo_1b_ab_apply, Ideal.ofBits_zero_f32]

/-- The body's result at row p of a block is the head at the index i of the arrays, when the blocks read row i 0 of
    the row-blocked arrays and the whole-array windows read their arrays. -/
theorem payload_eq_head (A : S50000x128.Idx → EReal) (S T : S1x128.Idx → EReal) (HIN : S50000x128.Idx → EReal)
    (W1 : S128x64.Idx → EReal) (B1 : S1x64.Idx → EReal) (W2 : S64x1.Idx → EReal) (B2 : S1x1.Idx → EReal)
    (a : Vec Ideal S2000x128 .f32) (s t : Vec Ideal S1x128 .f32) (hin : Vec Ideal S2000x128 .f32)
    (w1 : Vec Ideal S128x64 .f32) (b1 : Vec Ideal S1x64 .f32) (w2 : Vec Ideal S64x1 .f32) (b2 : Vec Ideal S1x1 .f32)
    (i : S50000x1.Idx) (p : Fin 2000) (z : Fin 1)
    (ha : ∀ k : Fin 128, a (ix2 p k) = A (ix2 (i 0) k))
    (hs : ∀ k : Fin 128, s (ix2 (0 : Fin 1) k) = S (ix2 (0 : Fin 1) k))
    (ht : ∀ k : Fin 128, t (ix2 (0 : Fin 1) k) = T (ix2 (0 : Fin 1) k))
    (hhin : ∀ k : Fin 128, hin (ix2 p k) = HIN (ix2 (i 0) k))
    (hw1 : ∀ (k : Fin 128) (j : Fin 64), w1 (ix2 k j) = W1 (ix2 k j))
    (hb1 : ∀ j : Fin 64, b1 (ix2 (0 : Fin 1) j) = B1 (ix2 (0 : Fin 1) j))
    (hw2 : ∀ j : Fin 64, w2 (ix2 j z) = W2 (ix2 j (i 1)))
    (hb2 : b2 (ix2 (0 : Fin 1) z) = B2 (ix2 (0 : Fin 1) (i 1))) :
    k4_pay1 (F := Ideal) a s t hin w1 b1 w2 b2 (ix2 p z) = head A S T HIN W1 B1 W2 B2 i := by
  rw [payload_apply]
  unfold head hid hh
  simp only [ha, hs, ht, hhin, hw1, hb1, hw2, hb2]

/-! ## From blocks to the array -/

theorem zero_offsets : (![0, 0] : Fin 2 → Nat) = fun _ => 0 := funext fun a => by fin_cases a <;> rfl

/-- The index maps, decided over the 25 grid points: the two row-blocked inputs and the output rows move with the
    point, every other window stays at block (0, 0). -/
theorem index_maps : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = t.val ∧ win4_8.index t (1 : Fin 2) = 0 :=
  (by decide +kernel : ∀ t : Fin grid4.N, _)

section
variable (V : (c : Dev nD) → (b : Ref sig .tc) → Buf (Elt Ideal) ((c : Thread nD τ).loc b)) (c : Dev nD)

/-- Row p of the first input's block at point t is row 2000 t + p of its array. -/
theorem a_block_apply (t : Fin cfg4.N) (p : Fin 2000) (k : Fin 128) (r : Fin 50000) (hr : r.val = t.val * 2000 + p.val) :
    (iblk4 V c 0 t : S2000x128.Idx → EReal) (ix2 p k) = (V c (Pipeline.arrRef spec4 0) : S50000x128.Idx → EReal) (ix2 r k) := by
  obtain ⟨e0, e1, -, -, -, -, -, -, -, -, -, -, -, -, -, -, -, -⟩ := index_maps t
  show (V c (Pipeline.arrRef spec4 0) : S50000x128.Idx → EReal) (((cfg4.win 0).blk t).view.emb (ix2 p k)) = _
  refine congrArg _ (funext fun a => Fin.ext ?_)
  match a with
  | ⟨0, _⟩ => show win4_0.index t (0 : Fin 2) * 2000 + 1 * p.val = r.val; omega
  | ⟨1, _⟩ => show win4_0.index t (1 : Fin 2) * 128 + 1 * k.val = k.val; omega

/-- Row p of the residual input's block at point t is row 2000 t + p of its array. -/
theorem hin_block_apply (t : Fin cfg4.N) (p : Fin 2000) (k : Fin 128) (r : Fin 50000) (hr : r.val = t.val * 2000 + p.val) :
    (iblk4 V c 3 t : S2000x128.Idx → EReal) (ix2 p k) = (V c (Pipeline.arrRef spec4 3) : S50000x128.Idx → EReal) (ix2 r k) := by
  obtain ⟨-, -, -, -, -, -, e0, e1, -, -, -, -, -, -, -, -, -, -⟩ := index_maps t
  show (V c (Pipeline.arrRef spec4 3) : S50000x128.Idx → EReal) (((cfg4.win 3).blk t).view.emb (ix2 p k)) = _
  refine congrArg _ (funext fun a => Fin.ext ?_)
  match a with
  | ⟨0, _⟩ => show win4_3.index t (0 : Fin 2) * 2000 + 1 * p.val = r.val; omega
  | ⟨1, _⟩ => show win4_3.index t (1 : Fin 2) * 128 + 1 * k.val = k.val; omega

/-- The scale's block at every point is its array. -/
theorem s_block_apply (t : Fin cfg4.N) (z : Fin 1) (k : Fin 128) :
    (iblk4 V c 1 t : S1x128.Idx → EReal) (ix2 z k) = (V c (Pipeline.arrRef spec4 1) : S1x128.Idx → EReal) (ix2 z k) := by
  obtain ⟨-, -, e0, e1, -, -, -, -, -, -, -, -, -, -, -, -, -, -⟩ := index_maps t
  show (V c (Pipeline.arrRef spec4 1) : S1x128.Idx → EReal) (((cfg4.win 1).blk t).view.emb (ix2 z k)) = _
  refine congrArg _ (funext fun a => Fin.ext ?_)
  match a with
  | ⟨0, _⟩ => show win4_1.index t (0 : Fin 2) * 1 + 1 * z.val = z.val; omega
  | ⟨1, _⟩ => show win4_1.index t (1 : Fin 2) * 128 + 1 * k.val = k.val; omega

/-- The shift's block at every point is its array. -/
theorem t_block_apply (t : Fin cfg4.N) (z : Fin 1) (k : Fin 128) :
    (iblk4 V c 2 t : S1x128.Idx → EReal) (ix2 z k) = (V c (Pipeline.arrRef spec4 2) : S1x128.Idx → EReal) (ix2 z k) := by
  obtain ⟨-, -, -, -, e0, e1, -, -, -, -, -, -, -, -, -, -, -, -⟩ := index_maps t
  show (V c (Pipeline.arrRef spec4 2) : S1x128.Idx → EReal) (((cfg4.win 2).blk t).view.emb (ix2 z k)) = _
  refine congrArg _ (funext fun a => Fin.ext ?_)
  match a with
  | ⟨0, _⟩ => show win4_2.index t (0 : Fin 2) * 1 + 1 * z.val = z.val; omega
  | ⟨1, _⟩ => show win4_2.index t (1 : Fin 2) * 128 + 1 * k.val = k.val; omega

/-- The first weight's block at every point is its array. -/
theorem w1_block_apply (t : Fin cfg4.N) (k : Fin 128) (j : Fin 64) :
    (iblk4 V c 4 t : S128x64.Idx → EReal) (ix2 k j) = (V c (Pipeline.arrRef spec4 4) : S128x64.Idx → EReal) (ix2 k j) := by
  obtain ⟨-, -, -, -, -, -, -, -, e0, e1, -, -, -, -, -, -, -, -⟩ := index_maps t
  show (V c (Pipeline.arrRef spec4 4) : S128x64.Idx → EReal) (((cfg4.win 4).blk t).view.emb (ix2 k j)) = _
  refine congrArg _ (funext fun a => Fin.ext ?_)
  match a with
  | ⟨0, _⟩ => show win4_4.index t (0 : Fin 2) * 128 + 1 * k.val = k.val; omega
  | ⟨1, _⟩ => show win4_4.index t (1 : Fin 2) * 64 + 1 * j.val = j.val; omega

/-- The first bias's block at every point is its array. -/
theorem b1_block_apply (t : Fin cfg4.N) (z : Fin 1) (j : Fin 64) :
    (iblk4 V c 5 t : S1x64.Idx → EReal) (ix2 z j) = (V c (Pipeline.arrRef spec4 5) : S1x64.Idx → EReal) (ix2 z j) := by
  obtain ⟨-, -, -, -, -, -, -, -, -, -, e0, e1, -, -, -, -, -, -⟩ := index_maps t
  show (V c (Pipeline.arrRef spec4 5) : S1x64.Idx → EReal) (((cfg4.win 5).blk t).view.emb (ix2 z j)) = _
  refine congrArg _ (funext fun a => Fin.ext ?_)
  match a with
  | ⟨0, _⟩ => show win4_5.index t (0 : Fin 2) * 1 + 1 * z.val = z.val; omega
  | ⟨1, _⟩ => show win4_5.index t (1 : Fin 2) * 64 + 1 * j.val = j.val; omega

/-- The second weight's block at every point is its array. -/
theorem w2_block_apply (t : Fin cfg4.N) (j : Fin 64) (z z' : Fin 1) :
    (iblk4 V c 6 t : S64x1.Idx → EReal) (ix2 j z) = (V c (Pipeline.arrRef spec4 6) : S64x1.Idx → EReal) (ix2 j z') := by
  obtain rfl : z = z' := Subsingleton.elim _ _
  obtain ⟨-, -, -, -, -, -, -, -, -, -, -, -, e0, e1, -, -, -, -⟩ := index_maps t
  show (V c (Pipeline.arrRef spec4 6) : S64x1.Idx → EReal) (((cfg4.win 6).blk t).view.emb (ix2 j z)) = _
  refine congrArg _ (funext fun a => Fin.ext ?_)
  match a with
  | ⟨0, _⟩ => show win4_6.index t (0 : Fin 2) * 64 + 1 * j.val = j.val; omega
  | ⟨1, _⟩ => show win4_6.index t (1 : Fin 2) * 1 + 1 * z.val = z.val; omega

/-- The second bias's block at every point is its array. -/
theorem b2_block_apply (t : Fin cfg4.N) (y : Fin 1) (z z' : Fin 1) :
    (iblk4 V c 7 t : S1x1.Idx → EReal) (ix2 y z) = (V c (Pipeline.arrRef spec4 7) : S1x1.Idx → EReal) (ix2 y z') := by
  obtain rfl : z = z' := Subsingleton.elim _ _
  obtain ⟨-, -, -, -, -, -, -, -, -, -, -, -, -, -, e0, e1, -, -⟩ := index_maps t
  show (V c (Pipeline.arrRef spec4 7) : S1x1.Idx → EReal) (((cfg4.win 7).blk t).view.emb (ix2 y z)) = _
  refine congrArg _ (funext fun a => Fin.ext ?_)
  match a with
  | ⟨0, _⟩ => show win4_7.index t (0 : Fin 2) * 1 + 1 * y.val = y.val; omega
  | ⟨1, _⟩ => show win4_7.index t (1 : Fin 2) * 1 + 1 * z.val = z.val; omega

/-- What point t writes back is block t of the head of the eight input arrays. -/
theorem flushed_eq (t : Fin cfg4.N) :
    (dat4 V c).flushed 8 t = ((cfg4.win 8).blk t).view.read (Elt Ideal)
      (head (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5))
        (V c (Pipeline.arrRef spec4 6)) (V c (Pipeline.arrRef spec4 7))) := by
  show (cfg4.win 8).cut (grid4.coords t) ((dat4 V c).after 8 t) = _
  rw [after4_8]
  unfold out4_8
  rw [View.canon_unit_zero zero_offsets]
  simp only [View.ld_unit_zero (S := S2000x128) zero_offsets, View.ld_unit_zero (S := S1x128) zero_offsets,
    View.ld_unit_zero (S := S128x64) zero_offsets, View.ld_unit_zero (S := S1x64) zero_offsets,
    View.ld_unit_zero (S := S64x1) zero_offsets, View.ld_unit_zero (S := S1x1) zero_offsets]
  obtain ⟨-, -, -, -, -, -, -, -, -, -, -, -, -, -, -, -, e0, e1⟩ := index_maps t
  funext y
  obtain ⟨p, z, rfl⟩ : ∃ (p : Fin 2000) (z : Fin 1), y = ix2 p z := ⟨y 0, y 1, eq_ix2 y⟩
  show k4_pay1 (F := Ideal) (iblk4 V c 0 t) (iblk4 V c 1 t) (iblk4 V c 2 t) (iblk4 V c 3 t) (iblk4 V c 4 t)
      (iblk4 V c 5 t) (iblk4 V c 6 t) (iblk4 V c 7 t) (ix2 p z)
    = head (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5))
        (V c (Pipeline.arrRef spec4 6)) (V c (Pipeline.arrRef spec4 7)) (((cfg4.win 8).blk t).view.emb (ix2 p z))
  have h0 : ((((cfg4.win 8).blk t).view.emb (ix2 p z)) 0).val = t.val * 2000 + p.val := by
    show win4_8.index t (0 : Fin 2) * 2000 + 1 * p.val = _; omega
  exact payload_eq_head (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7))
    (iblk4 V c 0 t) (iblk4 V c 1 t) (iblk4 V c 2 t) (iblk4 V c 3 t) (iblk4 V c 4 t) (iblk4 V c 5 t) (iblk4 V c 6 t) (iblk4 V c 7 t)
    (((cfg4.win 8).blk t).view.emb (ix2 p z)) p z
    (fun k => a_block_apply V c t p k _ h0) (fun k => s_block_apply V c t 0 k) (fun k => t_block_apply V c t 0 k)
    (fun k => hin_block_apply V c t p k _ h0) (fun k j => w1_block_apply V c t k j) (fun j => b1_block_apply V c t 0 j)
    (fun j => w2_block_apply V c t j z _) (b2_block_apply V c t 0 z _)

/-- Row r of the output array lies in the block of point r / 2000. -/
theorem cover (i : S50000x1.Idx) :
    ∃ t : Fin cfg4.N, (cfg4.win 8).flush t = true ∧ i ∈ ((cfg4.win 8).blk t).view.set := by
  have hi0 : (i 0).val < 50000 := idx2_lt0 i
  have hi1 : (i 1).val < 1 := idx2_lt1 i
  have hN : cfg4.N = 25 := N_4
  let t : Fin cfg4.N := ⟨(i 0).val / 2000, by rw [hN]; omega⟩
  obtain ⟨-, -, -, -, -, -, -, -, -, -, -, -, -, -, -, -, e0, e1⟩ := index_maps t
  have ht : t.val = (i 0).val / 2000 := rfl
  refine ⟨t, flush4_8 t, ?_⟩
  show i ∈ ((View.whole main_v112).slice (win4_8.rect t)).set
  rw [View.set_slice_whole, Rect.mem_set_unit]
  intro a
  match a with
  | ⟨0, _⟩ =>
    show win4_8.index t (0 : Fin 2) * 2000 ≤ (i 0).val ∧ (i 0).val < win4_8.index t (0 : Fin 2) * 2000 + 2000
    omega
  | ⟨1, _⟩ =>
    show win4_8.index t (1 : Fin 2) * 1 ≤ (i 1).val ∧ (i 1).val < win4_8.index t (1 : Fin 2) * 1 + 1
    omega

/-- The output array after the region is the head of the eight input arrays. -/
theorem arrAt_eq :
    (dat4 V c).arrAt 8 cfg4.N
      = head (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5))
        (V c (Pipeline.arrRef spec4 6)) (V c (Pipeline.arrRef spec4 7)) :=
  (dat4 V c).arrAt_eq_of_cover 8 _ (fun t _ => flushed_eq V c t) (cover)

/-- Row r of the output array after the region, for A, S, T, HIN, W1, B1, W2, B2 the eight input arrays as the region
    finds them: (∑ j, hid r j * W2 j 0) + B2 0 0. -/
theorem arrAt_apply (A : S50000x128.Idx → EReal) (S T : S1x128.Idx → EReal) (HIN : S50000x128.Idx → EReal)
    (W1 : S128x64.Idx → EReal) (B1 : S1x64.Idx → EReal) (W2 : S64x1.Idx → EReal) (B2 : S1x1.Idx → EReal)
    (hA : V c (Pipeline.arrRef spec4 0) = A) (hS : V c (Pipeline.arrRef spec4 1) = S) (hT : V c (Pipeline.arrRef spec4 2) = T)
    (hHIN : V c (Pipeline.arrRef spec4 3) = HIN) (hW1 : V c (Pipeline.arrRef spec4 4) = W1) (hB1 : V c (Pipeline.arrRef spec4 5) = B1)
    (hW2 : V c (Pipeline.arrRef spec4 6) = W2) (hB2 : V c (Pipeline.arrRef spec4 7) = B2) (r : Fin 50000) :
    (dat4 (F := Ideal) V c).arrAt 8 cfg4.N (ix2 r (0 : Fin 1))
      = (∑ j : Fin 64, hid A S T HIN W1 B1 r j * W2 (ix2 j (0 : Fin 1))) + B2 (ix2 (0 : Fin 1) (0 : Fin 1)) := by
  subst hA hS hT hHIN hW1 hB1 hW2 hB2
  rw [arrAt_eq V c]
  rfl

end

end Cert.KernelIdeal.Region4

end
-- ==== Proof.Tail.lean ====
/-
  The reference's read-out head, read at a row: after the last residual stage H (a [50000,128] array), the reference
  computes  max (H · W1 + B1) 0 · W2 + B2  with W1 [128,64], B1 [64], W2 [64,1], B2 [1]; at the extended reals row r of
  the [50000,1] result is  (∑ j, max ((∑ k, H r k * W1 k j) + B1 j) 0 * W2 j 0) + B2 0.
-/
import proofs.«135840_j20212116095605_2_alg».proof.Proof.ReadP

noncomputable section

open scoped BigOperators

namespace Cert.KernelIdeal.Tail

open Cert.ReferenceIdeal Cert.ReferenceIdeal.Read Idealize.ShloMosaic
open Idealize.ShloMosaic.ValueIdx

/-! ## The operand indices of the two products and of the two broadcast biases, by coordinates -/

theorem lhs_index_second (r : Fin 50000) (z : Fin 1) (j : Fin 64) : lidx_main_v177 (ix2 r z) j = ix2 r j :=
  funext fun a => match a with | ⟨0, _⟩ => rfl | ⟨1, _⟩ => rfl
theorem rhs_index_second (r : Fin 50000) (z : Fin 1) (j : Fin 64) : ridx_main_v177 (ix2 r z) j = ix2 j z :=
  funext fun a => match a with | ⟨0, _⟩ => rfl | ⟨1, _⟩ => rfl
theorem lhs_index_first (r : Fin 50000) (j : Fin 64) (k : Fin 128) : lidx_main_v172 (ix2 r j) k = ix2 r k :=
  funext fun a => match a with | ⟨0, _⟩ => rfl | ⟨1, _⟩ => rfl
theorem rhs_index_first (r : Fin 50000) (j : Fin 64) (k : Fin 128) : ridx_main_v172 (ix2 r j) k = ix2 k j :=
  funext fun a => match a with | ⟨0, _⟩ => rfl | ⟨1, _⟩ => rfl
theorem bias_index_first (r : Fin 50000) (j : Fin 64) : idx_main_v173 (idx_main_v174 (ix2 r j)) = ix1 j :=
  funext fun a => match a with | ⟨0, _⟩ => rfl
theorem bias_index_second (r : Fin 50000) (z : Fin 1) : idx_main_v178 (idx_main_v179 (ix2 r z)) = ix1 (0 : Fin 1) :=
  funext fun a => match a with | ⟨0, _⟩ => rfl

/-- Row r of the reference's read-out head, as sums over the hidden and the feature coordinates. -/
theorem head_apply (x0 : (⟨S50000x64, .f32⟩ : BufTy).Contents (Elt Ideal)) (x1 : (⟨S2x800000, .i32⟩ : BufTy).Contents (Elt Ideal))
    (x2 : (⟨S64x128, .f32⟩ : BufTy).Contents (Elt Ideal)) (x3 : (⟨S128, .f32⟩ : BufTy).Contents (Elt Ideal))
    (x4 : (⟨S3x128x128, .f32⟩ : BufTy).Contents (Elt Ideal)) (x5 x6 x7 x8 x9 : (⟨S3x128, .f32⟩ : BufTy).Contents (Elt Ideal))
    (x10 : (⟨S128x64, .f32⟩ : BufTy).Contents (Elt Ideal)) (x11 : (⟨S64, .f32⟩ : BufTy).Contents (Elt Ideal))
    (x12 : (⟨S64x1, .f32⟩ : BufTy).Contents (Elt Ideal)) (x13 : (⟨S1, .f32⟩ : BufTy).Contents (Elt Ideal))
    (H : S50000x128.Idx → EReal) (W1 : S128x64.Idx → EReal) (B1 : S64.Idx → EReal) (W2 : S64x1.Idx → EReal) (B2 : S1.Idx → EReal)
    (hH : H = val_main_v171 (F := Ideal) x0 x1 x2 x3 x4 x5 x6 x7 x8 x9)
    (hW1 : W1 = x10) (hB1 : B1 = x11) (hW2 : W2 = x12) (hB2 : B2 = x13) (r : Fin 50000) :
    (∑ j : Fin 64, max ((∑ k : Fin 128, H (ix2 r k) * W1 (ix2 k j)) + B1 (ix1 j)) (0 : EReal) * W2 (ix2 j (0 : Fin 1)))
        + B2 (ix1 (0 : Fin 1))
      = val_main_v180 (F := Ideal) x0 x1 x2 x3 x4 x5 x6 x7 x8 x9 x10 x11 x12 x13 (ix2 r (0 : Fin 1)) := by
  subst hW1 hB1 hW2 hB2
  rw [val_main_v180_apply, val_main_v177_apply, val_main_v179_apply, val_main_v178_apply, bias_index_second,
    Ideal.addf_def]
  refine congrArg (· + B2 (ix1 (0 : Fin 1))) (Finset.sum_congr rfl fun j _ => ?_)
  rw [lhs_index_second, rhs_index_second, val_main_v176_apply, val_main_v175_apply, val_main_v172_apply,
    val_main_v174_apply, val_main_v173_apply, bias_index_first, val_main_call5_v0_apply, val_main_call5_cst_apply,
    Ideal.maximumf_def, Ideal.addf_def, Ideal.ofBits_def, Ideal.ofBits_zero_f32, ← hH]
  refine congrArg (fun u => max (u + B1 (ix1 j)) (0 : EReal) * W2 (ix2 j (0 : Fin 1))) (Finset.sum_congr rfl fun k _ => ?_)
  rw [lhs_index_first, rhs_index_first]

end Cert.KernelIdeal.Tail

end
-- ==== Proof.Stage3.lean ====
/-
  The third graph layer and the read-out. The aggregate is again the reference's. Region 4 applies the folded
  batch-norm map and relu, adds the previous hidden state, and runs the two-layer read-out
  relu(h · W1 + b1) · W2 + b2 on it, leaving a one-column matrix; the last host operation re-lays it as a vector.
  Entry by entry these are the reference's stages, so the kernel's result is the reference's result.
-/
import proofs.«135840_j20212116095605_2_alg».proof.Proof.EntryK
import proofs.«135840_j20212116095605_2_alg».proof.Proof.EntryR
import proofs.«135840_j20212116095605_2_alg».proof.Proof.ReadP
import proofs.«135840_j20212116095605_2_alg».proof.Proof.Bn
import proofs.«135840_j20212116095605_2_alg».proof.Proof.Region4
import proofs.«135840_j20212116095605_2_alg».proof.Proof.Tail
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen Cert.ReferenceIdeal.Read
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

open scoped BigOperators

/-- The aggregate of layer 2 is the reference's. -/
theorem agg2_eq
    (hw2 : W10 m ρ c (Proc.devRef .tc main_v91_1) = val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) : W11 m ρ c (Proc.devRef .tc main_v109)
    = val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after (hostOps4 (F := Ideal)) (W10 m ρ c) (Proc.devRef .tc main_v109) = _
  after_results_simp
  rw [(W10_keep m ρ c main_v3 (by decide) (by decide)).trans ((W8_keep m ρ c main_v3 (by decide) (by decide)).trans (W6_keep m ρ c main_v3 (by decide) (by decide) (by decide))), src_eq, (W10_keep m ρ c main_v6 (by decide) (by decide)).trans ((W8_keep m ρ c main_v6 (by decide) (by decide)).trans (W6_keep m ρ c main_v6 (by decide) (by decide) (by decide))), dst_eq,
    (W10_keep m ρ c main_v32 (by decide) (by decide)).trans ((W8_keep m ρ c main_v32 (by decide) (by decide)).trans (W6_keep m ρ c main_v32 (by decide) (by decide) (by decide))), norm_eq, hw2,
    (W10_keep m ρ c main_arg5 (by decide) (by decide)).trans ((W8_keep m ρ c main_arg5 (by decide) (by decide)).trans (W6_keep m ρ c main_arg5 (by decide) (by decide) (by decide))), arg_at_entry m ρ c main_arg5 (by decide) (by decide) (by decide)]
  rfl

/-- Row 2 of the folded scale. -/
theorem srow2_eq : W11 m ρ c (Proc.devRef .tc main_v110)
    = extractStridedSlice S1x128 ![2, 0] (scaleAll (m ((c : Thread nD τ).loc main_arg6)) (m ((c : Thread nD τ).loc main_arg9))) slices_S3x128_S1x128_2_0 := by
  show StableHlo.after (hostOps4 (F := Ideal)) (W10 m ρ c) (Proc.devRef .tc main_v110) = _
  after_results_simp
  rw [(W10_keep m ρ c main_v36 (by decide) (by decide)).trans ((W8_keep m ρ c main_v36 (by decide) (by decide)).trans (W6_keep m ρ c main_v36 (by decide) (by decide) (by decide))), scale_eq]

/-- Row 2 of the folded shift. -/
theorem trow2_eq : W11 m ρ c (Proc.devRef .tc main_v111)
    = extractStridedSlice S1x128 ![2, 0] (shiftAll (m ((c : Thread nD τ).loc main_arg6)) (m ((c : Thread nD τ).loc main_arg7)) (m ((c : Thread nD τ).loc main_arg8)) (m ((c : Thread nD τ).loc main_arg9))) slices_S3x128_S1x128_2_0 := by
  show StableHlo.after (hostOps4 (F := Ideal)) (W10 m ρ c) (Proc.devRef .tc main_v111) = _
  after_results_simp
  rw [(W10_keep m ρ c main_v38 (by decide) (by decide)).trans ((W8_keep m ρ c main_v38 (by decide) (by decide)).trans (W6_keep m ρ c main_v38 (by decide) (by decide) (by decide))), shift_eq]

/-- The hidden state after layer 1 is still in place when region 4 reads it as the residual. -/
theorem hin2_eq
    (h2 : W10 m ρ c (Proc.devRef .tc main_v91_0) = val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :
    W11 m ρ c (Proc.devRef .tc main_v91_0) = val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (keep4 (W10 m ρ c) main_v91_0 (by decide)).trans h2

/-- The read-out's parameters as region 4 finds them. -/
theorem w1_eq : W11 m ρ c (Proc.devRef .tc main_arg10) = (m ((c : Thread nD τ).loc main_arg10)) :=
  (W11_keep m ρ c main_arg10 (by decide)).trans (((W10_keep m ρ c main_arg10 (by decide) (by decide)).trans ((W8_keep m ρ c main_arg10 (by decide) (by decide)).trans (W6_keep m ρ c main_arg10 (by decide) (by decide) (by decide)))).trans (arg_at_entry m ρ c main_arg10 (by decide) (by decide) (by decide)))
theorem b1row_eq : W11 m ρ c (Proc.devRef .tc main_v40) = shapeCast S1x64 (m ((c : Thread nD τ).loc main_arg11)) shapeCasts_S64_S1x64 :=
  (W11_keep m ρ c main_v40 (by decide)).trans (((W10_keep m ρ c main_v40 (by decide) (by decide)).trans ((W8_keep m ρ c main_v40 (by decide) (by decide)).trans (W6_keep m ρ c main_v40 (by decide) (by decide) (by decide)))).trans (b1_eq m ρ c))
theorem w2_eq : W11 m ρ c (Proc.devRef .tc main_arg12) = (m ((c : Thread nD τ).loc main_arg12)) :=
  (W11_keep m ρ c main_arg12 (by decide)).trans (((W10_keep m ρ c main_arg12 (by decide) (by decide)).trans ((W8_keep m ρ c main_arg12 (by decide) (by decide)).trans (W6_keep m ρ c main_arg12 (by decide) (by decide) (by decide)))).trans (arg_at_entry m ρ c main_arg12 (by decide) (by decide) (by decide)))
theorem b2row_eq : W11 m ρ c (Proc.devRef .tc main_v41) = shapeCast S1x1 (m ((c : Thread nD τ).loc main_arg13)) shapeCasts_S1_S1x1 :=
  (W11_keep m ρ c main_v41 (by decide)).trans (((W10_keep m ρ c main_v41 (by decide) (by decide)).trans ((W8_keep m ρ c main_v41 (by decide) (by decide)).trans (W6_keep m ρ c main_v41 (by decide) (by decide) (by decide)))).trans (b2_eq m ρ c))

/-- A 64-vector re-laid as a one-row matrix, read at column j. -/
theorem row64_apply (x : FVec Ideal S64 .f32) (j : Fin 64) :
    shapeCast S1x64 x shapeCasts_S64_S1x64 (ix2 (0 : Fin 1) j) = x (ix1 j) :=
  shapeCast_apply x shapeCasts_S64_S1x64 (ix2 (0 : Fin 1) j) (ix1 j)
    (by rewrite [Shape.rowMajor_val_two, Shape.rowMajor_val_one]; show j.val = 0 * 64 + j.val; omega)

/-- A 1-vector re-laid as a one-by-one matrix. -/
theorem unit_row_apply (x : FVec Ideal S1 .f32) :
    shapeCast S1x1 x shapeCasts_S1_S1x1 (ix2 (0 : Fin 1) (0 : Fin 1)) = x (ix1 (0 : Fin 1)) :=
  shapeCast_apply x shapeCasts_S1_S1x1 (ix2 (0 : Fin 1) (0 : Fin 1)) (ix1 (0 : Fin 1))
    (by rewrite [Shape.rowMajor_val_two, Shape.rowMajor_val_one]; show 0 = 0 * 1 + 0; omega)

/-- Layer 2 at one entry: the folded affine map then relu, on the aggregate, is the reference's batch norm then
    relu. -/
theorem bn2_point (hR : BnReal m c) (A : S50000x128.Idx → EReal) (S T : S1x128.Idx → EReal)
    (hA : A = val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (hS : S = extractStridedSlice S1x128 ![2, 0] (scaleAll (m ((c : Thread nD τ).loc main_arg6)) (m ((c : Thread nD τ).loc main_arg9))) slices_S3x128_S1x128_2_0)
    (hT : T = extractStridedSlice S1x128 ![2, 0] (shiftAll (m ((c : Thread nD τ).loc main_arg6)) (m ((c : Thread nD τ).loc main_arg7)) (m ((c : Thread nD τ).loc main_arg8)) (m ((c : Thread nD τ).loc main_arg9))) slices_S3x128_S1x128_2_0)
    (r : Fin 50000) (k : Fin 128) :
    max (A (ix2 r k) * S (ix2 (0 : Fin 1) k) + T (ix2 (0 : Fin 1) k)) (0 : EReal)
      = val_main_v170 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 r k) := by
  subst hS hT
  rw [row2_apply, row2_apply,
    bn_entry _ _ _ _ _ (hR.gamma _) (hR.beta _) (hR.mean _) (hR.var _)]
  rw [val_main_v170_apply, val_main_v169_apply, val_main_v164_apply, val_main_v159_apply, val_main_v151_apply,
    val_main_v150_apply, val_main_v149_apply, val_main_v148_apply, val_main_v147_apply,
    val_main_v158_apply, val_main_v157_apply, val_main_v156_apply, val_main_v155_apply, val_main_v154_apply, val_main_v153_apply, val_main_v152_apply, val_main_cst_18_apply,
    val_main_v163_apply, val_main_v162_apply, val_main_v161_apply, val_main_v160_apply,
    val_main_v168_apply, val_main_v167_apply, val_main_v166_apply, val_main_v165_apply,
    val_main_call4_v0_apply, val_main_call4_cst_apply]
  rw [← hA]
  have e8 : idx_main_v147 (idx_main_v148 (idx_main_v149 (idx_main_v150 (ix2 r k)))) = ix2 (2 : Fin 3) k :=
    funext fun a => match a with | ⟨0, _⟩ => rfl | ⟨1, _⟩ => Fin.ext (Nat.mod_eq_of_lt k.isLt)
  have e9 : idx_main_v152 (idx_main_v153 (idx_main_v157 (idx_main_v158 (ix2 r k)))) = ix2 (2 : Fin 3) k :=
    funext fun a => match a with | ⟨0, _⟩ => rfl | ⟨1, _⟩ => Fin.ext (Nat.mod_eq_of_lt k.isLt)
  have e6 : idx_main_v160 (idx_main_v161 (idx_main_v162 (idx_main_v163 (ix2 r k)))) = ix2 (2 : Fin 3) k :=
    funext fun a => match a with | ⟨0, _⟩ => rfl | ⟨1, _⟩ => Fin.ext (Nat.mod_eq_of_lt k.isLt)
  have e7 : idx_main_v165 (idx_main_v166 (idx_main_v167 (idx_main_v168 (ix2 r k)))) = ix2 (2 : Fin 3) k :=
    funext fun a => match a with | ⟨0, _⟩ => rfl | ⟨1, _⟩ => Fin.ext (Nat.mod_eq_of_lt k.isLt)
  simp only [e8, e9, e6, e7, Ideal.maximumf_def, Ideal.addf_def, Ideal.mulf_def, Ideal.subf_def,
    Ideal.hostUnary_rsqrt_def, Ideal.ofBits_def, Ideal.ofBits_zero_f32]

/-- Layer 2 with its residual at one entry. -/
theorem res2_point (hR : BnReal m c) (A : S50000x128.Idx → EReal) (S T : S1x128.Idx → EReal) (H : S50000x128.Idx → EReal)
    (hA : A = val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (hS : S = extractStridedSlice S1x128 ![2, 0] (scaleAll (m ((c : Thread nD τ).loc main_arg6)) (m ((c : Thread nD τ).loc main_arg9))) slices_S3x128_S1x128_2_0)
    (hT : T = extractStridedSlice S1x128 ![2, 0] (shiftAll (m ((c : Thread nD τ).loc main_arg6)) (m ((c : Thread nD τ).loc main_arg7)) (m ((c : Thread nD τ).loc main_arg8)) (m ((c : Thread nD τ).loc main_arg9))) slices_S3x128_S1x128_2_0)
    (hH : H = val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (r : Fin 50000) (k : Fin 128) :
    max (A (ix2 r k) * S (ix2 (0 : Fin 1) k) + T (ix2 (0 : Fin 1) k)) (0 : EReal) + H (ix2 r k)
      = val_main_v171 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 r k) := by
  rw [bn2_point m c hR A S T hA hS hT r k, hH, val_main_v171_apply, Ideal.addf_def]

/-- The read-out on the rows: if the rectified, normalised aggregate plus the residual is Hfin entry by entry, and the
    bias rows read the bias vectors, region 4's sum over the hidden coordinates is the read-out of Hfin. -/
theorem head_bridge (A : S50000x128.Idx → EReal) (S T : S1x128.Idx → EReal) (HIN : S50000x128.Idx → EReal)
    (W1 : S128x64.Idx → EReal) (B1row : S1x64.Idx → EReal) (W2 : S64x1.Idx → EReal) (B2row : S1x1.Idx → EReal)
    (Hfin : S50000x128.Idx → EReal) (B1 : S64.Idx → EReal) (B2 : S1.Idx → EReal)
    (hpt : ∀ (r : Fin 50000) (k : Fin 128),
      max (A (ix2 r k) * S (ix2 (0 : Fin 1) k) + T (ix2 (0 : Fin 1) k)) (0 : EReal) + HIN (ix2 r k) = Hfin (ix2 r k))
    (hb1 : ∀ j : Fin 64, B1row (ix2 (0 : Fin 1) j) = B1 (ix1 j))
    (hb2 : B2row (ix2 (0 : Fin 1) (0 : Fin 1)) = B2 (ix1 (0 : Fin 1))) (r : Fin 50000) :
    (∑ j : Fin 64, Region4.hid A S T HIN W1 B1row r j * W2 (ix2 j (0 : Fin 1))) + B2row (ix2 (0 : Fin 1) (0 : Fin 1))
      = (∑ j : Fin 64, max ((∑ k : Fin 128, Hfin (ix2 r k) * W1 (ix2 k j)) + B1 (ix1 j)) (0 : EReal) * W2 (ix2 j (0 : Fin 1)))
          + B2 (ix1 (0 : Fin 1)) := by
  unfold Region4.hid Region4.hh
  simp only [hpt, hb1, hb2]

/-- Region 4's output array is the reference's result as a one-column matrix. -/
theorem out_eq (hR : BnReal m c)
    (h2 : W10 m ρ c (Proc.devRef .tc main_v91_0) = val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (hw2 : W10 m ρ c (Proc.devRef .tc main_v91_1) = val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) : W12 m ρ c (Proc.devRef .tc main_v112)
    = val_main_v180 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [show W12 m ρ c (Proc.devRef .tc main_v112) = (dat4 (V11 m ρ) c).arrAt 8 cfg4.N from W12_arr m ρ c 8]
  funext i
  obtain ⟨r, z, rfl⟩ : ∃ (r : Fin 50000) (z : Fin 1), i = ix2 r z := ⟨i 0, i 1, eq_ix2 i⟩
  obtain rfl : z = 0 := Subsingleton.elim _ _
  obtain ⟨A, hA⟩ : ∃ A : S50000x128.Idx → EReal, A = val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := ⟨_, rfl⟩
  obtain ⟨HIN, hHIN⟩ : ∃ HIN : S50000x128.Idx → EReal, HIN = val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := ⟨_, rfl⟩
  obtain ⟨Hfin, hHfin⟩ : ∃ Hfin : S50000x128.Idx → EReal, Hfin = val_main_v171 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := ⟨_, rfl⟩
  obtain ⟨S, hS⟩ : ∃ S : S1x128.Idx → EReal, S = extractStridedSlice S1x128 ![2, 0] (scaleAll (m ((c : Thread nD τ).loc main_arg6)) (m ((c : Thread nD τ).loc main_arg9))) slices_S3x128_S1x128_2_0 := ⟨_, rfl⟩
  obtain ⟨T, hT⟩ : ∃ T : S1x128.Idx → EReal, T = extractStridedSlice S1x128 ![2, 0] (shiftAll (m ((c : Thread nD τ).loc main_arg6)) (m ((c : Thread nD τ).loc main_arg7)) (m ((c : Thread nD τ).loc main_arg8)) (m ((c : Thread nD τ).loc main_arg9))) slices_S3x128_S1x128_2_0 := ⟨_, rfl⟩
  refine (Region4.arrAt_apply (V11 m ρ) c A S T HIN (m ((c : Thread nD τ).loc main_arg10))
    (shapeCast S1x64 (m ((c : Thread nD τ).loc main_arg11)) shapeCasts_S64_S1x64) (m ((c : Thread nD τ).loc main_arg12))
    (shapeCast S1x1 (m ((c : Thread nD τ).loc main_arg13)) shapeCasts_S1_S1x1)
    ((agg2_eq m ρ c hw2).trans hA.symm) ((srow2_eq m ρ c).trans hS.symm) ((trow2_eq m ρ c).trans hT.symm)
    ((hin2_eq m ρ c h2).trans hHIN.symm) (w1_eq m ρ c) (b1row_eq m ρ c) (w2_eq m ρ c) (b2row_eq m ρ c) r).trans ?_
  refine (head_bridge A S T HIN (m ((c : Thread nD τ).loc main_arg10))
    (shapeCast S1x64 (m ((c : Thread nD τ).loc main_arg11)) shapeCasts_S64_S1x64) (m ((c : Thread nD τ).loc main_arg12))
    (shapeCast S1x1 (m ((c : Thread nD τ).loc main_arg13)) shapeCasts_S1_S1x1) Hfin
    (m ((c : Thread nD τ).loc main_arg11)) (m ((c : Thread nD τ).loc main_arg13))
    (fun r k => (res2_point m c hR A S T HIN hA hS hT hHIN r k).trans (congrFun hHfin.symm (ix2 r k)))
    (fun j => row64_apply (m ((c : Thread nD τ).loc main_arg11)) j)
    (unit_row_apply (m ((c : Thread nD τ).loc main_arg13))) r).trans ?_
  exact Tail.head_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) Hfin (m ((c : Thread nD τ).loc main_arg10)) (m ((c : Thread nD τ).loc main_arg11)) (m ((c : Thread nD τ).loc main_arg12)) (m ((c : Thread nD τ).loc main_arg13)) hHfin rfl rfl rfl rfl r

/-- The kernel's result buffer at the last boundary is the reference's result stage of the argument arrays. -/
theorem result_of_layer1 (hR : BnReal m c)
    (h2 : W10 m ρ c (Proc.devRef .tc main_v91_0) = val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (hw2 : W10 m ρ c (Proc.devRef .tc main_v91_1) = val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) : W13 m ρ c (Proc.devRef .tc main_v113)
    = val_main_v181 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after (hostOps5 (F := Ideal)) (W12 m ρ c) (Proc.devRef .tc main_v113) = _
  after_results_simp
  rw [out_eq m ρ c hR h2 hw2]
  rfl

end Cert.KernelIdeal.Hand

end
-- ==== Proof.Chain.lean ====
/-
  The three layers and the read-out composed: the kernel's result buffer at the last boundary holds the reference's
  last stage of the argument arrays.
-/
import proofs.«135840_j20212116095605_2_alg».proof.Proof.Stage1
import proofs.«135840_j20212116095605_2_alg».proof.Proof.Stage2
import proofs.«135840_j20212116095605_2_alg».proof.Proof.Stage3
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen Cert.ReferenceIdeal.Read
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-- The kernel's result is the reference's result stage of the same argument arrays. -/
theorem result_eq (hR : BnReal m c) : W13 m ρ c (Proc.devRef .tc main_v113)
    = val_main_v181 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  result_of_layer1 m ρ c hR
    (h2_eq m ρ c hR (h1_eq m ρ c hR) (hw1_eq m ρ c hR))
    (hw2_eq m ρ c hR (h1_eq m ρ c hR) (hw1_eq m ρ c hR))

end Cert.KernelIdeal.Hand

end
-- ==== Proof.RefLast.lean ====
/-
  The reference's run ends with its result buffer at one composed term of the argument arrays; that term is the
  last of the reference's stages (each stage is the operation applied to the stages of its operands, so unfolding
  the stages gives back the composed term).
-/
import proofs.«135840_j20212116095605_2_alg».proof.Proof.RunP
import proofs.«135840_j20212116095605_2_alg».proof.Proof.ReadP

set_option maxRecDepth 16384

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

/-- The term the run names for the result is the last stage of the argument arrays. -/
theorem result_term_eq (m : (ℓ : Loc nD τ sig) → Buf (Elt F) ℓ) (c : Dev nD) :
    Cert.ReferenceIdeal.Value.res_main_v181 m c = val_main_v181 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  unfold Cert.ReferenceIdeal.Value.res_main_v181; rfl

end Cert.ReferenceIdeal.Read

end
-- ==== Proof.lean ====
/-
  The certificate of a three-layer graph convolution network (dense input layer, three rounds of
  "project, gather along the edges, weight, sum into the destination nodes, add a bias, batch-norm, relu,
  residual", and a two-layer read-out) whose dense stages run as five tiled kernels against a plain reference.

  At the extended reals the two programs compute the same result, stage by stage: every format change is the
  identity, every tiled matrix product is the reference's sum of products at each entry, and the edge
  gather / scatter stages are the same host operations on both sides. The one place where the programs differ
  as written is the batch norm: the kernel applies  a · s + t  with the folded  s = γ · rsqrt(v + ε),
  t = β − μ · s,  the reference  ((a − μ) · rsqrt(v + ε)) · γ + β.  With γ, β, μ real and the variance real and
  ≥ 0 (the precondition) the two agree at every extended real a; without the sign condition they do not
  (at v = −ε the reciprocal square root is +∞ and the two sides part).

  The frames are the generated ones (the reference's from its run); `preserves` is trivial, the idealization having
  rewritten nothing.
-/
import proofs.«135840_j20212116095605_2_alg».proof.Defs
import proofs.«135840_j20212116095605_2_alg».proof.Proof.Gen.Kernel
import proofs.«135840_j20212116095605_2_alg».proof.Proof.Gen.Kernel.Frame
import proofs.«135840_j20212116095605_2_alg».proof.Proof.Gen.KernelIdeal
import proofs.«135840_j20212116095605_2_alg».proof.Proof.Gen.KernelIdeal.Frame
import proofs.«135840_j20212116095605_2_alg».proof.Proof.Gen.ReferenceIdeal
import proofs.«135840_j20212116095605_2_alg».proof.Proof.Gen.Pre_finite_inputs
import proofs.«135840_j20212116095605_2_alg».proof.Proof.KernelRun
import proofs.«135840_j20212116095605_2_alg».proof.Proof.PreDecode
import proofs.«135840_j20212116095605_2_alg».proof.Proof.Chain
import proofs.«135840_j20212116095605_2_alg».proof.Proof.RunP
import proofs.«135840_j20212116095605_2_alg».proof.Proof.RefLast
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs end with the same result: the kernel's result
    buffer holds the reference's last stage of the kernel's argument arrays, and the reference's run ends at that
    stage of its own arguments, which are the same arrays. -/
theorem algebraic : Cert.algebraic_KernelIdeal_ReferenceIdeal := by
  intro m ρ m' ρ' hpre hagree
  have hR : ∀ c, Cert.KernelIdeal.Hand.BnReal m c := fun c => by
    obtain ⟨h6, h7, h8, h9⟩ := Cert.PreFacts.decode _ _ _ _ _ _ _ _ _ _ _ _ _ _ (hpre c)
    exact ⟨h6, h7, h8, h9⟩
  refine ⟨fun c => Cert.KernelIdeal.Gen.W13 m ρ c (Proc.devRef .tc Cert.KernelIdeal.main_v113),
    Cert.KernelIdeal.Hand.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.result_term_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
  exact (Cert.KernelIdeal.Hand.result_eq m ρ c (hR c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
